-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S2048 : Shape := ⟨1, ![2048]⟩
abbrev S1024x2002 : Shape := ⟨2, ![1024, 2002]⟩
abbrev S1024x1024 : Shape := ⟨2, ![1024, 1024]⟩
abbrev S1024x8000 : Shape := ⟨2, ![1024, 8000]⟩
abbrev S1024x256 : Shape := ⟨2, ![1024, 256]⟩
abbrev S256x40000 : Shape := ⟨2, ![256, 40000]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x2002 : S_.BroadcastsInDim S1024x2002 (![] : Fin 0 → Fin S1024x2002.rank)
  reducesTo_S1024x2002_S_d0_1 : S1024x2002.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024x8000 : S_.BroadcastsInDim S1024x8000 (![] : Fin 0 → Fin S1024x8000.rank)
  reducesTo_S1024x8000_S_d0_1 : S1024x8000.ReducesTo [0, 1] S_
  bcast_S_S1024x256 : S_.BroadcastsInDim S1024x256 (![] : Fin 0 → Fin S1024x256.rank)
  reducesTo_S1024x256_S_d0_1 : S1024x256.ReducesTo [0, 1] S_
  bcast_S_S256x40000 : S_.BroadcastsInDim S256x40000 (![] : Fin 0 → Fin S256x40000.rank)
  reducesTo_S256x40000_S_d0_1 : S256x40000.ReducesTo [0, 1] S_

variable [Facts]

def fn_part1 {F : FTy → Type} [FloatOps F] (main_arg5 : FVec F S1024x256 .f32) (main_arg6 : FVec F S256x40000 .f32) (main_v13 : IVec S_ 1) (main_v16 : IVec S1024x8000 1) : IVec S_ 1 :=
  let main_c_5 : IVec S_ 1 := constantI S_ 1 1#1
  let main_v17 : IVec S_ 1 := (fun x v => Host.reduce IntOp.andi x v reducesTo_S1024x8000_S_d0_1 h_S_) main_v16 main_c_5
  let main_v18 : IVec S_ 1 := andi main_v13 main_v17
  let main_v19 : FVec F S1024x256 .f32 := Host.absf main_arg5
  let main_cst_6 : FVec F S_ .f32 := constant S_ .f32 0x7F800000#32
  let main_v20 : FVec F S1024x256 .f32 := broadcastInDim S1024x256 ![] bcast_S_S1024x256 main_cst_6
  let main_v21 : IVec S1024x256 1 := cmpf .olt main_v19 main_v20
  let main_c_7 : IVec S_ 1 := constantI S_ 1 1#1
  let main_v22 : IVec S_ 1 := (fun x v => Host.reduce IntOp.andi x v reducesTo_S1024x256_S_d0_1 h_S_) main_v21 main_c_7
  let main_v23 : IVec S_ 1 := andi main_v18 main_v22
  let main_v24 : FVec F S256x40000 .f32 := Host.absf main_arg6
  let main_cst_8 : FVec F S_ .f32 := constant S_ .f32 0x7F800000#32
  let main_v25 : FVec F S256x40000 .f32 := broadcastInDim S256x40000 ![] bcast_S_S256x40000 main_cst_8
  let main_v26 : IVec S256x40000 1 := cmpf .olt main_v24 main_v25
  let main_c_9 : IVec S_ 1 := constantI S_ 1 1#1
  let main_v27 : IVec S_ 1 := (fun x v => Host.reduce IntOp.andi x v reducesTo_S256x40000_S_d0_1 h_S_) main_v26 main_c_9
  let main_v28 : IVec S_ 1 := andi main_v23 main_v27
  main_v28

def fn {F : FTy → Type} [FloatOps F] (main_arg0 : FVec F S2048x1024 .f32) (main_arg1 : IVec S2048 32) (main_arg2 : FVec F S1024x2002 .f32) (main_arg3 : FVec F S1024x1024 .f32) (main_arg4 : FVec F S1024x8000 .f32) (main_arg5 : FVec F S1024x256 .f32) (main_arg6 : FVec F S256x40000 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1024x2002 .f32 := Host.absf main_arg2
  let main_cst_0 : FVec F S_ .f32 := constant S_ .f32 0x7F800000#32
  let main_v5 : FVec F S1024x2002 .f32 := broadcastInDim S1024x2002 ![] bcast_S_S1024x2002 main_cst_0
  let main_v6 : IVec S1024x2002 1 := cmpf .olt main_v4 main_v5
  let main_c_1 : IVec S_ 1 := constantI S_ 1 1#1
  let main_v7 : IVec S_ 1 := (fun x v => Host.reduce IntOp.andi x v reducesTo_S1024x2002_S_d0_1 h_S_) main_v6 main_c_1
  let main_v8 : IVec S_ 1 := andi main_v3 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x8000 .f32 := Host.absf main_arg4
  let main_cst_4 : FVec F S_ .f32 := constant S_ .f32 0x7F800000#32
  let main_v15 : FVec F S1024x8000 .f32 := broadcastInDim S1024x8000 ![] bcast_S_S1024x8000 main_cst_4
  let main_v16 : IVec S1024x8000 1 := cmpf .olt main_v14 main_v15
  fn_part1 (F := F) main_arg5 main_arg6 main_v13 main_v16
-- ==== Kernel.lean ====
abbrev S2048x1024 : Shape := ⟨2, ![2048, 1024]⟩
abbrev S2048 : Shape := ⟨1, ![2048]⟩
abbrev S1024x2002 : Shape := ⟨2, ![1024, 2002]⟩
abbrev S1024x1024 : Shape := ⟨2, ![1024, 1024]⟩
abbrev S1024x8000 : Shape := ⟨2, ![1024, 8000]⟩
abbrev S1024x256 : Shape := ⟨2, ![1024, 256]⟩
abbrev S256x40000 : Shape := ⟨2, ![256, 40000]⟩
abbrev S2048x2002 : Shape := ⟨2, ![2048, 2002]⟩
abbrev S_ : Shape := ⟨0, ![]⟩
abbrev S2048x1 : Shape := ⟨2, ![2048, 1]⟩
abbrev S2048x8000 : Shape := ⟨2, ![2048, 8000]⟩
abbrev S1024x2048 : Shape := ⟨2, ![1024, 2048]⟩
abbrev S1024x1 : Shape := ⟨2, ![1024, 1]⟩
abbrev S2048x40000 : Shape := ⟨2, ![2048, 40000]⟩
abbrev S256x3200 : Shape := ⟨2, ![256, 3200]⟩
abbrev S1024x3200 : Shape := ⟨2, ![1024, 3200]⟩
abbrev S2048x50002 : Shape := ⟨2, ![2048, 50002]⟩

abbrev nBuf : Space → Nat
  | .hbm => 35
  | .vmem => 25
  | .smem => 0
  | _ => 0

abbrev bufTy : (tb : Table) → Fin (tcTables nBuf tb) → BufTy
  | .hbm, ⟨0, _⟩ => ⟨S2048x1024, .f32⟩
  | .hbm, ⟨1, _⟩ => ⟨S2048, .i32⟩
  | .hbm, ⟨2, _⟩ => ⟨S1024x2002, .f32⟩
  | .hbm, ⟨3, _⟩ => ⟨S1024x1024, .f32⟩
  | .hbm, ⟨4, _⟩ => ⟨S1024x8000, .f32⟩
  | .hbm, ⟨5, _⟩ => ⟨S1024x256, .f32⟩
  | .hbm, ⟨6, _⟩ => ⟨S256x40000, .f32⟩
  | .hbm, ⟨7, _⟩ => ⟨S2048x1024, .bf16⟩
  | .hbm, ⟨8, _⟩ => ⟨S1024x2002, .bf16⟩
  | .hbm, ⟨9, _⟩ => ⟨S2048x2002, .f32⟩
  | .hbm, ⟨10, _⟩ => ⟨S_, .i32⟩
  | .hbm, ⟨11, _⟩ => ⟨S2048, .i32⟩
  | .hbm, ⟨12, _⟩ => ⟨S2048, .i1⟩
  | .hbm, ⟨13, _⟩ => ⟨S_, .i32⟩
  | .hbm, ⟨14, _⟩ => ⟨S2048, .i32⟩
  | .hbm, ⟨15, _⟩ => ⟨S2048, .i1⟩
  | .hbm, ⟨16, _⟩ => ⟨S2048, .i1⟩
  | .hbm, ⟨17, _⟩ => ⟨S2048, .f32⟩
  | .hbm, ⟨18, _⟩ => ⟨S2048x1, .f32⟩
  | .hbm, ⟨19, _⟩ => ⟨S_, .i32⟩
  | .hbm, ⟨20, _⟩ => ⟨S2048, .i32⟩
  | .hbm, ⟨21, _⟩ => ⟨S2048, .i1⟩
  | .hbm, ⟨22, _⟩ => ⟨S_, .i32⟩
  | .hbm, ⟨23, _⟩ => ⟨S2048, .i32⟩
  | .hbm, ⟨24, _⟩ => ⟨S2048, .i1⟩
  | .hbm, ⟨25, _⟩ => ⟨S2048, .i1⟩
  | .hbm, ⟨26, _⟩ => ⟨S2048, .f32⟩
  | .hbm, ⟨27, _⟩ => ⟨S2048x1, .f32⟩
  | .hbm, ⟨28, _⟩ => ⟨S1024x1024, .bf16⟩
  | .hbm, ⟨29, _⟩ => ⟨S1024x8000, .bf16⟩
  | .hbm, ⟨30, _⟩ => ⟨S2048x8000, .f32⟩
  | .hbm, ⟨31, _⟩ => ⟨S1024x256, .bf16⟩
  | .hbm, ⟨32, _⟩ => ⟨S256x40000, .bf16⟩
  | .hbm, ⟨33, _⟩ => ⟨S2048x40000, .f32⟩
  | .hbm, ⟨34, _⟩ => ⟨S2048x50002, .f32⟩
  | .local _ .vmem, ⟨0, _⟩ => ⟨S1024x1024, .bf16⟩
  | .local _ .vmem, ⟨1, _⟩ => ⟨S1024x1024, .bf16⟩
  | .local _ .vmem, ⟨2, _⟩ => ⟨S1024x2002, .bf16⟩
  | .local _ .vmem, ⟨3, _⟩ => ⟨S1024x2002, .f32⟩
  | .local _ .vmem, ⟨4, _⟩ => ⟨S1024x2002, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x2048, .bf16⟩
  | .local _ .vmem, ⟨9, _⟩ => ⟨S1024x2048, .bf16⟩
  | .local _ .vmem, ⟨10, _⟩ => ⟨S1024x1, .f32⟩
  | .local _ .vmem, ⟨11, _⟩ => ⟨S1024x1, .f32⟩
  | .local _ .vmem, ⟨12, _⟩ => ⟨S1024x2048, .f32⟩
  | .local _ .vmem, ⟨13, _⟩ => ⟨S1024x2048, .f32⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x256, .bf16⟩
  | .local _ .vmem, ⟨18, _⟩ => ⟨S256x3200, .bf16⟩
  | .local _ .vmem, ⟨19, _⟩ => ⟨S256x3200, .bf16⟩
  | .local _ .vmem, ⟨20, _⟩ => ⟨S1024x1, .f32⟩
  | .local _ .vmem, ⟨21, _⟩ => ⟨S1024x1, .f32⟩
  | .local _ .vmem, ⟨22, _⟩ => ⟨S1024x3200, .f32⟩
  | .local _ .vmem, ⟨23, _⟩ => ⟨S1024x3200, .f32⟩
  | .local _ .vmem, ⟨24, _⟩ => ⟨S1024x256, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_scratch0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg4_1 : Ref sig .tc := ⟨.vmem, 23, rfl⟩
abbrev cc2_scratch0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc2_sem4_0 : DmaSem sig := 21
abbrev cc2_sem4_1 : DmaSem sig := 22

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2002 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2002 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1024x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1024x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨2, ![2, 13], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S1024x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S256x3200 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1024x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1024x3200 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

class Facts₀ : Prop where
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2002_S1024x2002_0_0 : ∀ a, (![0, 0] : Fin 2 → Nat) a + S1024x2002.size a ≤ S1024x2002.size a
  h_S1024x2002 : 0 < S1024x2002.numel
  shapeCasts_S1024x2002_S1024x2002 : S1024x2002.ShapeCasts S1024x2002
  bcast_S_S2048 : S_.BroadcastsInDim S2048 (![] : Fin 0 → Fin S2048.rank)
  bcast_S2048_S2048x1_0 : S2048.BroadcastsInDim S2048x1 (![0] : Fin 1 → Fin S2048x1.rank)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x1024 : S1024x1.Broadcasts S1024x1024
  packedbf16_S1024x1024_S1024x1024_0_0 : (Rect.unit (s := S1024x1024) ![0, 0] S1024x1024.size inb_S1024x1024_S1024x1024_0_0).PackedRows (EltTy.packing .bf16)
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  broadcasts_S1024x1_S1024x256 : S1024x1.Broadcasts S1024x256
  packedbf16_S1024x256_S1024x256_0_0 : (Rect.unit (s := S1024x256) ![0, 0] S1024x256.size inb_S1024x256_S1024x256_0_0).PackedRows (EltTy.packing .bf16)
  inb_S256x3200_S256x3200_0_0 : ∀ a, (![0, 0] : Fin 2 → Nat) a + S256x3200.size a ≤ S256x3200.size a
  h_S256x3200 : 0 < S256x3200.numel
  shapeCasts_S256x3200_S256x3200 : S256x3200.ShapeCasts S256x3200
  inb_S1024x3200_S1024x3200_0_0 : ∀ a, (![0, 0] : Fin 2 → Nat) a + S1024x3200.size a ≤ S1024x3200.size a
  h_S1024x3200 : 0 < S1024x3200.numel
  concatenates_S2048x2002_S2048x8000_S2048x40000_S2048x50002_d1 : Shape.Concatenates [S2048x2002, S2048x8000, S2048x40000] S2048x50002 1
  dot_S1024x1024_S1024x2002_S1024x2002_1_0_0_1_n_n_wf : DotDims.WF S1024x1024 S1024x2002 S1024x2002 [1] [0] [0] [1] [] []
  dot_S1024x1024_S1024x1024_S1024x1024_1_0_0_1_n_n_wf : DotDims.WF S1024x1024 S1024x1024 S1024x1024 [1] [0] [0] [1] [] []
  dot_S1024x1024_S1024x2048_S1024x2048_1_0_0_1_n_n_wf : DotDims.WF S1024x1024 S1024x2048 S1024x2048 [1] [0] [0] [1] [] []
  dot_S1024x1024_S1024x256_S1024x256_1_0_0_1_n_n_wf : DotDims.WF S1024x1024 S1024x256 S1024x256 [1] [0] [0] [1] [] []
  dot_S1024x256_S256x3200_S1024x3200_1_0_0_1_n_n_wf : DotDims.WF S1024x256 S256x3200 S1024x3200 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S2048x1024.size a
  hwx0_0 : ∀ i : grid0.Coords, EltTy.bits .bf16 = 32 ∨ (Rect.block (s := S2048x1024) S1024x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x2002.size a ≤ S1024x2002.size a
  hwx0_1 : ∀ i : grid0.Coords, EltTy.bits .bf16 = 32 ∨ (Rect.block (s := S1024x2002) S1024x2002.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2002.size a ≤ S2048x2002.size a
  hwx0_2 : ∀ i : grid0.Coords, EltTy.bits .f32 = 32 ∨ (Rect.block (s := S2048x2002) S1024x2002.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S2048x1024.size a
  hwx1_0 : ∀ i : grid1.Coords, EltTy.bits .bf16 = 32 ∨ (Rect.block (s := S2048x1024) S1024x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S1024x2048.size a < S1024x8000.size a
  hwx1_2 : ∀ i : grid1.Coords, EltTy.bits .bf16 = 32 ∨ (Rect.unit (s := S1024x8000) (fun a => cc1_transform_2 i a * S1024x2048.size a) (fun a => (Pipeline.Clip.of (cc1_transform_2 i a) (S1024x2048.size a) (S1024x8000.size a)).extent (S1024x2048.size a)) fun a => Pipeline.Clip.inb (Pipeline.Clip.ok_of (hstart1_2 i a))).WholeWords (EltTy.packing .bf16)
  hwxs1_2 : ∀ i : grid1.Coords, EltTy.bits .bf16 = 32 ∨ (Rect.unit (s := S1024x2048) (fun _ => 0) (fun a => (Pipeline.Clip.of (cc1_transform_2 i a) (S1024x2048.size a) (S1024x8000.size a)).extent (S1024x2048.size a)) fun a => (Nat.zero_add _).trans_le (Pipeline.Clip.extent_le (Pipeline.Clip.ok_of (hstart1_2 i a)))).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1.size a ≤ S2048x1.size a
  hwx1_3 : ∀ i : grid1.Coords, EltTy.bits .f32 = 32 ∨ (Rect.block (s := S2048x1) S1024x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hstart1_4 : ∀ (i : grid1.Coords) a, cc1_transform_4 i a * S1024x2048.size a < S2048x8000.size a
  hwx1_4 : ∀ i : grid1.Coords, EltTy.bits .f32 = 32 ∨ (Rect.unit (s := S2048x8000) (fun a => cc1_transform_4 i a * S1024x2048.size a) (fun a => (Pipeline.Clip.of (cc1_transform_4 i a) (S1024x2048.size a) (S2048x8000.size a)).extent (S1024x2048.size a)) fun a => Pipeline.Clip.inb (Pipeline.Clip.ok_of (hstart1_4 i a))).WholeWords (EltTy.packing .f32)
  hwxs1_4 : ∀ i : grid1.Coords, EltTy.bits .f32 = 32 ∨ (Rect.unit (s := S1024x2048) (fun _ => 0) (fun a => (Pipeline.Clip.of (cc1_transform_4 i a) (S1024x2048.size a) (S2048x8000.size a)).extent (S1024x2048.size a)) fun a => (Nat.zero_add _).trans_le (Pipeline.Clip.extent_le (Pipeline.Clip.ok_of (hstart1_4 i a)))).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S2048x1024.size a
  hwx2_0 : ∀ i : grid2.Coords, EltTy.bits .bf16 = 32 ∨ (Rect.block (s := S2048x1024) S1024x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x256.size a ≤ S1024x256.size a
  hwx2_1 : ∀ i : grid2.Coords, EltTy.bits .bf16 = 32 ∨ (Rect.block (s := S1024x256) S1024x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hstart2_2 : ∀ (i : grid2.Coords) a, cc2_transform_2 i a * S256x3200.size a < S256x40000.size a
  hwx2_2 : ∀ i : grid2.Coords, EltTy.bits .bf16 = 32 ∨ (Rect.unit (s := S256x40000) (fun a => cc2_transform_2 i a * S256x3200.size a) (fun a => (Pipeline.Clip.of (cc2_transform_2 i a) (S256x3200.size a) (S256x40000.size a)).extent (S256x3200.size a)) fun a => Pipeline.Clip.inb (Pipeline.Clip.ok_of (hstart2_2 i a))).WholeWords (EltTy.packing .bf16)
  hwxs2_2 : ∀ i : grid2.Coords, EltTy.bits .bf16 = 32 ∨ (Rect.unit (s := S256x3200) (fun _ => 0) (fun a => (Pipeline.Clip.of (cc2_transform_2 i a) (S256x3200.size a) (S256x40000.size a)).extent (S256x3200.size a)) fun a => (Nat.zero_add _).trans_le (Pipeline.Clip.extent_le (Pipeline.Clip.ok_of (hstart2_2 i a)))).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1.size a ≤ S2048x1.size a
  hwx2_3 : ∀ i : grid2.Coords, EltTy.bits .f32 = 32 ∨ (Rect.block (s := S2048x1) S1024x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hstart2_4 : ∀ (i : grid2.Coords) a, cc2_transform_4 i a * S1024x3200.size a < S2048x40000.size a
  hwx2_4 : ∀ i : grid2.Coords, EltTy.bits .f32 = 32 ∨ (Rect.unit (s := S2048x40000) (fun a => cc2_transform_4 i a * S1024x3200.size a) (fun a => (Pipeline.Clip.of (cc2_transform_4 i a) (S1024x3200.size a) (S2048x40000.size a)).extent (S1024x3200.size a)) fun a => Pipeline.Clip.inb (Pipeline.Clip.ok_of (hstart2_4 i a))).WholeWords (EltTy.packing .f32)
  hwxs2_4 : ∀ i : grid2.Coords, EltTy.bits .f32 = 32 ∨ (Rect.unit (s := S1024x3200) (fun _ => 0) (fun a => (Pipeline.Clip.of (cc2_transform_4 i a) (S1024x3200.size a) (S2048x40000.size a)).extent (S1024x3200.size a)) fun a => (Nat.zero_add _).trans_le (Pipeline.Clip.extent_le (Pipeline.Clip.ok_of (hstart2_4 i a)))).WholeWords (EltTy.packing .f32)

variable [Facts₀]

def dot_S1024x1024_S1024x2002_S1024x2002_1_0_0_1_n_n : DotDims S1024x1024 S1024x2002 S1024x2002 where
  lhsContracting := [1]
  rhsContracting := [0]
  lhsNonContracting := [0]
  rhsNonContracting := [1]
  lhsBatch := []
  rhsBatch := []
  wf := dot_S1024x1024_S1024x2002_S1024x2002_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x2048_S1024x2048_1_0_0_1_n_n : DotDims S1024x1024 S1024x2048 S1024x2048 where
  lhsContracting := [1]
  rhsContracting := [0]
  lhsNonContracting := [0]
  rhsNonContracting := [1]
  lhsBatch := []
  rhsBatch := []
  wf := dot_S1024x1024_S1024x2048_S1024x2048_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x3200_S1024x3200_1_0_0_1_n_n : DotDims S1024x256 S256x3200 S1024x3200 where
  lhsContracting := [1]
  rhsContracting := [0]
  lhsNonContracting := [0]
  rhsNonContracting := [1]
  lhsBatch := []
  rhsBatch := []
  wf := dot_S1024x256_S256x3200_S1024x3200_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x2002.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x2002.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpecClip (Memref.whole main_v18) S1024x2048.size cc1_transform_2 reads1_2 false false 2 stage1_2 sem1_2
    hrank1 hreads1_2 hstart1_2 nbuf1_2 (Memref.isWhole_whole _) hwx1_2 hwxs1_2 hstage1_2

abbrev win1_3 : Pipeline.Window sig grid1 :=
  Pipeline.Window.ofSpec (Memref.whole main_v9) S1024x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpecClip (Memref.whole main_v19) S1024x2048.size cc1_transform_4 reads1_4 true false 2 stage1_4 sem1_4
    hrank1 hreads1_4 hstart1_4 nbuf1_4 (Memref.isWhole_whole _) hwx1_4 hwxs1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v0) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S1024x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpecClip (Memref.whole main_v21) S256x3200.size cc2_transform_2 reads2_2 false false 2 stage2_2 sem2_2
    hrank2 hreads2_2 hstart2_2 nbuf2_2 (Memref.isWhole_whole _) hwx2_2 hwxs2_2 hstage2_2

abbrev win2_3 : Pipeline.Window sig grid2 :=
  Pipeline.Window.ofSpec (Memref.whole main_v16) S1024x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpecClip (Memref.whole main_v22) S1024x3200.size cc2_transform_4 reads2_4 true false 2 stage2_4 sem2_4
    hrank2 hreads2_4 hstart2_4 nbuf2_4 (Memref.isWhole_whole _) hwx2_4 hwxs2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S2048x1024 : Shape := ⟨2, ![2048, 1024]⟩
abbrev S2048 : Shape := ⟨1, ![2048]⟩
abbrev S1024x2002 : Shape := ⟨2, ![1024, 2002]⟩
abbrev S1024x1024 : Shape := ⟨2, ![1024, 1024]⟩
abbrev S1024x8000 : Shape := ⟨2, ![1024, 8000]⟩
abbrev S1024x256 : Shape := ⟨2, ![1024, 256]⟩
abbrev S256x40000 : Shape := ⟨2, ![256, 40000]⟩
abbrev S2048x2002 : Shape := ⟨2, ![2048, 2002]⟩
abbrev S_ : Shape := ⟨0, ![]⟩
abbrev S2048x8000 : Shape := ⟨2, ![2048, 8000]⟩
abbrev S2048x1 : Shape := ⟨2, ![2048, 1]⟩
abbrev S2048x256 : Shape := ⟨2, ![2048, 256]⟩
abbrev S2048x40000 : Shape := ⟨2, ![2048, 40000]⟩
abbrev S2048x50002 : Shape := ⟨2, ![2048, 50002]⟩

abbrev nBuf : Space → Nat
  | .hbm => 35
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048, .i32⟩
  | .hbm, ⟨2, _⟩ => ⟨S1024x2002, .f32⟩
  | .hbm, ⟨3, _⟩ => ⟨S1024x1024, .f32⟩
  | .hbm, ⟨4, _⟩ => ⟨S1024x8000, .f32⟩
  | .hbm, ⟨5, _⟩ => ⟨S1024x256, .f32⟩
  | .hbm, ⟨6, _⟩ => ⟨S256x40000, .f32⟩
  | .hbm, ⟨7, _⟩ => ⟨S2048x2002, .f32⟩
  | .hbm, ⟨8, _⟩ => ⟨S_, .i32⟩
  | .hbm, ⟨9, _⟩ => ⟨S2048, .i32⟩
  | .hbm, ⟨10, _⟩ => ⟨S2048, .i1⟩
  | .hbm, ⟨11, _⟩ => ⟨S_, .i32⟩
  | .hbm, ⟨12, _⟩ => ⟨S2048, .i32⟩
  | .hbm, ⟨13, _⟩ => ⟨S2048, .i1⟩
  | .hbm, ⟨14, _⟩ => ⟨S2048, .i1⟩
  | .hbm, ⟨15, _⟩ => ⟨S2048, .f32⟩
  | .hbm, ⟨16, _⟩ => ⟨S_, .i32⟩
  | .hbm, ⟨17, _⟩ => ⟨S2048, .i32⟩
  | .hbm, ⟨18, _⟩ => ⟨S2048, .i1⟩
  | .hbm, ⟨19, _⟩ => ⟨S_, .i32⟩
  | .hbm, ⟨20, _⟩ => ⟨S2048, .i32⟩
  | .hbm, ⟨21, _⟩ => ⟨S2048, .i1⟩
  | .hbm, ⟨22, _⟩ => ⟨S2048, .i1⟩
  | .hbm, ⟨23, _⟩ => ⟨S2048, .f32⟩
  | .hbm, ⟨24, _⟩ => ⟨S2048x1024, .f32⟩
  | .hbm, ⟨25, _⟩ => ⟨S2048x8000, .f32⟩
  | .hbm, ⟨26, _⟩ => ⟨S2048x1, .f32⟩
  | .hbm, ⟨27, _⟩ => ⟨S2048x8000, .f32⟩
  | .hbm, ⟨28, _⟩ => ⟨S2048x8000, .f32⟩
  | .hbm, ⟨29, _⟩ => ⟨S2048x256, .f32⟩
  | .hbm, ⟨30, _⟩ => ⟨S2048x40000, .f32⟩
  | .hbm, ⟨31, _⟩ => ⟨S2048x1, .f32⟩
  | .hbm, ⟨32, _⟩ => ⟨S2048x40000, .f32⟩
  | .hbm, ⟨33, _⟩ => ⟨S2048x40000, .f32⟩
  | .hbm, ⟨34, _⟩ => ⟨S2048x50002, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]

class Facts₀ : Prop where
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x8000_0_1 : S2048x1.BroadcastsInDim S2048x8000 (![0, 1] : Fin 2 → Fin S2048x8000.rank)
  bcast_S2048x1_S2048x40000_0_1 : S2048x1.BroadcastsInDim S2048x40000 (![0, 1] : Fin 2 → Fin S2048x40000.rank)
  concatenates_S2048x2002_S2048x8000_S2048x40000_S2048x50002_d1 : Shape.Concatenates [S2048x2002, S2048x8000, S2048x40000] S2048x50002 1
  dot_S2048x1024_S1024x2002_S2048x2002_1_0_0_1_n_n_wf : DotDims.WF S2048x1024 S1024x2002 S2048x2002 [1] [0] [0] [1] [] []
  dot_S2048x1024_S1024x1024_S2048x1024_1_0_0_1_n_n_wf : DotDims.WF S2048x1024 S1024x1024 S2048x1024 [1] [0] [0] [1] [] []
  dot_S2048x1024_S1024x8000_S2048x8000_1_0_0_1_n_n_wf : DotDims.WF S2048x1024 S1024x8000 S2048x8000 [1] [0] [0] [1] [] []
  dot_S2048x1024_S1024x256_S2048x256_1_0_0_1_n_n_wf : DotDims.WF S2048x1024 S1024x256 S2048x256 [1] [0] [0] [1] [] []
  dot_S2048x256_S256x40000_S2048x40000_1_0_0_1_n_n_wf : DotDims.WF S2048x256 S256x40000 S2048x40000 [1] [0] [0] [1] [] []

variable [Facts₀]

def dot_S2048x1024_S1024x2002_S2048x2002_1_0_0_1_n_n : DotDims S2048x1024 S1024x2002 S2048x2002 where
  lhsContracting := [1]
  rhsContracting := [0]
  lhsNonContracting := [0]
  rhsNonContracting := [1]
  lhsBatch := []
  rhsBatch := []
  wf := dot_S2048x1024_S1024x2002_S2048x2002_1_0_0_1_n_n_wf
def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S2048x1024_S1024x8000_S2048x8000_1_0_0_1_n_n : DotDims S2048x1024 S1024x8000 S2048x8000 where
  lhsContracting := [1]
  rhsContracting := [0]
  lhsNonContracting := [0]
  rhsNonContracting := [1]
  lhsBatch := []
  rhsBatch := []
  wf := dot_S2048x1024_S1024x8000_S2048x8000_1_0_0_1_n_n_wf
def dot_S2048x1024_S1024x256_S2048x256_1_0_0_1_n_n : DotDims S2048x1024 S1024x256 S2048x256 where
  lhsContracting := [1]
  rhsContracting := [0]
  lhsNonContracting := [0]
  rhsNonContracting := [1]
  lhsBatch := []
  rhsBatch := []
  wf := dot_S2048x1024_S1024x256_S2048x256_1_0_0_1_n_n_wf
def dot_S2048x256_S256x40000_S2048x40000_1_0_0_1_n_n : DotDims S2048x256 S256x40000 S2048x40000 where
  lhsContracting := [1]
  rhsContracting := [0]
  lhsNonContracting := [0]
  rhsNonContracting := [1]
  lhsBatch := []
  rhsBatch := []
  wf := dot_S2048x256_S256x40000_S2048x40000_1_0_0_1_n_n_wf

class Facts : Prop extends Facts₀ where

variable [Facts]
-- ==== Proof.BitsBody0.lean ====
/- The head kernel of the word-level program run on whole staging memrefs at arbitrary contents: every memref it is
   handed comes back whole at some contents. What the frame of @main needs of the body of region 0. -/
import proofs.«123100_j81028853006378_2_alg».proof.Proof.Gen.Kernel.Launch
import proofs.«123100_j81028853006378_2_alg».proof.Proof.Gen.Kernel.Skeleton
import proofs.«123100_j81028853006378_2_alg».proof.Proof.Gen.Kernel.Points
import Idealize.ShloMosaic.Lib.Pipeline.FrameBody
import Idealize.ShloMosaic.Lib.Pipeline.RegionsLoop
import Idealize.ShloMosaic.Lib.Ring
import Idealize.ShloMosaic.Lib.Tactic

set_option maxRecDepth 16384

noncomputable section

namespace Cert.Kernel.BitsFrame

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The head kernel on whole staging memrefs, each at some contents: it runs to the continuation holding each of
    them at some contents again (two loads, a matrix product, a load and a store into the third memref). -/
theorem sound_kernel0 (c : Dev nD) (E : Set ℕ) (i : grid0.Coords)
    (arg1 : Memref sig .tc .vmem S1024x1024 .bf16) (harg1 : arg1.IsWhole)
    (arg2 : Memref sig .tc .vmem S1024x2002 .bf16) (harg2 : arg2.IsWhole)
    (arg3 : Memref sig .tc .vmem S1024x2002 .f32) (harg3 : arg3.IsWhole) (K : PUnit → sProp 𝕄) :
    iprop((∃ x, owns (c : Thread nD τ) arg1 fullShare x) ∗ (∃ x, owns (c : Thread nD τ) arg2 fullShare x)
        ∗ (∃ x, owns (c : Thread nD τ) arg3 fullShare x)
        ∗ (iprop((∃ x, owns (c : Thread nD τ) arg1 fullShare x) ∗ (∃ x, owns (c : Thread nD τ) arg2 fullShare x)
            ∗ (∃ x, owns (c : Thread nD τ) arg3 fullShare x)) -∗ K ⟨⟩))
      ⊢ wp frame (wpE (defs₀ (F := F)) Variants.none c none) E (cc0__head_kernel i arg1 harg1 arg2 harg2 arg3 harg3) K := by
  simp only [cc0__head_kernel_eq_skeleton]; unfold cc0__head_kernel_skel
  unfold owns
  iintro ⟨⟨%x1, %f1, -, H1⟩, ⟨%x2, %f2, -, H2⟩, ⟨%x3, %f3, -, H3⟩, Hk⟩
  sl_exec
  sl_step
  iapply Hk
  isplitl [H1]
  · iexists _; iexists _; isplitr
    swap; · iexact H1
    ipureintro; rfl
  isplitl [H2]
  · iexists _; iexists _; isplitr
    swap; · iexact H2
    ipureintro; rfl
  iexists _; iexists _; isplitr
  swap; · iexact H3
  ipureintro; rfl

end Cert.Kernel.BitsFrame

end
-- ==== Proof.BitsBody1.lean ====
/- The tail kernel of region 1 of the word-level program run on whole memrefs at arbitrary contents, branch taken or
   not: every memref it is handed (the staging buffers and the scratch) comes back whole at some contents. -/
import proofs.«123100_j81028853006378_2_alg».proof.Proof.Gen.Kernel.Launch
import proofs.«123100_j81028853006378_2_alg».proof.Proof.Gen.Kernel.Skeleton
import proofs.«123100_j81028853006378_2_alg».proof.Proof.Gen.Kernel.Points
import Idealize.ShloMosaic.Lib.Pipeline.FrameBody
import Idealize.ShloMosaic.Lib.Pipeline.RegionsLoop
import Idealize.ShloMosaic.Lib.Ring
import Idealize.ShloMosaic.Lib.Tactic

set_option maxRecDepth 16384

noncomputable section

namespace Cert.Kernel.BitsFrame

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the tail kernel's branch, from the grid coordinates: the second coordinate is zero. -/
abbrev cond1 (i : grid1.Coords) : Prop :=
  (Scalar.cmpi .ne (Scalar.extui (Scalar.cmpi .eq (BitVec.ofNat 32 (i 1).val) 0#32)) 0#32) = 1#1

set_option maxHeartbeats 4000000 in
/-- The tail kernel on whole memrefs (the five staging memrefs and the scratch), each at some contents: whether
    or not the branch is taken, it runs to the continuation holding each of them at some contents again. -/
theorem sound_kernel1 (c : Dev nD) (E : Set ℕ) (i : grid1.Coords)
    (arg2 : Memref sig .tc .vmem S1024x1024 .bf16) (harg2 : arg2.IsWhole)
    (arg3 : Memref sig .tc .vmem S1024x1024 .bf16) (harg3 : arg3.IsWhole)
    (arg4 : Memref sig .tc .vmem S1024x2048 .bf16) (harg4 : arg4.IsWhole)
    (arg5 : Memref sig .tc .vmem S1024x1 .f32) (harg5 : arg5.IsWhole)
    (arg6 : Memref sig .tc .vmem S1024x2048 .f32) (harg6 : arg6.IsWhole)
    (arg7 : Memref sig .tc .vmem S1024x1024 .bf16) (harg7 : arg7.IsWhole) (K : PUnit → sProp 𝕄) :
    iprop((∃ x, owns (c : Thread nD τ) arg2 fullShare x) ∗ (∃ x, owns (c : Thread nD τ) arg3 fullShare x) ∗ (∃ x, owns (c : Thread nD τ) arg4 fullShare x) ∗ (∃ x, owns (c : Thread nD τ) arg5 fullShare x) ∗ (∃ x, owns (c : Thread nD τ) arg6 fullShare x) ∗ (∃ x, owns (c : Thread nD τ) arg7 fullShare x)
        ∗ (iprop((∃ x, owns (c : Thread nD τ) arg2 fullShare x) ∗ (∃ x, owns (c : Thread nD τ) arg3 fullShare x) ∗ (∃ x, owns (c : Thread nD τ) arg4 fullShare x) ∗ (∃ x, owns (c : Thread nD τ) arg5 fullShare x) ∗ (∃ x, owns (c : Thread nD τ) arg6 fullShare x) ∗ (∃ x, owns (c : Thread nD τ) arg7 fullShare x)) -∗ K ⟨⟩))
      ⊢ wp frame (wpE (defs₀ (F := F)) Variants.none c none) E (cc1__tail_kernel i arg2 harg2 arg3 harg3 arg4 harg4 arg5 harg5 arg6 harg6 arg7 harg7) K := by
  simp only [cc1__tail_kernel_eq_skeleton]; unfold cc1__tail_kernel_skel
  unfold owns
  iintro ⟨⟨%x2, %f2, -, H2⟩, ⟨%x3, %f3, -, H3⟩, ⟨%x4, %f4, -, H4⟩, ⟨%x5, %f5, -, H5⟩, ⟨%x6, %f6, -, H6⟩, ⟨%x7, %f7, -, H7⟩, Hk⟩
  by_cases hc : cond1 i
  · sl_exec (disch := exact hc)
    sl_step
    iapply Hk
    isplitl [H2]
    · iexists _; iexists _; isplitr
      swap; · iexact H2
      ipureintro; rfl
    isplitl [H3]
    · iexists _; iexists _; isplitr
      swap; · iexact H3
      ipureintro; rfl
    isplitl [H4]
    · iexists _; iexists _; isplitr
      swap; · iexact H4
      ipureintro; rfl
    isplitl [H5]
    · iexists _; iexists _; isplitr
      swap; · iexact H5
      ipureintro; rfl
    isplitl [H6]
    · iexists _; iexists _; isplitr
      swap; · iexact H6
      ipureintro; rfl
    iexists _; iexists _; isplitr
    swap; · iexact H7
    ipureintro; rfl
  · sl_exec (disch := exact hc)
    sl_step
    iapply Hk
    isplitl [H2]
    · iexists _; iexists _; isplitr
      swap; · iexact H2
      ipureintro; rfl
    isplitl [H3]
    · iexists _; iexists _; isplitr
      swap; · iexact H3
      ipureintro; rfl
    isplitl [H4]
    · iexists _; iexists _; isplitr
      swap; · iexact H4
      ipureintro; rfl
    isplitl [H5]
    · iexists _; iexists _; isplitr
      swap; · iexact H5
      ipureintro; rfl
    isplitl [H6]
    · iexists _; iexists _; isplitr
      swap; · iexact H6
      ipureintro; rfl
    iexists _; iexists _; isplitr
    swap; · iexact H7
    ipureintro; rfl

end Cert.Kernel.BitsFrame

end
-- ==== Proof.BitsBody2.lean ====
/- The tail kernel of region 2 of the word-level program run on whole memrefs at arbitrary contents, branch taken or
   not: every memref it is handed (the staging buffers and the scratch) comes back whole at some contents. -/
import proofs.«123100_j81028853006378_2_alg».proof.Proof.Gen.Kernel.Launch
import proofs.«123100_j81028853006378_2_alg».proof.Proof.Gen.Kernel.Skeleton
import proofs.«123100_j81028853006378_2_alg».proof.Proof.Gen.Kernel.Points
import Idealize.ShloMosaic.Lib.Pipeline.FrameBody
import Idealize.ShloMosaic.Lib.Pipeline.RegionsLoop
import Idealize.ShloMosaic.Lib.Ring
import Idealize.ShloMosaic.Lib.Tactic

set_option maxRecDepth 16384

noncomputable section

namespace Cert.Kernel.BitsFrame

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the tail kernel's branch, from the grid coordinates: the second coordinate is zero. -/
abbrev cond2 (i : grid2.Coords) : Prop :=
  (Scalar.cmpi .ne (Scalar.extui (Scalar.cmpi .eq (BitVec.ofNat 32 (i 1).val) 0#32)) 0#32) = 1#1

set_option maxHeartbeats 4000000 in
/-- The tail kernel on whole memrefs (the five staging memrefs and the scratch), each at some contents: whether
    or not the branch is taken, it runs to the continuation holding each of them at some contents again. -/
theorem sound_kernel2 (c : Dev nD) (E : Set ℕ) (i : grid2.Coords)
    (arg2 : Memref sig .tc .vmem S1024x1024 .bf16) (harg2 : arg2.IsWhole)
    (arg3 : Memref sig .tc .vmem S1024x256 .bf16) (harg3 : arg3.IsWhole)
    (arg4 : Memref sig .tc .vmem S256x3200 .bf16) (harg4 : arg4.IsWhole)
    (arg5 : Memref sig .tc .vmem S1024x1 .f32) (harg5 : arg5.IsWhole)
    (arg6 : Memref sig .tc .vmem S1024x3200 .f32) (harg6 : arg6.IsWhole)
    (arg7 : Memref sig .tc .vmem S1024x256 .bf16) (harg7 : arg7.IsWhole) (K : PUnit → sProp 𝕄) :
    iprop((∃ x, owns (c : Thread nD τ) arg2 fullShare x) ∗ (∃ x, owns (c : Thread nD τ) arg3 fullShare x) ∗ (∃ x, owns (c : Thread nD τ) arg4 fullShare x) ∗ (∃ x, owns (c : Thread nD τ) arg5 fullShare x) ∗ (∃ x, owns (c : Thread nD τ) arg6 fullShare x) ∗ (∃ x, owns (c : Thread nD τ) arg7 fullShare x)
        ∗ (iprop((∃ x, owns (c : Thread nD τ) arg2 fullShare x) ∗ (∃ x, owns (c : Thread nD τ) arg3 fullShare x) ∗ (∃ x, owns (c : Thread nD τ) arg4 fullShare x) ∗ (∃ x, owns (c : Thread nD τ) arg5 fullShare x) ∗ (∃ x, owns (c : Thread nD τ) arg6 fullShare x) ∗ (∃ x, owns (c : Thread nD τ) arg7 fullShare x)) -∗ K ⟨⟩))
      ⊢ wp frame (wpE (defs₀ (F := F)) Variants.none c none) E (cc2__tail_kernel i arg2 harg2 arg3 harg3 arg4 harg4 arg5 harg5 arg6 harg6 arg7 harg7) K := by
  simp only [cc2__tail_kernel_eq_skeleton]; unfold cc2__tail_kernel_skel
  unfold owns
  iintro ⟨⟨%x2, %f2, -, H2⟩, ⟨%x3, %f3, -, H3⟩, ⟨%x4, %f4, -, H4⟩, ⟨%x5, %f5, -, H5⟩, ⟨%x6, %f6, -, H6⟩, ⟨%x7, %f7, -, H7⟩, Hk⟩
  by_cases hc : cond2 i
  · sl_exec (disch := exact hc)
    sl_step
    iapply Hk
    isplitl [H2]
    · iexists _; iexists _; isplitr
      swap; · iexact H2
      ipureintro; rfl
    isplitl [H3]
    · iexists _; iexists _; isplitr
      swap; · iexact H3
      ipureintro; rfl
    isplitl [H4]
    · iexists _; iexists _; isplitr
      swap; · iexact H4
      ipureintro; rfl
    isplitl [H5]
    · iexists _; iexists _; isplitr
      swap; · iexact H5
      ipureintro; rfl
    isplitl [H6]
    · iexists _; iexists _; isplitr
      swap; · iexact H6
      ipureintro; rfl
    iexists _; iexists _; isplitr
    swap; · iexact H7
    ipureintro; rfl
  · sl_exec (disch := exact hc)
    sl_step
    iapply Hk
    isplitl [H2]
    · iexists _; iexists _; isplitr
      swap; · iexact H2
      ipureintro; rfl
    isplitl [H3]
    · iexists _; iexists _; isplitr
      swap; · iexact H3
      ipureintro; rfl
    isplitl [H4]
    · iexists _; iexists _; isplitr
      swap; · iexact H4
      ipureintro; rfl
    isplitl [H5]
    · iexists _; iexists _; isplitr
      swap; · iexact H5
      ipureintro; rfl
    isplitl [H6]
    · iexists _; iexists _; isplitr
      swap; · iexact H6
      ipureintro; rfl
    iexists _; iexists _; isplitr
    swap; · iexact H7
    ipureintro; rfl

end Cert.Kernel.BitsFrame

end
-- ==== Proof.BitsFrame.lean ====
/- THE FRAME of the word-level program: every weakly fair execution of @main terminates without fault and leaves the
   seven argument arrays as launched. The three kernel regions are run over RELATIONAL proof data with every window
   forgotten (at the word level a matrix product's result depends on the whole operand tile, and a clipped input window
   hands the body words past the array's end that nothing names, so what a region leaves in its output array is not a
   function of the inputs); between the items the thread state holds every unscoped buffer at definite contents changed
   at the regions' output arrays to SOME contents. -/
import proofs.«123100_j81028853006378_2_alg».proof.Proof.Gen.Kernel.Launch
import proofs.«123100_j81028853006378_2_alg».proof.Proof.Gen.Kernel.Skeleton
import proofs.«123100_j81028853006378_2_alg».proof.Proof.Gen.Kernel.Points
import proofs.«123100_j81028853006378_2_alg».proof.Proof.Gen.Kernel.Regions
import proofs.«123100_j81028853006378_2_alg».proof.Proof.BitsBody0
import proofs.«123100_j81028853006378_2_alg».proof.Proof.BitsBody1
import proofs.«123100_j81028853006378_2_alg».proof.Proof.BitsBody2
import Idealize.ShloMosaic.Lib.Pipeline.FrameBody
import Idealize.ShloMosaic.Lib.Pipeline.RegionsLoop
import Idealize.ShloMosaic.Lib.Ring
import Idealize.ShloMosaic.Lib.Tactic

set_option maxRecDepth 16384

noncomputable section

namespace Cert.Kernel.BitsFrame

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## Host operations and a buffer they do not touch

A host operation's result at a buffer reads the valuation at the operation's own buffers only, so changing the
valuation at a buffer the operation does not touch commutes with the operation; likewise for a line of them. -/

theorem result_update_of_not_mem (op : HloOp τ sig (Elt F)) (V : Valuation τ sig (Elt F)) (s : DevRef τ sig)
    (x : s.ty.Contents (Elt F)) (hs : s ∉ op.bufs) :
    op.result (Function.update V s x) = Function.update (op.result V) s x := by
  funext b
  by_cases hb : b = s
  · subst hb
    rw [Function.update_self, op.result_of_not_mem _ (fun h => hs (op.writes_sub h)), Function.update_self]
  · rw [Function.update_of_ne hb]
    unfold HloOp.result
    split
    · exact congrArg (op.fn · _) (funext fun b' => Function.update_of_ne (show b'.1 ≠ s from fun e => hs (e ▸ b'.2)) _ _)
    · exact Function.update_of_ne hb _ _

theorem after_update_of_not_mem : ∀ (ops : List (HloOp τ sig (Elt F))) (V : Valuation τ sig (Elt F)) (s : DevRef τ sig)
    (x : s.ty.Contents (Elt F)), (∀ op ∈ ops, s ∉ op.bufs) →
    StableHlo.after ops (Function.update V s x) = Function.update (StableHlo.after ops V) s x
  | [], _, _, _, _ => rfl
  | op :: ops, V, s, x, h => by
    rw [StableHlo.after_cons, result_update_of_not_mem op V s x (h op List.mem_cons_self),
      after_update_of_not_mem ops _ s x (fun o ho => h o (List.mem_cons_of_mem _ ho)), StableHlo.after_cons]

/-- The references the operations of `hostOps1` touch. -/
abbrev hostOps1_B : List (Ref sig .tc) := [main_arg1, main_arg3, main_arg4, main_c, main_v3, main_v4, main_c_0, main_v5, main_v6, main_v7, main_v8, main_v9, main_c_1, main_v10, main_v11, main_c_2, main_v12, main_v13, main_v14, main_v15, main_v16, main_v17, main_v18]
/-- The references the operations of `hostOps2` touch. -/
abbrev hostOps2_B : List (Ref sig .tc) := [main_arg5, main_arg6, main_v20, main_v21]

theorem hostOps1_bufs : (hostOps1 : List (HloOp τ sig (Elt F))).Forall fun op => op.bufs ⊆ (hostOps1_B.map (Proc.devRef (τ := τ) .tc)).toFinset := by
  simp only [List.Forall, StableHlo.nullary_bufs, StableHlo.unary_bufs, StableHlo.binary_bufs, Finset.insert_subset_iff, Finset.singleton_subset_iff, List.mem_toFinset]
  repeat' apply And.intro
  all_goals exact List.mem_map_of_mem (by decide)
theorem hostOps2_bufs : (hostOps2 : List (HloOp τ sig (Elt F))).Forall fun op => op.bufs ⊆ (hostOps2_B.map (Proc.devRef (τ := τ) .tc)).toFinset := by
  simp only [List.Forall, StableHlo.nullary_bufs, StableHlo.unary_bufs, StableHlo.binary_bufs, Finset.insert_subset_iff, Finset.singleton_subset_iff, List.mem_toFinset]
  repeat' apply And.intro
  all_goals exact List.mem_map_of_mem (by decide)

/-- A reference not among a list holding every reference a line touches is touched by none of its operations. -/
theorem not_mem_bufs_of_sub {B : List (Ref sig .tc)} {r : Ref sig .tc} (ops : List (HloOp τ sig (Elt F)))
    (hB : ops.Forall fun op => op.bufs ⊆ (B.map (Proc.devRef (τ := τ) .tc)).toFinset) (hr : r ∉ B) :
    ∀ op ∈ ops, (Proc.devRef .tc r : DevRef τ sig) ∉ op.bufs := fun op hop hb => by
  obtain ⟨y, hy, he⟩ := List.mem_map.mp (List.mem_toFinset.mp ((List.forall_iff_forall_mem.mp hB) op hop hb))
  exact hr (Proc.devRef_injective _ he ▸ hy)

/-! ## The buffers' contents between the items

The three kernel regions compute on the arguments only: no region reads what an earlier one wrote. So the contents at
each boundary are DEFINITE contents (the launch memory through the host lines, as if no region had written) changed at
the regions' output arrays `main_v2`, `main_v19`, `main_v22` to contents nothing names. -/

/-- What a region may leave in its output array: contents of that array's type. -/
abbrev B2 : Type := (Proc.devRef .tc main_v2 : DevRef τ sig).ty.Contents (Elt F)
abbrev B19 : Type := (Proc.devRef .tc main_v19 : DevRef τ sig).ty.Contents (Elt F)
abbrev B22 : Type := (Proc.devRef .tc main_v22 : DevRef τ sig).ty.Contents (Elt F)

/-- The definite contents: at launch through `hostOps0`; then through `hostOps1`; then through `hostOps2`. -/
abbrev E1 (c : Dev nD) : Valuation τ sig (Elt F) := V1 m c
abbrev E3 (c : Dev nD) : Valuation τ sig (Elt F) := StableHlo.after hostOps1 (E1 m c)
abbrev E5 (c : Dev nD) : Valuation τ sig (Elt F) := StableHlo.after hostOps2 (E3 m c)

/-- After region 0, which may change `main_v2`. -/
def Wa (X : B2 (F := F)) (c : Dev nD) : Valuation τ sig (Elt F) := Function.update (E1 m c) (Proc.devRef .tc main_v2) X
/-- After `hostOps1`. -/
def Wb (X : B2 (F := F)) (c : Dev nD) : Valuation τ sig (Elt F) := Function.update (E3 m c) (Proc.devRef .tc main_v2) X
/-- After region 1, which may change `main_v19`. -/
def Wc (x : B2 (F := F) × B19 (F := F)) (c : Dev nD) : Valuation τ sig (Elt F) := Function.update (Wb m x.1 c) (Proc.devRef .tc main_v19) x.2
/-- After `hostOps2`. -/
def Wd (x : B2 (F := F) × B19 (F := F)) (c : Dev nD) : Valuation τ sig (Elt F) :=
  Function.update (Function.update (E5 m c) (Proc.devRef .tc main_v2) x.1) (Proc.devRef .tc main_v19) x.2
/-- After region 2, which may change `main_v22`. -/
def We (x : B2 (F := F) × B19 (F := F) × B22 (F := F)) (c : Dev nD) : Valuation τ sig (Elt F) :=
  Function.update (Wd m (x.1, x.2.1) c) (Proc.devRef .tc main_v22) x.2.2
/-- After `hostOps3`. -/
def Wf (x : B2 (F := F) × B19 (F := F) × B22 (F := F)) (c : Dev nD) : Valuation τ sig (Elt F) := StableHlo.after hostOps3 (We m x c)

/-- `hostOps1` does not touch `main_v2`. -/
theorem after1_Wa (X : B2 (F := F)) (c : Dev nD) : StableHlo.after hostOps1 (Wa m X c) = Wb m X c :=
  after_update_of_not_mem hostOps1 _ _ _ (not_mem_bufs_of_sub hostOps1 hostOps1_bufs (by decide))
/-- `hostOps2` touches neither `main_v2` nor `main_v19`. -/
theorem after2_Wc (x : B2 (F := F) × B19 (F := F)) (c : Dev nD) : StableHlo.after hostOps2 (Wc m x c) = Wd m x c := by
  unfold Wc Wb Wd
  rw [after_update_of_not_mem hostOps2 _ _ _ (not_mem_bufs_of_sub hostOps2 hostOps2_bufs (by decide)),
    after_update_of_not_mem hostOps2 _ _ _ (not_mem_bufs_of_sub hostOps2 hostOps2_bufs (by decide))]

/-- The arguments end as launched. -/
theorem E1_of (c : Dev nD) (r : Ref sig .tc) (h : r ∉ hostOps0_W) : E1 m c (Proc.devRef .tc r) = m ((c : Thread nD τ).loc r) :=
  (V1_of m c r h).trans rfl
theorem E3_of (c : Dev nD) (r : Ref sig .tc) (h : r ∉ hostOps1_W) : E3 m c (Proc.devRef .tc r) = E1 m c (Proc.devRef .tc r) :=
  StableHlo.after_of_writes_sub hostOps1 _ hostOps1_writes h
theorem E5_of (c : Dev nD) (r : Ref sig .tc) (h : r ∉ hostOps2_W) : E5 m c (Proc.devRef .tc r) = E3 m c (Proc.devRef .tc r) :=
  StableHlo.after_of_writes_sub hostOps2 _ hostOps2_writes h

theorem Wf_arg (x : B2 (F := F) × B19 (F := F) × B22 (F := F)) (c : Dev nD) (r : Ref sig .tc)
    (h0 : r ∉ hostOps0_W) (h1 : r ∉ hostOps1_W) (h2 : r ∉ hostOps2_W) (h3 : r ∉ hostOps3_W)
    (hv2 : r ≠ main_v2) (hv19 : r ≠ main_v19) (hv22 : r ≠ main_v22) :
    Wf m x c (Proc.devRef .tc r) = m ((c : Thread nD τ).loc r) := by
  unfold Wf We Wd
  rw [StableHlo.after_of_writes_sub hostOps3 _ hostOps3_writes h3,
    Function.update_of_ne (StableHlo.devRef_ne_of_ne hv22), Function.update_of_ne (StableHlo.devRef_ne_of_ne hv19),
    Function.update_of_ne (StableHlo.devRef_ne_of_ne hv2), E5_of m c r h2, E3_of m c r h1, E1_of m c r h0]

/-! ## The proof data

Per region, the arrays at the DEFINITE contents (every array of a region is an argument's image under the host
lines, or the region's own output array, which no earlier item wrote); nothing is said of what the body leaves in any
window (each is forgotten below); the invariant is the scoped rest and the generator register; nothing owed. -/

/-- The definite contents read at the TensorCore's references. -/
abbrev Er1 (c : Dev nD) (b : Ref sig .tc) : Buf (Elt F) ((c : Thread nD τ).loc b) := E1 m c b
abbrev Er3 (c : Dev nD) (b : Ref sig .tc) : Buf (Elt F) ((c : Thread nD τ).loc b) := E3 m c b
abbrev Er5 (c : Dev nD) (b : Ref sig .tc) : Buf (Elt F) ((c : Thread nD τ).loc b) := E5 m c b

def dat0 (c : Dev nD) : Dat τ (Elt F) Unit ℕ (UR sig nD τ) ℕ cfg0 c where
  A w := Er1 m c (Pipeline.arrRef spec0 w)
  after w t := Dat.unnamed w t
  Φ _ := Pipeline.ΦA spec0 c
  q _ := fullShare
  owed _ := 0
def dat1 (c : Dev nD) : Dat τ (Elt F) Unit ℕ (UR sig nD τ) ℕ cfg1 c where
  A w := Er3 m c (Pipeline.arrRef spec1 w)
  after w t := Dat.unnamed w t
  Φ _ := Pipeline.ΦA spec1 c
  q _ := fullShare
  owed _ := 0
def dat2 (c : Dev nD) : Dat τ (Elt F) Unit ℕ (UR sig nD τ) ℕ cfg2 c where
  A w := Er5 m c (Pipeline.arrRef spec2 w)
  after w t := Dat.unnamed w t
  Φ _ := Pipeline.ΦA spec2 c
  q _ := fullShare
  owed _ := 0

/-! ## The body obligations, every window forgotten -/

/-- Region 0's body at any point: each window's staging buffer is handed at some contents and taken back at some
    contents; the invariant and the core's `owes` pass through unread. -/
theorem body_obligation0 (c : Dev nD) :
    Pipeline.BodyObligationLoose (dat0 (F := F) m c) (defs₀ (F := F)) Variants.none () Set.univ (fun _ => true) := fun t => by
  simp only [bigSep_W0]
  show iprop((dat0 m c).Φ t.castSucc ∗ (dat0 m c).owesAt () t.castSucc
        ∗ (∃ x, owns (c : Thread nD τ) (st0_0 t) fullShare x) ∗ (∃ x, owns (c : Thread nD τ) (st0_1 t) fullShare x)
        ∗ (∃ x, owns (c : Thread nD τ) (st0_2 t) fullShare x))
      ⊢ wp frame (wpE (defs₀ (F := F)) Variants.none c none) Set.univ (bodyAt0 t) (fun _ =>
        iprop((dat0 m c).Φ t.succ ∗ (dat0 m c).owesAt () t.succ
          ∗ (∃ x, owns (c : Thread nD τ) (st0_0 t) fullShare x) ∗ (∃ x, owns (c : Thread nD τ) (st0_1 t) fullShare x)
          ∗ (∃ x, owns (c : Thread nD τ) (st0_2 t) fullShare x)))
  rw [show (dat0 m c).Φ t.succ = (dat0 m c).Φ t.castSucc from rfl,
    show (dat0 m c).owesAt () t.succ = (dat0 m c).owesAt () t.castSucc from rfl]
  iintro ⟨HΦ, Ho, H0, H1, H2⟩
  iapply (sound_kernel0 c Set.univ _ _ _ _ _ _ _ _)
  isplitl [H0]; · iexact H0
  isplitl [H1]; · iexact H1
  isplitl [H2]; · iexact H2
  iintro ⟨H0, H1, H2⟩
  isplitl [HΦ]; · iexact HΦ
  isplitl [Ho]; · iexact Ho
  isplitl [H0]; · iexact H0
  isplitl [H1]; · iexact H1
  iexact H2

/-- Region 1's body at any point: each window's staging buffer is handed at some contents and taken back at some
    contents; the scratch buffer comes out of the invariant's scoped rest at some contents and goes back at some
    contents; the rest of the invariant and the core's `owes` pass through unread. -/
theorem body_obligation1 (c : Dev nD) :
    Pipeline.BodyObligationLoose (dat1 (F := F) m c) (defs₀ (F := F)) Variants.none () Set.univ (fun _ => true) := fun t => by
  simp only [bigSep_W1]
  show iprop((dat1 m c).Φ t.castSucc ∗ (dat1 m c).owesAt () t.castSucc
        ∗ (∃ x, owns (c : Thread nD τ) (st1_0 t) fullShare x) ∗ (∃ x, owns (c : Thread nD τ) (st1_1 t) fullShare x) ∗ (∃ x, owns (c : Thread nD τ) (st1_2 t) fullShare x) ∗ (∃ x, owns (c : Thread nD τ) (st1_3 t) fullShare x) ∗ (∃ x, owns (c : Thread nD τ) (st1_4 t) fullShare x))
      ⊢ wp frame (wpE (defs₀ (F := F)) Variants.none c none) Set.univ (bodyAt1 t) (fun _ =>
        iprop((dat1 m c).Φ t.succ ∗ (dat1 m c).owesAt () t.succ
          ∗ (∃ x, owns (c : Thread nD τ) (st1_0 t) fullShare x) ∗ (∃ x, owns (c : Thread nD τ) (st1_1 t) fullShare x) ∗ (∃ x, owns (c : Thread nD τ) (st1_2 t) fullShare x) ∗ (∃ x, owns (c : Thread nD τ) (st1_3 t) fullShare x) ∗ (∃ x, owns (c : Thread nD τ) (st1_4 t) fullShare x)))
  rw [show (dat1 m c).Φ t.succ = (dat1 m c).Φ t.castSucc from rfl,
    show (dat1 m c).owesAt () t.succ = (dat1 m c).owesAt () t.castSucc from rfl,
    show (dat1 m c).Φ t.castSucc = Pipeline.ΦA spec1 c from rfl]
  unfold Pipeline.ΦA
  rw [scopedRest1_eq c]
  iintro ⟨⟨HS, Hg⟩, Ho, H0, H1, H2, H3, H4⟩
  icases HS with ⟨S0, S1, S2, S3, S4, ⟨%fs, Hs⟩, S6, S7, S8, S9, S10, S11, S12, S13, S14, S15⟩
  iapply (sound_kernel1 c Set.univ _ _ _ _ _ _ _ _ _ _ _ _ _ _)
  isplitl [H0]; · iexact H0
  isplitl [H1]; · iexact H1
  isplitl [H2]; · iexact H2
  isplitl [H3]; · iexact H3
  isplitl [H4]; · iexact H4
  isplitl [Hs]
  · iexists fs
    iapply (Entails.of_eq (owns_whole (c : Thread nD τ) cc1_scratch0 fullShare fs).symm)
    iexact Hs
  iintro ⟨H0, H1, H2, H3, H4, ⟨%fs', Hq⟩⟩
  ihave Hs := (Entails.of_eq (owns_whole (c : Thread nD τ) cc1_scratch0 fullShare fs')) $$ Hq
  isplitr [Ho H0 H1 H2 H3 H4]
  · isplitr [Hg]
    · isplitl [S0]; · iexact S0
      isplitl [S1]; · iexact S1
      isplitl [S2]; · iexact S2
      isplitl [S3]; · iexact S3
      isplitl [S4]; · iexact S4
      isplitl [Hs]; · iexists fs'; iexact Hs
      isplitl [S6]; · iexact S6
      isplitl [S7]; · iexact S7
      isplitl [S8]; · iexact S8
      isplitl [S9]; · iexact S9
      isplitl [S10]; · iexact S10
      isplitl [S11]; · iexact S11
      isplitl [S12]; · iexact S12
      isplitl [S13]; · iexact S13
      isplitl [S14]; · iexact S14
      iexact S15
    · iexact Hg
  isplitl [Ho]; · iexact Ho
  isplitl [H0]; · iexact H0
  isplitl [H1]; · iexact H1
  isplitl [H2]; · iexact H2
  isplitl [H3]; · iexact H3
  iexact H4

/-- Region 2's body at any point: each window's staging buffer is handed at some contents and taken back at some
    contents; the scratch buffer comes out of the invariant's scoped rest at some contents and goes back at some
    contents; the rest of the invariant and the core's `owes` pass through unread. -/
theorem body_obligation2 (c : Dev nD) :
    Pipeline.BodyObligationLoose (dat2 (F := F) m c) (defs₀ (F := F)) Variants.none () Set.univ (fun _ => true) := fun t => by
  simp only [bigSep_W2]
  show iprop((dat2 m c).Φ t.castSucc ∗ (dat2 m c).owesAt () t.castSucc
        ∗ (∃ x, owns (c : Thread nD τ) (st2_0 t) fullShare x) ∗ (∃ x, owns (c : Thread nD τ) (st2_1 t) fullShare x) ∗ (∃ x, owns (c : Thread nD τ) (st2_2 t) fullShare x) ∗ (∃ x, owns (c : Thread nD τ) (st2_3 t) fullShare x) ∗ (∃ x, owns (c : Thread nD τ) (st2_4 t) fullShare x))
      ⊢ wp frame (wpE (defs₀ (F := F)) Variants.none c none) Set.univ (bodyAt2 t) (fun _ =>
        iprop((dat2 m c).Φ t.succ ∗ (dat2 m c).owesAt () t.succ
          ∗ (∃ x, owns (c : Thread nD τ) (st2_0 t) fullShare x) ∗ (∃ x, owns (c : Thread nD τ) (st2_1 t) fullShare x) ∗ (∃ x, owns (c : Thread nD τ) (st2_2 t) fullShare x) ∗ (∃ x, owns (c : Thread nD τ) (st2_3 t) fullShare x) ∗ (∃ x, owns (c : Thread nD τ) (st2_4 t) fullShare x)))
  rw [show (dat2 m c).Φ t.succ = (dat2 m c).Φ t.castSucc from rfl,
    show (dat2 m c).owesAt () t.succ = (dat2 m c).owesAt () t.castSucc from rfl,
    show (dat2 m c).Φ t.castSucc = Pipeline.ΦA spec2 c from rfl]
  unfold Pipeline.ΦA
  rw [scopedRest2_eq c]
  iintro ⟨⟨HS, Hg⟩, Ho, H0, H1, H2, H3, H4⟩
  icases HS with ⟨S0, S1, S2, S3, S4, S5, S6, S7, S8, S9, S10, S11, S12, S13, S14, ⟨%fs, Hs⟩⟩
  iapply (sound_kernel2 c Set.univ _ _ _ _ _ _ _ _ _ _ _ _ _ _)
  isplitl [H0]; · iexact H0
  isplitl [H1]; · iexact H1
  isplitl [H2]; · iexact H2
  isplitl [H3]; · iexact H3
  isplitl [H4]; · iexact H4
  isplitl [Hs]
  · iexists fs
    iapply (Entails.of_eq (owns_whole (c : Thread nD τ) cc2_scratch0 fullShare fs).symm)
    iexact Hs
  iintro ⟨H0, H1, H2, H3, H4, ⟨%fs', Hq⟩⟩
  ihave Hs := (Entails.of_eq (owns_whole (c : Thread nD τ) cc2_scratch0 fullShare fs')) $$ Hq
  isplitr [Ho H0 H1 H2 H3 H4]
  · isplitr [Hg]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S11]; · iexact S11
      isplitl [S12]; · iexact S12
      isplitl [S13]; · iexact S13
      isplitl [S14]; · iexact S14
      iexists fs'; iexact Hs
    · iexact Hg
  isplitl [Ho]; · iexact Ho
  isplitl [H0]; · iexact H0
  isplitl [H1]; · iexact H1
  isplitl [H2]; · iexact H2
  isplitl [H3]; · iexact H3
  iexact H4

/-! ## The proof data family, relational, and the thread states -/

/-- Every pipeline's exact proof data — a literal `match`, so that `Pipeline.pin pcfgs adm p` at a numeral reduces to
    the printed configuration. -/
def pdats : (p : Fin 3) → (c : Dev nD) → Dat τ (Elt F) Unit ℕ (UR sig nD τ) ℕ (Pipeline.pin (pcfgs (F := F)) adm p) c
  | ⟨0, _⟩ => fun c => dat0 m c
  | ⟨1, _⟩ => fun c => dat1 m c
  | ⟨2, _⟩ => fun c => dat2 m c
/-- The same read relationally, every window forgotten. -/
abbrev rdats : (p : Fin 3) → (c : Dev nD) → Pipeline.RDat τ (Elt F) Unit ℕ (UR sig nD τ) ℕ (Pipeline.pin (pcfgs (F := F)) adm p) c :=
  fun p c => (pdats m p c).toRForget (fun _ => true)

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`,
    at nothing. -/
abbrev R (c : Dev nD) : sProp 𝕄 := iprop((∃ r, prngReg c r) ∗ ∃ W, owes (c : Thread nD τ) (0 : CellTallies nD τ sig Unit) W)

/-- The thread state between two items: every unscoped buffer at the boundary's contents, for SOME contents `x` of
    the regions' output arrays, beside `R`. -/
abbrev TS {α : Type} (W : α → Dev nD → Valuation τ sig (Elt F)) (c : Dev nD) : sProp 𝕄 :=
  iprop(∃ x, StableHlo.held (c : Thread nD τ) (Pipeline.ucRefs τ sig) (W x c) ∗ R c)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- A host stretch as a segment between two such thread states: for each contents `x` the line runs over the
    unscoped buffers from `W x c` to `StableHlo.after ops (W x c)`, which is `W' x c` (`hW`). -/
def hsegE {α : Type} (ops : List (HloOp τ sig (Elt F))) (hsub : ops.Forall fun op => op.bufs ⊆ StableHlo.tcRefs τ sig)
    (hfresh : ops.Forall fun op => op.fresh = ∅) (W W' : α → Dev nD → Valuation τ sig (Elt F))
    (hW : ∀ x c, StableHlo.after ops (W x c) = W' x c) :
    Pipeline.HostSeg (Name := ℕ) (U := UR sig nD τ) (pcfgs (F := F)) defs₀ 𝒱₀ L lv where
  prog := StableHlo.seq ops
  pre := TS W
  post := TS W'
  run c {β} k K := by
    iintro ⟨Hk, Hbd, ⟨%x, Hh, HR⟩, -⟩
    have hseq := StableHlo.wp_seq (defs := Pipeline.defs (pcfgs (F := F)) defs₀) (Variants.lift 𝒱₀) none Set.univ c (Pipeline.ucRefs τ sig) k (K := K) ops
      (fun op h => Pipeline.sub_ucRefs op ((List.forall_iff_forall_mem.mp hsub) op h))
      (fun op h => (List.forall_iff_forall_mem.mp hfresh) op h) (W x c)
    iapply hseq $$ [Hbd Hh]
    · isplitl [Hbd] <;> iassumption
    iintro ⟨Hbd, Hh⟩
    iapply Hk
    isplitl [Hbd]; · iexact Hbd
    iexists x
    rw [← hW x c]
    isplitl [Hh] <;> iassumption

/-! ## A region's arrays in and out of the unscoped buffers -/

/-- A valuation read at the TensorCore's references. -/
abbrev Vr (c : Dev nD) (W : Valuation τ sig (Elt F)) (b : Ref sig .tc) : Buf (Elt F) ((c : Thread nD τ).loc b) := W b

theorem Wa_of (X : B2 (F := F)) (c : Dev nD) (r : Ref sig .tc) (h : r ≠ main_v2) : Wa m X c (Proc.devRef .tc r) = E1 m c (Proc.devRef .tc r) := by
  unfold Wa; exact Function.update_of_ne (StableHlo.devRef_ne_of_ne h) _ _
theorem Wb_of (X : B2 (F := F)) (c : Dev nD) (r : Ref sig .tc) (h : r ≠ main_v2) : Wb m X c (Proc.devRef .tc r) = E3 m c (Proc.devRef .tc r) := by
  unfold Wb; exact Function.update_of_ne (StableHlo.devRef_ne_of_ne h) _ _
theorem Wc_ne (x : B2 (F := F) × B19 (F := F)) (c : Dev nD) (r : Ref sig .tc) (h : r ≠ main_v19) : Wc m x c (Proc.devRef .tc r) = Wb m x.1 c (Proc.devRef .tc r) := by
  unfold Wc; exact Function.update_of_ne (StableHlo.devRef_ne_of_ne h) _ _
theorem Wc_of (x : B2 (F := F) × B19 (F := F)) (c : Dev nD) (r : Ref sig .tc) (h2 : r ≠ main_v2) (h19 : r ≠ main_v19) :
    Wc m x c (Proc.devRef .tc r) = E3 m c (Proc.devRef .tc r) := (Wc_ne m x c r h19).trans (Wb_of m x.1 c r h2)
theorem Wd_of (x : B2 (F := F) × B19 (F := F)) (c : Dev nD) (r : Ref sig .tc) (h2 : r ≠ main_v2) (h19 : r ≠ main_v19) :
    Wd m x c (Proc.devRef .tc r) = E5 m c (Proc.devRef .tc r) := by
  unfold Wd; rw [Function.update_of_ne (StableHlo.devRef_ne_of_ne h19), Function.update_of_ne (StableHlo.devRef_ne_of_ne h2)]
theorem We_ne (x : B2 (F := F) × B19 (F := F) × B22 (F := F)) (c : Dev nD) (r : Ref sig .tc) (h : r ≠ main_v22) :
    We m x c (Proc.devRef .tc r) = Wd m (x.1, x.2.1) c (Proc.devRef .tc r) := by
  unfold We; exact Function.update_of_ne (StableHlo.devRef_ne_of_ne h) _ _
theorem We_of (x : B2 (F := F) × B19 (F := F) × B22 (F := F)) (c : Dev nD) (r : Ref sig .tc) (h2 : r ≠ main_v2) (h19 : r ≠ main_v19) (h22 : r ≠ main_v22) :
    We m x c (Proc.devRef .tc r) = E5 m c (Proc.devRef .tc r) := (We_ne m x c r h22).trans (Wd_of m _ c r h2 h19)

/-- No array of region 1 is `main_v2`; none of region 2 is `main_v2` or `main_v19`. -/
theorem arr1_ne2 : ∀ w : Fin 5, Pipeline.arrRef spec1 w ≠ main_v2 := by decide
theorem arr2_ne2 : ∀ w : Fin 5, Pipeline.arrRef spec2 w ≠ main_v2 := by decide
theorem arr2_ne19 : ∀ w : Fin 5, Pipeline.arrRef spec2 w ≠ main_v19 := by decide

set_option backward.isDefEq.respectTransparency.types false in
/-- EXIT of region 0: its arrays at what they may hold after every write-back — each input as entered (an input array
    is never written), the output at some contents `y` — and the unscoped rest are the unscoped buffers at
    the entry contents changed at `main_v2` to `y`. -/
theorem exit0 (c : Dev nD) :
    iprop(((dat0 m c).toRForget (fun _ => true)).arraysAt cfg0.N
        ∗ Pipeline.unscopedRest (Ix := Unit) (Name := ℕ) (U := UR sig nD τ) (Lvl := ℕ) spec0 c (Er1 m c))
      ⊢ (iprop(∃ y, StableHlo.held (c : Thread nD τ) (Pipeline.ucRefs τ sig) (Wa m y c)) : sProp 𝕄) := by
  unfold Pipeline.RDat.arraysAt
  rw [bigSep_W0]
  iintro ⟨⟨⟨%F0, %h0, H0⟩, ⟨%F1, %h1, H1⟩, ⟨%y, -, H2⟩⟩, Hrest⟩
  rw [Pipeline.RDat.ArrAt_in _ 0 rfl] at h0
  rw [Pipeline.RDat.ArrAt_in _ 1 rfl] at h1
  subst h0 h1
  have hjoin := Pipeline.unscopedBufs_of_arrays (p := 0) (pcfgs (F := F)) adm (Ix := Unit) (Name := ℕ) (U := UR sig nD τ) (Lvl := ℕ)
    launch0.win launch0.arr_whole c (pdats m) ((pdats m 0 c).share_full fun _ => rfl)
    (Er1 m c) (Vr c (Wa m y c)) (fun w => Vr c (Wa m y c) (Pipeline.arrRef spec0 w)) (fun _ => rfl)
    (fun b hb => Wa_of m y c b fun e => hb (Finset.mem_image.mpr ⟨2, Finset.mem_univ _, e.symm⟩))
  rw [Pipeline.unscopedBufs_held] at hjoin
  unfold Pipeline.Dat.arrays at hjoin
  rw [bigSep_W0] at hjoin
  beta_reduce at hjoin
  rw [
    show Vr c (Wa m y c) (Pipeline.arrRef spec0 0) = (dat0 m c).A 0 from Wa_of m y c _ (by decide),
    show Vr c (Wa m y c) (Pipeline.arrRef spec0 1) = (dat0 m c).A 1 from Wa_of m y c _ (by decide),
    show Vr c (Wa m y c) (Pipeline.arrRef spec0 2) = y from Function.update_self _ _ _] at hjoin
  iexists y
  iapply hjoin
  isplitr [Hrest]
  swap; · iexact Hrest
  isplitl [H0]; · iexact H0
  isplitl [H1]; · iexact H1
  iexact H2

set_option maxHeartbeats 2000000 in
set_option backward.isDefEq.respectTransparency.types false in
/-- EXIT of region 1: its arrays at what they may hold after every write-back — each input as entered (an input array
    is never written), the output at some contents `y` — and the unscoped rest are the unscoped buffers at
    the entry contents changed at `main_v19` to `y`. -/
theorem exit1 (c : Dev nD) (x : B2 (F := F)) :
    iprop(((dat1 m c).toRForget (fun _ => true)).arraysAt cfg1.N
        ∗ Pipeline.unscopedRest (Ix := Unit) (Name := ℕ) (U := UR sig nD τ) (Lvl := ℕ) spec1 c (Vr c (Wb m x c)))
      ⊢ (iprop(∃ y, StableHlo.held (c : Thread nD τ) (Pipeline.ucRefs τ sig) (Wc m (x, y) c)) : sProp 𝕄) := by
  unfold Pipeline.RDat.arraysAt
  rw [bigSep_W1]
  iintro ⟨⟨⟨%F0, %h0, H0⟩, ⟨%F1, %h1, H1⟩, ⟨%F2, %h2, H2⟩, ⟨%F3, %h3, H3⟩, ⟨%y, -, H4⟩⟩, Hrest⟩
  rw [Pipeline.RDat.ArrAt_in _ 0 rfl] at h0
  rw [Pipeline.RDat.ArrAt_in _ 1 rfl] at h1
  rw [Pipeline.RDat.ArrAt_in _ 2 rfl] at h2
  rw [Pipeline.RDat.ArrAt_in _ 3 rfl] at h3
  subst h0 h1 h2 h3
  have hjoin := Pipeline.unscopedBufs_of_arrays (p := 1) (pcfgs (F := F)) adm (Ix := Unit) (Name := ℕ) (U := UR sig nD τ) (Lvl := ℕ)
    launch1.win launch1.arr_whole c (pdats m) ((pdats m 1 c).share_full fun _ => rfl)
    (Vr c (Wb m x c)) (Vr c (Wc m (x, y) c)) (fun w => Vr c (Wc m (x, y) c) (Pipeline.arrRef spec1 w)) (fun _ => rfl)
    (fun b hb => Wc_ne m (x, y) c b fun e => hb (Finset.mem_image.mpr ⟨4, Finset.mem_univ _, e.symm⟩))
  rw [Pipeline.unscopedBufs_held] at hjoin
  unfold Pipeline.Dat.arrays at hjoin
  rw [bigSep_W1] at hjoin
  beta_reduce at hjoin
  rw [
    show Vr c (Wc m (x, y) c) (Pipeline.arrRef spec1 0) = (dat1 m c).A 0 from Wc_of m (x, y) c _ (by decide) (by decide),
    show Vr c (Wc m (x, y) c) (Pipeline.arrRef spec1 1) = (dat1 m c).A 1 from Wc_of m (x, y) c _ (by decide) (by decide),
    show Vr c (Wc m (x, y) c) (Pipeline.arrRef spec1 2) = (dat1 m c).A 2 from Wc_of m (x, y) c _ (by decide) (by decide),
    show Vr c (Wc m (x, y) c) (Pipeline.arrRef spec1 3) = (dat1 m c).A 3 from Wc_of m (x, y) c _ (by decide) (by decide),
    show Vr c (Wc m (x, y) c) (Pipeline.arrRef spec1 4) = y from Function.update_self _ _ _] at hjoin
  iexists y
  iapply hjoin
  isplitr [Hrest]
  swap; · iexact Hrest
  isplitl [H0]; · iexact H0
  isplitl [H1]; · iexact H1
  isplitl [H2]; · iexact H2
  isplitl [H3]; · iexact H3
  iexact H4

set_option maxHeartbeats 2000000 in
set_option backward.isDefEq.respectTransparency.types false in
/-- EXIT of region 2: its arrays at what they may hold after every write-back — each input as entered (an input array
    is never written), the output at some contents `y` — and the unscoped rest are the unscoped buffers at
    the entry contents changed at `main_v22` to `y`. -/
theorem exit2 (c : Dev nD) (x : B2 (F := F) × B19 (F := F)) :
    iprop(((dat2 m c).toRForget (fun _ => true)).arraysAt cfg2.N
        ∗ Pipeline.unscopedRest (Ix := Unit) (Name := ℕ) (U := UR sig nD τ) (Lvl := ℕ) spec2 c (Vr c (Wd m x c)))
      ⊢ (iprop(∃ y, StableHlo.held (c : Thread nD τ) (Pipeline.ucRefs τ sig) (We m (x.1, x.2, y) c)) : sProp 𝕄) := by
  unfold Pipeline.RDat.arraysAt
  rw [bigSep_W2]
  iintro ⟨⟨⟨%F0, %h0, H0⟩, ⟨%F1, %h1, H1⟩, ⟨%F2, %h2, H2⟩, ⟨%F3, %h3, H3⟩, ⟨%y, -, H4⟩⟩, Hrest⟩
  rw [Pipeline.RDat.ArrAt_in _ 0 rfl] at h0
  rw [Pipeline.RDat.ArrAt_in _ 1 rfl] at h1
  rw [Pipeline.RDat.ArrAt_in _ 2 rfl] at h2
  rw [Pipeline.RDat.ArrAt_in _ 3 rfl] at h3
  subst h0 h1 h2 h3
  have hjoin := Pipeline.unscopedBufs_of_arrays (p := 2) (pcfgs (F := F)) adm (Ix := Unit) (Name := ℕ) (U := UR sig nD τ) (Lvl := ℕ)
    launch2.win launch2.arr_whole c (pdats m) ((pdats m 2 c).share_full fun _ => rfl)
    (Vr c (Wd m x c)) (Vr c (We m (x.1, x.2, y) c)) (fun w => Vr c (We m (x.1, x.2, y) c) (Pipeline.arrRef spec2 w)) (fun _ => rfl)
    (fun b hb => We_ne m (x.1, x.2, y) c b fun e => hb (Finset.mem_image.mpr ⟨4, Finset.mem_univ _, e.symm⟩))
  rw [Pipeline.unscopedBufs_held] at hjoin
  unfold Pipeline.Dat.arrays at hjoin
  rw [bigSep_W2] at hjoin
  beta_reduce at hjoin
  rw [
    show Vr c (We m (x.1, x.2, y) c) (Pipeline.arrRef spec2 0) = (dat2 m c).A 0 from We_of m (x.1, x.2, y) c _ (by decide) (by decide) (by decide),
    show Vr c (We m (x.1, x.2, y) c) (Pipeline.arrRef spec2 1) = (dat2 m c).A 1 from We_of m (x.1, x.2, y) c _ (by decide) (by decide) (by decide),
    show Vr c (We m (x.1, x.2, y) c) (Pipeline.arrRef spec2 2) = (dat2 m c).A 2 from We_of m (x.1, x.2, y) c _ (by decide) (by decide) (by decide),
    show Vr c (We m (x.1, x.2, y) c) (Pipeline.arrRef spec2 3) = (dat2 m c).A 3 from We_of m (x.1, x.2, y) c _ (by decide) (by decide) (by decide),
    show Vr c (We m (x.1, x.2, y) c) (Pipeline.arrRef spec2 4) = y from Function.update_self _ _ _] at hjoin
  iexists y
  iapply hjoin
  isplitr [Hrest]
  swap; · iexact Hrest
  isplitl [H0]; · iexact H0
  isplitl [H1]; · iexact H1
  isplitl [H2]; · iexact H2
  isplitl [H3]; · iexact H3
  iexact H4

/-! ## The regions as segments -/

set_option backward.isDefEq.respectTransparency.types false in
/-- REGION 0 over the thread state: entered from every unscoped buffer at the definite contents `E1`, left at those contents changed at `main_v2` to some contents.
    Its arrays split out of the unscoped buffers at the proof data's entry contents (no array of the region is an
    earlier region's output) and are put back at the exit contents (`exit0`); the generator register goes into the
    invariant and comes out; nothing is owed; the kernel has no semaphore of its own. -/
def reg0 : Pipeline.RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 m c).toRForget
  hwaits := Pipeline.RDat.hwaits_of_owed_zero _ _ _ _ L lv 0 fun _ _ => rfl
  pre := fun c => iprop(StableHlo.held (c : Thread nD τ) (Pipeline.ucRefs τ sig) (E1 m c) ∗ R c)
  post := TS (Wa m)
  X c := iprop(∃ r, prngReg c r)
  Y c := iprop(∃ r, prngReg c r)
  Z c := Pipeline.unscopedRest (Ix := Unit) (Name := ℕ) (U := UR sig nD τ) (Lvl := ℕ) spec0 c (Er1 m c)
  hentry c := by
    rw [Pipeline.ownSems0_none]
    iintro ⟨⟨Hub, Hp, HO⟩, -, -⟩
    have hsplit := Pipeline.RDat.arrays_of_unscopedBufs (p := 0) (pcfgs (F := F)) adm (rdats m) launch0.win launch0.arr_whole c
      ((rdats m 0 c).share_full fun _ => rfl) (Er1 m c) (fun _ => rfl)
    rw [Pipeline.unscopedBufs_held] at hsplit
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    iintro ⟨Ha, HO, HY, Hrest⟩
    ihave H := (exit0 m c) $$ [Ha Hrest]
    · isplitl [Ha]; · iexact Ha
      iexact Hrest
    icases H with ⟨%y, Hh⟩
    imodintro
    iexists y
    isplitl [Hh]; · iexact Hh
    isplitl [HY]; · iexact HY
    unfold Pipeline.RDat.owesAt Pipeline.owesWithin
    icases HO with ⟨%W, -, HO⟩; iexists W; iexact HO

set_option backward.isDefEq.respectTransparency.types false in
/-- REGION 1 over the thread state: entered from every unscoped buffer at `Wb m x c` for some `x`, left at `Wc m (x, y) c` for some `y`.
    Its arrays split out of the unscoped buffers at the proof data's entry contents (no array of the region is an
    earlier region's output) and are put back at the exit contents (`exit1`); the generator register goes into the
    invariant and comes out; nothing is owed; the kernel has no semaphore of its own. -/
def reg1 : Pipeline.RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 m c).toRForget
  hwaits := Pipeline.RDat.hwaits_of_owed_zero _ _ _ _ L lv 1 fun _ _ => rfl
  pre := TS (Wb m)
  post := TS (Wc m)
  X c := iprop(∃ r, prngReg c r)
  Y c := iprop(∃ r, prngReg c r)
  Z c := iprop(∃ x, Pipeline.unscopedRest (Ix := Unit) (Name := ℕ) (U := UR sig nD τ) (Lvl := ℕ) spec1 c (Vr c (Wb m x c)))
  hentry c := by
    rw [Pipeline.ownSems0_none]
    iintro ⟨⟨%x, Hub, Hp, HO⟩, -, -⟩
    have hsplit := Pipeline.RDat.arrays_of_unscopedBufs (p := 1) (pcfgs (F := F)) adm (rdats m) launch1.win launch1.arr_whole c
      ((rdats m 1 c).share_full fun _ => rfl) (Vr c (Wb m x c)) (fun w => (Wb_of m x c _ (arr1_ne2 w)).symm)
    rw [Pipeline.unscopedBufs_held] at hsplit
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexists x; iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    icases Hrest with ⟨%x, Hrest⟩
    ihave H := (exit1 m c x) $$ [Ha Hrest]
    · isplitl [Ha]; · iexact Ha
      iexact Hrest
    icases H with ⟨%y, Hh⟩
    imodintro
    iexists (x, y)
    isplitl [Hh]; · iexact Hh
    isplitl [HY]; · iexact HY
    unfold Pipeline.RDat.owesAt Pipeline.owesWithin
    icases HO with ⟨%W, -, HO⟩; iexists W; iexact HO

set_option backward.isDefEq.respectTransparency.types false in
/-- REGION 2 over the thread state: entered from every unscoped buffer at `Wd m x c` for some `x`, left at `We m (x.1, x.2, y) c` for some `y`.
    Its arrays split out of the unscoped buffers at the proof data's entry contents (no array of the region is an
    earlier region's output) and are put back at the exit contents (`exit2`); the generator register goes into the
    invariant and comes out; nothing is owed; the kernel has no semaphore of its own. -/
def reg2 : Pipeline.RDat.RegionSeg (pcfgs (F := F)) adm (rdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 m c).toRForget
  hwaits := Pipeline.RDat.hwaits_of_owed_zero _ _ _ _ L lv 2 fun _ _ => rfl
  pre := TS (Wd m)
  post := TS (We m)
  X c := iprop(∃ r, prngReg c r)
  Y c := iprop(∃ r, prngReg c r)
  Z c := iprop(∃ x, Pipeline.unscopedRest (Ix := Unit) (Name := ℕ) (U := UR sig nD τ) (Lvl := ℕ) spec2 c (Vr c (Wd m x c)))
  hentry c := by
    rw [Pipeline.ownSems0_none]
    iintro ⟨⟨%x, Hub, Hp, HO⟩, -, -⟩
    have hsplit := Pipeline.RDat.arrays_of_unscopedBufs (p := 2) (pcfgs (F := F)) adm (rdats m) launch2.win launch2.arr_whole c
      ((rdats m 2 c).share_full fun _ => rfl) (Vr c (Wd m x c)) (fun w => (Wd_of m x c _ (arr2_ne2 w) (arr2_ne19 w)).symm)
    rw [Pipeline.unscopedBufs_held] at hsplit
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexists x; iexact Hrest
  hin c := by
    rw [show (rdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (rdats m 2 c).Φ (Fin.last _) = Pipeline.ΦA spec2 c from rfl]; unfold Pipeline.ΦA
    iintro ⟨Hr, Hp⟩
    isplitl [Hp]; · iexact Hp
    isplitr; · iempintro
    iexact Hr
  hexit c := by
    iintro ⟨Ha, HO, HY, Hrest⟩
    icases Hrest with ⟨%x, Hrest⟩
    ihave H := (exit2 m c x) $$ [Ha Hrest]
    · isplitl [Ha]; · iexact Ha
      iexact Hrest
    icases H with ⟨%y, Hh⟩
    imodintro
    iexists (x.1, x.2, y)
    isplitl [Hh]; · iexact Hh
    isplitl [HY]; · iexact HY
    unfold Pipeline.RDat.owesAt Pipeline.owesWithin
    icases HO with ⟨%W, -, HO⟩; iexists W; iexact HO

/-! ## @main as segments, and the launch -/

/-- A host stretch from definite contents as a segment: `HostSeg.ofOps` over the unscoped references, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- @main's 7 segments in order: a host segment per stretch, a region per pallas_call. -/
abbrev segs : List (Pipeline.RDat.Seg (pcfgs (F := F)) adm (rdats m) () defs₀ 𝒱₀ L lv) :=
  [ .host (hseg hostOps0 hostOps0_sub hostOps0_fresh (V0 m)),
    .region (reg0 m),
    .host (hsegE hostOps1 hostOps1_sub hostOps1_fresh (Wa m) (Wb m) (after1_Wa m)),
    .region (reg1 m),
    .host (hsegE hostOps2 hostOps2_sub hostOps2_fresh (Wc m) (Wd m) (after2_Wc m)),
    .region (reg2 m),
    .host (hsegE hostOps3 hostOps3_sub hostOps3_fresh (We m) (Wf m) (fun _ _ => rfl)) ]

-- the launch theorem's implicit arguments are found by unifying its conclusion with this one, which takes unfolding
-- plain definitions in a metavariable's type
set_option backward.isDefEq.respectTransparency.types false in
/-- THE FRAME of the word-level program, at any `F`: at the compiled mesh, from any memory with zero counters, every
    weakly fair execution of @main on the TensorCores terminates, nothing faulting, and every final state has the seven
    argument arrays as launched. The launch theorem for a list of segments; the last thread state — every unscoped buffer at
    `Wf m x c` for some `x` — read against the final state; each argument then read through `Wf` back to the launch
    memory: no host line writes an argument and no region's output array is one. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.RDat.θ_run_regions_kit (pcfgs (F := F)) adm (rdats m) () cellOf_inj emb₁ defs₀ 𝒱₀ L lv m ρ main (segs m)
    (fun c Q => by
      rewrite [main_chain c, Pipeline.RDat.Seg.run_eq_chain,
        show (segs m).map Pipeline.RDat.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(∃ x, StableHlo.held (c : Thread nD τ) (Pipeline.ucRefs τ sig) (Wf m x c) ∗ ∃ r, prngReg c r))
    (hch := ⟨fun _ => .rfl, fun _ => .rfl, fun _ => .rfl, fun _ => .rfl, fun _ => .rfl, fun _ => .rfl, fun _ => .rfl, fun c => by
      show (TS (Wf m) c : sProp 𝕄) ⊢ iprop((∃ x, StableHlo.held (c : Thread nD τ) (Pipeline.ucRefs τ sig) (Wf m x c) ∗ ∃ r, prngReg c r)
        ∗ ∃ W, owes (c : Thread nD τ) (0 : CellTallies nD τ sig Unit) W)
      iintro ⟨%x, Hh, Hp, HO⟩
      isplitr [HO]
      · iexists x; isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∃ x, ∀ b ∈ Pipeline.ucRefs τ sig, s.mem (((c : Thread nD τ)).1, b) = Wf m x c b)
    (hfin := fun c s' => by
      iintro ⟨⟨%x, Hh, -⟩, HSI⟩
      unfold StableHlo.held
      ihave Hr := (pointsTo_read_all (Pipeline.ucRefs τ sig) (fun b => (((c : Thread nD τ)).1, b)) (Wf m x c) s') $$ [Hh HSI]
      · isplitl [Hh] <;> iassumption
      icases Hr with ⟨%h, HSI⟩
      imodintro
      isplitr
      · ipureintro; exact ⟨x, h⟩
      · iexact HSI)
    (hQ := fun s h c => by
      obtain ⟨x, hx⟩ := h c
      exact ⟨(hx _ (mem_uc main_arg0 (by decide))).trans (Wf_arg m x c main_arg0 (by decide) (by decide) (by decide) (by decide) (by decide) (by decide) (by decide)),
        (hx _ (mem_uc main_arg1 (by decide))).trans (Wf_arg m x c main_arg1 (by decide) (by decide) (by decide) (by decide) (by decide) (by decide) (by decide)),
        (hx _ (mem_uc main_arg2 (by decide))).trans (Wf_arg m x c main_arg2 (by decide) (by decide) (by decide) (by decide) (by decide) (by decide) (by decide)),
        (hx _ (mem_uc main_arg3 (by decide))).trans (Wf_arg m x c main_arg3 (by decide) (by decide) (by decide) (by decide) (by decide) (by decide) (by decide)),
        (hx _ (mem_uc main_arg4 (by decide))).trans (Wf_arg m x c main_arg4 (by decide) (by decide) (by decide) (by decide) (by decide) (by decide) (by decide)),
        (hx _ (mem_uc main_arg5 (by decide))).trans (Wf_arg m x c main_arg5 (by decide) (by decide) (by decide) (by decide) (by decide) (by decide) (by decide)),
        (hx _ (mem_uc main_arg6 (by decide))).trans (Wf_arg m x c main_arg6 (by decide) (by decide) (by decide) (by decide) (by decide) (by decide) (by decide))⟩)

/-- info: 'Cert.Kernel.BitsFrame.frame' depends on axioms: [propext, Classical.choice, Quot.sound] -/
#guard_msgs in #print axioms frame

end Cert.Kernel.BitsFrame

end
-- ==== Proof.IdealHead.lean ====
/-
  Region 0 of @main: the head logits, one matrix product per block of 1024 rows.

  At grid point t the body loads the point's block of the (bf16) hidden rows and the whole (bf16) head weight
  and stores their matrix product into the output block; it reads nothing it wrote and keeps nothing between
  points. Stated at a parameter `V`, the buffers' contents when the region is entered: each input window's
  staging buffer holds its block of `V`'s array, and the output's holds the product of the two.
-/
import proofs.«123100_j81028853006378_2_alg».proof.Proof.Gen.KernelIdeal.Launch
import proofs.«123100_j81028853006378_2_alg».proof.Proof.Gen.KernelIdeal.Skeleton
import proofs.«123100_j81028853006378_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Head

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The whole staging buffers, as rectangles. -/
abbrev rH : Rect S1024x1024 := Rect.unit (s := S1024x1024) ![0, 0] S1024x1024.size inb_S1024x1024_S1024x1024_0_0
abbrev rW : Rect S1024x2002 := Rect.unit (s := S1024x2002) ![0, 0] S1024x2002.size inb_S1024x2002_S1024x2002_0_0

/-- The output block after the body: the product of the hidden block and the weight. -/
def out (x0 : Vec F S1024x1024 .bf16) (x1 : Vec F S1024x2002 .bf16) : Vec F S1024x2002 .f32 :=
  View.canon [⟨rW, k0_pay1 (View.ld x0 rH) (View.ld x1 rW)⟩]

theorem cover (p0 : Vec F S1024x2002 .f32) (y : S1024x2002.Idx) :
    ∃ pc ∈ ([⟨rW, p0⟩] : List (View.Piece (Elt F) S1024x2002 .f32)), y ∈ pc.1.set :=
  View.cover_of_tiled [⟨rW, p0⟩] S1024x2002.size (by rfl) y

set_option maxHeartbeats 1000000 in
/-- The body on whole staging memrefs: the inputs stay, the output ends at `out` of them. -/
theorem sound_kernel (c : Dev nD) (E : Set ℕ) (i : grid0.Coords) (arg1 : Memref sig .tc .vmem S1024x1024 .bf16) (harg1 : arg1.IsWhole)
    (arg2 : Memref sig .tc .vmem S1024x2002 .bf16) (harg2 : arg2.IsWhole) (arg3 : Memref sig .tc .vmem S1024x2002 .f32) (harg3 : arg3.IsWhole)
    (x0 : Vec F S1024x1024 .bf16) (x1 : Vec F S1024x2002 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out x0 x1)) -∗ K ⟨⟩))
      ⊢ wp frame (wpE (defs₀ (F := F)) Variants.none c none) E (cc0__head_kernel i arg1 harg1 arg2 harg2 arg3 harg3) K := by
  simp only [cc0__head_kernel_eq_skeleton]; unfold cc0__head_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover _)

/-- The proof data of pipeline 0 on core `c`. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => out (iblk V c 0 t) (iblk V c 1 t)
  Φ _ := Pipeline.ΦA spec0 c
  q _ := fullShare
  owed _ := 0

theorem A_eq (c : Dev nD) (w : Fin cfg0.W) : (dat V c).A w = V c (Pipeline.arrRef spec0 w) := by
  dsimp only [dat]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = out (iblk V c 0 t) (iblk V c 1 t) := by dsimp only [dat]
theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of pipeline 0, at every point. -/
theorem body_obligation (c : Dev nD) : BodyObligation (dat (F := F) V c) (defs₀ (F := F)) Variants.none () Set.univ := fun t => by
  rw [bigSep_W0, bigSep_W0]
  exact sound_body V c t

end Cert.KernelIdeal.Head

end
-- ==== Proof.IdealTail1Body.lean ====
/-
  Region 1 of @main, the body: one tail cluster's decode, tile by tile.

  The grid is (row block i, decode tile j), j innermost. At j = 0 the body computes the row block's masked
  down-projection (hidden block · down weight, each row times its 0/1 mask, rounded to the scratch's format)
  and keeps it in a scratch buffer; at every j it multiplies the scratch by the j-th tile of the decode weight
  into the output block.
-/
import proofs.«123100_j81028853006378_2_alg».proof.Proof.Gen.KernelIdeal.Launch
import proofs.«123100_j81028853006378_2_alg».proof.Proof.Gen.KernelIdeal.Skeleton
import proofs.«123100_j81028853006378_2_alg».proof.Proof.Gen.KernelIdeal.Points
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Tail1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The body's one branch: taken where the grid's second coordinate is 0, the first decode tile of a row block. -/
abbrev cond (i : grid1.Coords) : Prop := (Scalar.cmpi .ne (Scalar.extui (Scalar.cmpi .eq (BitVec.ofNat 32 (i 1).val) 0#32)) 0#32) = 1#1
theorem hcond : ∀ t : Fin cfg1.N, cond (grid1.coords t) ↔ t.val % 4 = 0 :=
  (by decide +kernel : ∀ t : Fin grid1.N, cond (grid1.coords t) ↔ t.val % 4 = 0)

theorem hz : (![0, 0] : Fin 2 → Nat) = fun _ => 0 := funext fun a => by fin_cases a <;> rfl

/-- The whole staging buffers, as rectangles. -/
abbrev rH : Rect S1024x1024 := Rect.unit (s := S1024x1024) ![0, 0] S1024x1024.size inb_S1024x1024_S1024x1024_0_0
abbrev rN : Rect S1024x1024 := Rect.unit (s := S1024x1024) ![0, 0] S1024x1024.size inb_S1024x1024_S1024x1024_0_0
abbrev rD : Rect S1024x2048 := Rect.unit (s := S1024x2048) ![0, 0] S1024x2048.size inb_S1024x2048_S1024x2048_0_0
abbrev rO : Rect S1024x2048 := Rect.unit (s := S1024x2048) ![0, 0] S1024x2048.size inb_S1024x2048_S1024x2048_0_0
abbrev rM : Rect S1024x1 := Rect.unit (s := S1024x1) ![0, 0] S1024x1.size inb_S1024x1_S1024x1_0_0

theorem coverN (p : Vec F S1024x1024 .bf16) (y : S1024x1024.Idx) :
    ∃ pc ∈ ([⟨rN, p⟩] : List (View.Piece (Elt F) S1024x1024 .bf16)), y ∈ pc.1.set :=
  ⟨_, List.mem_singleton_self _, View.mem_set_unit_zero hz inb_S1024x1024_S1024x1024_0_0 y⟩
theorem coverO (p : Vec F S1024x2048 .f32) (y : S1024x2048.Idx) :
    ∃ pc ∈ ([⟨rO, p⟩] : List (View.Piece (Elt F) S1024x2048 .f32)), y ∈ pc.1.set :=
  ⟨_, List.mem_singleton_self _, View.mem_set_unit_zero hz inb_S1024x2048_S1024x2048_0_0 y⟩

set_option maxHeartbeats 4000000 in
/-- The body where the branch is taken: the masked down-projection of the row block goes to the scratch, and
    the output block is the scratch times the decode tile. The inputs stay. -/
theorem sound_first (c : Dev nD) (E : Set ℕ) (i : grid1.Coords) (hc : cond i)
    (arg2 : Memref sig .tc .vmem S1024x1024 .bf16) (harg2 : arg2.IsWhole) (arg3 : Memref sig .tc .vmem S1024x1024 .bf16) (harg3 : arg3.IsWhole)
    (arg4 : Memref sig .tc .vmem S1024x2048 .bf16) (harg4 : arg4.IsWhole) (arg5 : Memref sig .tc .vmem S1024x1 .f32) (harg5 : arg5.IsWhole)
    (arg6 : Memref sig .tc .vmem S1024x2048 .f32) (harg6 : arg6.IsWhole) (arg7 : Memref sig .tc .vmem S1024x1024 .bf16) (harg7 : arg7.IsWhole)
    (x0 : Vec F S1024x1024 .bf16) (x1 : Vec F S1024x1024 .bf16) (x2 : Vec F S1024x2048 .bf16) (x3 : Vec F S1024x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ s, owns (c : Thread nD τ) arg7 fullShare s)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k1_pay2 (k1_pay1 x0 x1 x3) x2) ∗ owns (c : Thread nD τ) arg7 fullShare (k1_pay1 x0 x1 x3)) -∗ K ⟨⟩))
      ⊢ wp frame (wpE (defs₀ (F := F)) Variants.none c none) E (cc1__tail_kernel i arg2 harg2 arg3 harg3 arg4 harg4 arg5 harg5 arg6 harg6 arg7 harg7) K := by
  simp only [cc1__tail_kernel_eq_skeleton]; unfold cc1__tail_kernel_skel
  unfold owns
  iintro ⟨⟨%f0, %hf0, H0⟩, ⟨%f1, %hf1, H1⟩, ⟨%f2, %hf2, H2⟩, ⟨%f3, %hf3, H3⟩, ⟨%d6, %f6, -, H6⟩, ⟨%s7, %f7, -, H7⟩, Hk⟩
  subst hf0 hf1 hf2 hf3
  sl_exec (disch := first | exact hc)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H6]
  · iexists _; isplitr
    swap; · iexact H6
    ipureintro
    refine (View.read_writes_eq_canon _ _ _ (coverO _)).trans ?_
    rw [View.canon_unit_zero hz, View.readCov_cons_toLoadRect]
    simp only [View.readAt_eq_ld, View.ld_unit_zero (S := S1024x1024) hz, View.ld_unit_zero (S := S1024x1024) hz, View.ld_unit_zero (S := S1024x2048) hz, View.ld_unit_zero (S := S1024x1) hz]
  · iexists _; isplitr
    swap; · iexact H7
    ipureintro
    refine (View.read_writes_eq_canon _ _ _ (coverN _)).trans ?_
    rw [View.canon_unit_zero hz]
    simp only [View.readAt_eq_ld, View.ld_unit_zero (S := S1024x1024) hz, View.ld_unit_zero (S := S1024x1024) hz, View.ld_unit_zero (S := S1024x2048) hz, View.ld_unit_zero (S := S1024x1) hz]

set_option maxHeartbeats 4000000 in
/-- The body where the branch is not taken: the scratch stays, and the output block is the scratch times the
    decode tile. The inputs stay. -/
theorem sound_later (c : Dev nD) (E : Set ℕ) (i : grid1.Coords) (hc : ¬cond i)
    (arg2 : Memref sig .tc .vmem S1024x1024 .bf16) (harg2 : arg2.IsWhole) (arg3 : Memref sig .tc .vmem S1024x1024 .bf16) (harg3 : arg3.IsWhole)
    (arg4 : Memref sig .tc .vmem S1024x2048 .bf16) (harg4 : arg4.IsWhole) (arg5 : Memref sig .tc .vmem S1024x1 .f32) (harg5 : arg5.IsWhole)
    (arg6 : Memref sig .tc .vmem S1024x2048 .f32) (harg6 : arg6.IsWhole) (arg7 : Memref sig .tc .vmem S1024x1024 .bf16) (harg7 : arg7.IsWhole)
    (x0 : Vec F S1024x1024 .bf16) (x1 : Vec F S1024x1024 .bf16) (x2 : Vec F S1024x2048 .bf16) (x3 : Vec F S1024x1 .f32) (s : Vec F S1024x1024 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ owns (c : Thread nD τ) arg7 fullShare s
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k1_pay2 s x2) ∗ owns (c : Thread nD τ) arg7 fullShare s) -∗ K ⟨⟩))
      ⊢ wp frame (wpE (defs₀ (F := F)) Variants.none c none) E (cc1__tail_kernel i arg2 harg2 arg3 harg3 arg4 harg4 arg5 harg5 arg6 harg6 arg7 harg7) K := by
  simp only [cc1__tail_kernel_eq_skeleton]; unfold cc1__tail_kernel_skel
  unfold owns
  iintro ⟨⟨%f0, %hf0, H0⟩, ⟨%f1, %hf1, H1⟩, ⟨%f2, %hf2, H2⟩, ⟨%f3, %hf3, H3⟩, ⟨%d6, %f6, -, H6⟩, ⟨%f7, %hf7, H7⟩, Hk⟩
  subst hf0 hf1 hf2 hf3 hf7
  sl_exec (disch := first | exact hc)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H6]
  · iexists _; isplitr
    swap; · iexact H6
    ipureintro
    refine (View.read_writes_eq_canon _ _ _ (coverO _)).trans ?_
    rw [View.canon_unit_zero hz]
    simp only [View.readAt_eq_ld, View.ld_unit_zero (S := S1024x1024) hz, View.ld_unit_zero (S := S1024x1024) hz, View.ld_unit_zero (S := S1024x2048) hz, View.ld_unit_zero (S := S1024x1) hz]
  · iexists f7; isplitr; · ipureintro; rfl
    iexact H7

end Cert.KernelIdeal.Tail1

end
-- ==== Proof.IdealTail1Data.lean ====
/-
  Region 1 of @main, the proof data: what each window's staging buffer holds after the body at each point.

  The three uncut inputs (hidden block, down weight, mask column) hold their blocks; the decode window's last
  tile overhangs the array, so its buffer holds the tile's columns inside the array and unnamed words past them;
  the output holds the scratch times that buffer, of which only the columns inside the array are written back.
  The scratch is carried between points: after point n it holds the masked down-projection computed at the last
  point with tile index 0.
-/
import proofs.«123100_j81028853006378_2_alg».proof.Proof.Gen.KernelIdeal.Launch
import proofs.«123100_j81028853006378_2_alg».proof.Proof.Gen.KernelIdeal.Skeleton
import proofs.«123100_j81028853006378_2_alg».proof.Proof.Gen.KernelIdeal.Points
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«123100_j81028853006378_2_alg».proof.Proof.IdealTail1Body

set_option maxRecDepth 16384

noncomputable section

namespace Cert.KernelIdeal.Tail1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it (for a window whose last
    block overhangs the array: the block's part inside the array). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An uncut input window's current staging buffer holds its block at every point, fetched there or not. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The scratch after point `n`: the masked down-projection of the row block of the last point at or before
    `n` whose tile index is 0. -/
def dpAt (c : Dev nD) : (n : ℕ) → n < cfg1.N → Vec F S1024x1024 .bf16
  | 0, hn => k1_pay1 (iblk V c 0 ⟨0, hn⟩) (iblk V c 1 ⟨0, hn⟩) (iblk V c 3 ⟨0, hn⟩)
  | n + 1, hn =>
    if (n + 1) % 4 = 0 then k1_pay1 (iblk V c 0 ⟨n + 1, hn⟩) (iblk V c 1 ⟨n + 1, hn⟩) (iblk V c 3 ⟨n + 1, hn⟩)
    else dpAt c n (Nat.lt_of_succ_lt hn)

theorem dpAt_first (c : Dev nD) (t : Fin cfg1.N) (h : t.val % 4 = 0) :
    dpAt V c t.val t.isLt = k1_pay1 (iblk V c 0 t) (iblk V c 1 t) (iblk V c 3 t) := by
  obtain ⟨n, hn⟩ := t
  cases n with
  | zero => rfl
  | succ n => exact if_pos h
theorem dpAt_later (c : Dev nD) (t : Fin cfg1.N) (h : ¬t.val % 4 = 0) :
    dpAt V c t.val t.isLt = dpAt V c (t.val - 1) (Nat.lt_of_le_of_lt (Nat.sub_le _ _) t.isLt) := by
  obtain ⟨n, hn⟩ := t
  cases n with
  | zero => exact absurd (Nat.zero_mod _) h
  | succ n => exact if_neg h

/-- Words nothing names: what fills a staging buffer past the array's end in the proof data (nothing reads it). -/
def filler : Vec F S1024x2048 .bf16 := constant S1024x2048 .bf16 0x0000#16

/-- The decode tile as a staging buffer holds it: the tile's columns inside the array, `d` past its end. -/
def decBuf (c : Dev nD) (t : Fin cfg1.N) (d : S1024x2048.Idx → Elt F .bf16) : Vec F S1024x2048 .bf16 :=
  win1_2.fill (grid1.coords t) d (iblk V c 2 t)

/-- The scratch operand, and the rest of the region's invariant: the other scoped buffers and the generator register. -/
abbrev scM : Memref sig .tc .vmem S1024x1024 .bf16 := Memref.whole cc1_scratch0
abbrev Rest (c : Dev nD) : sProp 𝕄 :=
  iprop(Pipeline.scopedRestBut (Ix := Unit) (Name := ℕ) (U := UR sig nD τ) (Lvl := ℕ) (Val := Elt F) spec1 c [cc1_scratch0] ∗ ∃ r, prngReg c r)

theorem scoped_split (c : Dev nD) :
    (Pipeline.scopedRest (Ix := Unit) (Name := ℕ) (U := UR sig nD τ) (Lvl := ℕ) (Val := Elt F) spec1 c : sProp 𝕄)
      = iprop(iprop(∃ f : Buf (Elt F) ((c : Thread nD τ).loc cc1_scratch0), ((c : Thread nD τ).loc cc1_scratch0) ↦{fullShare} f)
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)
theorem PhiA_in (c : Dev nD) :
    (Pipeline.ΦA spec1 c : sProp 𝕄) ⊢ iprop((∃ d, owns (c : Thread nD τ) scM fullShare d) ∗ Rest (F := F) c) := by
  unfold Pipeline.ΦA
  rw [scoped_split]
  simp only [scM, owns_whole]
  iintro ⟨⟨HS, HB⟩, Hg⟩
  isplitl [HS]; · iexact HS
  isplitl [HB]; · iexact HB
  iexact Hg
theorem PhiA_out (c : Dev nD) :
    iprop((∃ d, owns (c : Thread nD τ) scM fullShare d) ∗ Rest (F := F) c) ⊢ (Pipeline.ΦA spec1 c : sProp 𝕄) := by
  unfold Pipeline.ΦA
  rw [scoped_split]
  simp only [scM, owns_whole]
  iintro ⟨HS, HB, Hg⟩
  isplitl [HS HB]
  · isplitl [HS]; · iexact HS
    iexact HB
  iexact Hg

/-- The invariant before position `n`: before the first point the scratch holds anything; afterwards what the point
    before left in it. -/
def PhiS (c : Dev nD) : (n : ℕ) → n ≤ cfg1.N → sProp 𝕄
  | 0, _ => Pipeline.ΦA spec1 c
  | n + 1, hn => iprop(owns (c : Thread nD τ) scM fullShare (dpAt V c n hn) ∗ Rest (F := F) c)

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(owns (c : Thread nD τ) scM fullShare (dpAt V c n hn) ∗ Rest (F := F) c) := rfl
theorem PhiS_pos (c : Dev nD) (n : ℕ) (h : n ≤ cfg1.N) (hz : n ≠ 0) :
    PhiS V c n h = iprop(owns (c : Thread nD τ) scM fullShare (dpAt V c (n - 1) (by omega)) ∗ Rest (F := F) c) := by
  cases n with
  | zero => exact absurd rfl hz
  | succ n => rfl

/-- The proof data of pipeline 1 on core `c`. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => decBuf V c t filler
    | ⟨3, _⟩ => iblk V c 3 t
    | ⟨4, _⟩ => k1_pay2 (dpAt V c t.val t.isLt) (decBuf V c t filler)
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]
theorem PhiS_castSucc (c : Dev nD) (t : Fin cfg1.N) :
    (dat V c).Φ t.castSucc = PhiS V c t.val (Nat.le_of_lt t.isLt) := by
  dsimp only [dat]; simp only [Fin.coe_castSucc]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = decBuf V c t filler := by dsimp only [dat]
theorem after_3 (c : Dev nD) (t : Fin cfg1.N) : (dat V c).after 3 t = iblk V c 3 t := by dsimp only [dat]
theorem after_4 (c : Dev nD) (t : Fin cfg1.N) :
    (dat V c).after 4 t = k1_pay2 (dpAt V c t.val t.isLt) (decBuf V c t filler) := by dsimp only [dat]
theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_3 (c : Dev nD) (t : Fin cfg1.N) (d) : (dat V c).before 3 t d = iblk V c 3 t :=
  before_3_of V (dat V c) (A_eq V c 3) (after_3 V c) t d
/-- The decode window is fetched at every point: its buffer holds the tile's part inside the array, and whatever
    the fetch's overwrite left past it. -/
theorem before_2 (c : Dev nD) (t : Fin cfg1.N) (d) : (dat V c).before 2 t d = decBuf V c t d := by
  rw [(dat V c).before_fetched 2 t (fetch1_2 t) d]; rfl
/-- The output window is written back at every point: its buffer is handed over holding anything. -/
theorem before_4 (c : Dev nD) (t : Fin cfg1.N) (d) : (dat V c).before 4 t d = d := by
  refine (dat V c).before_out_reset 4 rfl t ?_ d
  by_cases h : t.val = 0
  · exact .inl h
  · exact .inr ⟨h, flush1_4 _⟩

end Cert.KernelIdeal.Tail1

end
-- ==== Proof.IdealTail1Oblig.lean ====
/-
  Region 1 of @main, the body obligation: at every grid point the body, handed the staging buffers as the proof
  data says the pipeline left them, leaves them as the proof data says — the scratch carried in the invariant.

  The decode window's last tile overhangs its array. What the body is handed past the array's end is unnamed, and
  the output block it computes there is never written back; on the columns inside the array the output does not
  depend on it, because column q of a matrix product reads only column q of the right operand.
-/
import proofs.«123100_j81028853006378_2_alg».proof.Proof.Gen.KernelIdeal.Launch
import proofs.«123100_j81028853006378_2_alg».proof.Proof.Gen.KernelIdeal.Skeleton
import proofs.«123100_j81028853006378_2_alg».proof.Proof.Gen.KernelIdeal.Points
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import Idealize.ShloMosaic.Lib.ValueIdx
import proofs.«123100_j81028853006378_2_alg».proof.Proof.IdealTail1Data

set_option maxRecDepth 16384

noncomputable section

namespace Cert.KernelIdeal.Tail1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The decode window's blocks are whole along the rows, and cut along the columns exactly as the output's. -/
theorem xsize_rows : ∀ t : Fin cfg1.N, win1_2.xsize (grid1.coords t) 0 = 1024 :=
  (by decide +kernel : ∀ t : Fin grid1.N, win1_2.xsize (grid1.coords t) 0 = 1024)
theorem xsize_cols : ∀ t : Fin cfg1.N, win1_2.xsize (grid1.coords t) 1 = win1_4.xsize (grid1.coords t) 1 :=
  (by decide +kernel : ∀ t : Fin grid1.N, win1_2.xsize (grid1.coords t) 1 = win1_4.xsize (grid1.coords t) 1)

/-- Column q of the product reads only column q of the right operand: the property of the product the clipped
    tile needs (it holds of the exact product; stated as a hypothesis so that this module fixes no instance). -/
def ColumnWise (F : FTy → Type) [FloatOps F] : Prop :=
  ∀ (s : Vec F S1024x1024 .bf16) (x2 x2' : Vec F S1024x2048 .bf16) (p : Fin 1024) (q : Fin 2048),
    (∀ k : Fin 1024, x2 (ValueIdx.ix2 k q) = x2' (ValueIdx.ix2 k q)) →
      k1_pay2 s x2 (ValueIdx.ix2 p q) = k1_pay2 s x2' (ValueIdx.ix2 p q)

/-- What the write-back moves of the output block does not depend on the words past the decode array's end. -/
theorem cut_out_congr (hcol : ColumnWise F) (c : Dev nD) (t : Fin cfg1.N) (s : Vec F S1024x1024 .bf16) (d d' : S1024x2048.Idx → Elt F .bf16) :
    win1_4.cut (grid1.coords t) (k1_pay2 s (decBuf V c t d)) = win1_4.cut (grid1.coords t) (k1_pay2 s (decBuf V c t d')) := by
  funext j
  show k1_pay2 s (decBuf V c t d) (win1_4.xinj (grid1.coords t) j) = k1_pay2 s (decBuf V c t d') (win1_4.xinj (grid1.coords t) j)
  rw [ValueIdx.eq_ix2 (win1_4.xinj (grid1.coords t) j)]
  refine hcol _ _ _ _ _ fun k => ?_
  have hm : win1_2.moved (grid1.coords t) (ValueIdx.ix2 k ((win1_4.xinj (grid1.coords t) j) 1)) = true :=
    (win1_2.moved_iff _ _).mpr fun a => by
      match a with
      | ⟨0, _⟩ => show k.val < win1_2.xsize (grid1.coords t) 0; rw [xsize_rows t]; exact k.isLt
      | ⟨1, _⟩ => show (j 1).val < win1_2.xsize (grid1.coords t) 1; rw [xsize_cols t]; exact (j 1).isLt
  unfold decBuf Window.fill
  rw [dif_pos hm, dif_pos hm]

set_option maxHeartbeats 4000000 in
/-- The body obligation of pipeline 1, at every point: the two cases of the branch, the first point apart (the
    scratch is handed over holding anything there). The two clipped windows are stated on the part inside the array. -/
theorem body_obligation (hcol : ColumnWise F) (c : Dev nD) :
    BodyObligationLoose (dat (F := F) V c) (defs₀ (F := F)) Variants.none () Set.univ := fun t => by
  rw [bigSep_W1, bigSep_W1]
  simp only
  rw [show (dat V c).owesAt () t.succ = (dat V c).owesAt () t.castSucc from rfl,
    show (dat V c).Φ t.succ = PhiS V c (t.val + 1) t.isLt from rfl, PhiS_succ, PhiS_castSucc]
  change _ ⊢ wp frame (wpE (defs₀ (F := F)) Variants.none c none) Set.univ (bodyAt1 t) _
  unfold bodyAt1
  rw [after_0, after_1, after_2, after_3, after_4]
  by_cases h0 : t.val % 4 = 0
  · have hc : cond (grid1.coords t) := (hcond t).mpr h0
    rw [dpAt_first V c t h0]
    by_cases hz0 : t.val = 0
    · rw [PhiS_zero V c _ _ hz0]
      iintro ⟨HΦ, Ho, ⟨%d0, H0⟩, ⟨%d1, H1⟩, ⟨%d2, H2⟩, ⟨%d3, H3⟩, ⟨%d4, H4⟩⟩
      rw [before_0 V c t d0, before_1 V c t d1, before_2 V c t d2, before_3 V c t d3, before_4 V c t d4]
      ihave HΦ' := PhiA_in (F := F) c $$ HΦ
      icases HΦ' with ⟨HS, HR⟩
      iapply (sound_first c Set.univ (grid1.coords t) hc _ _ _ _ _ _ _ _ _ _ _ _ (iblk V c 0 t) (iblk V c 1 t) (decBuf V c t d2) (iblk V c 3 t) _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, H7⟩
      isplitl [H7 HR]
      · isplitl [H7]; · iexact H7
        iexact HR
      isplitl [Ho]; · iexact Ho
      isplitl [H0]; · iexact H0
      isplitl [H1]; · iexact H1
      isplitl [H2]
      · iexists d2
        have e2 : (win1 2).cut (grid1.coords t) (decBuf V c t filler) = iblk V c 2 t := win1_2.cut_fill _ _ _
        rw [e2]; iexact H2
      isplitl [H3]; · iexact H3
      iexists (k1_pay2 (k1_pay1 (iblk V c 0 t) (iblk V c 1 t) (iblk V c 3 t)) (decBuf V c t d2))
      have e4 : (win1 4).fill (grid1.coords t) (k1_pay2 (k1_pay1 (iblk V c 0 t) (iblk V c 1 t) (iblk V c 3 t)) (decBuf V c t d2))
          ((win1 4).cut (grid1.coords t) (k1_pay2 (k1_pay1 (iblk V c 0 t) (iblk V c 1 t) (iblk V c 3 t)) (decBuf V c t filler))) = k1_pay2 (k1_pay1 (iblk V c 0 t) (iblk V c 1 t) (iblk V c 3 t)) (decBuf V c t d2) :=
        Window.fill_congr_cut _ _ (cut_out_congr V hcol c t _ d2 filler)
      rw [e4]; iexact H4
    · rw [PhiS_pos V c _ _ hz0]
      iintro ⟨⟨HS, HR⟩, Ho, ⟨%d0, H0⟩, ⟨%d1, H1⟩, ⟨%d2, H2⟩, ⟨%d3, H3⟩, ⟨%d4, H4⟩⟩
      rw [before_0 V c t d0, before_1 V c t d1, before_2 V c t d2, before_3 V c t d3, before_4 V c t d4]
      iapply (sound_first c Set.univ (grid1.coords t) hc _ _ _ _ _ _ _ _ _ _ _ _ (iblk V c 0 t) (iblk V c 1 t) (decBuf V c t d2) (iblk V c 3 t) _)
      isplitl [H0]; · iexact H0
      isplitl [H1]; · iexact H1
      isplitl [H2]; · iexact H2
      isplitl [H3]; · iexact H3
      isplitl [H4]; · iexists _; iexact H4
      isplitl [HS]; · iexists _; iexact HS
      iintro ⟨H0, H1, H2, H3, H4, H7⟩
      isplitl [H7 HR]
      · isplitl [H7]; · iexact H7
        iexact HR
      isplitl [Ho]; · iexact Ho
      isplitl [H0]; · iexact H0
      isplitl [H1]; · iexact H1
      isplitl [H2]
      · iexists d2
        have e2 : (win1 2).cut (grid1.coords t) (decBuf V c t filler) = iblk V c 2 t := win1_2.cut_fill _ _ _
        rw [e2]; iexact H2
      isplitl [H3]; · iexact H3
      iexists (k1_pay2 (k1_pay1 (iblk V c 0 t) (iblk V c 1 t) (iblk V c 3 t)) (decBuf V c t d2))
      have e4 : (win1 4).fill (grid1.coords t) (k1_pay2 (k1_pay1 (iblk V c 0 t) (iblk V c 1 t) (iblk V c 3 t)) (decBuf V c t d2))
          ((win1 4).cut (grid1.coords t) (k1_pay2 (k1_pay1 (iblk V c 0 t) (iblk V c 1 t) (iblk V c 3 t)) (decBuf V c t filler))) = k1_pay2 (k1_pay1 (iblk V c 0 t) (iblk V c 1 t) (iblk V c 3 t)) (decBuf V c t d2) :=
        Window.fill_congr_cut _ _ (cut_out_congr V hcol c t _ d2 filler)
      rw [e4]; iexact H4
  · have hc : ¬cond (grid1.coords t) := fun h => h0 ((hcond t).mp h)
    have hz0 : t.val ≠ 0 := fun h => h0 (by rw [h])
    rw [dpAt_later V c t h0, PhiS_pos V c _ _ hz0]
    iintro ⟨⟨HS, HR⟩, Ho, ⟨%d0, H0⟩, ⟨%d1, H1⟩, ⟨%d2, H2⟩, ⟨%d3, H3⟩, ⟨%d4, H4⟩⟩
    rw [before_0 V c t d0, before_1 V c t d1, before_2 V c t d2, before_3 V c t d3, before_4 V c t d4]
    iapply (sound_later c Set.univ (grid1.coords t) hc _ _ _ _ _ _ _ _ _ _ _ _ (iblk V c 0 t) (iblk V c 1 t) (decBuf V c t d2) (iblk V c 3 t)
      (dpAt V c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, H7⟩
    isplitl [H7 HR]
    · isplitl [H7]; · iexact H7
      iexact HR
    isplitl [Ho]; · iexact Ho
    isplitl [H0]; · iexact H0
    isplitl [H1]; · iexact H1
    isplitl [H2]
    · iexists d2
      have e2 : (win1 2).cut (grid1.coords t) (decBuf V c t filler) = iblk V c 2 t := win1_2.cut_fill _ _ _
      rw [e2]; iexact H2
    isplitl [H3]; · iexact H3
    iexists (k1_pay2 (dpAt V c (t.val - 1) (Nat.lt_of_le_of_lt (Nat.sub_le _ _) t.isLt)) (decBuf V c t d2))
    have e4 : (win1 4).fill (grid1.coords t) (k1_pay2 (dpAt V c (t.val - 1) (Nat.lt_of_le_of_lt (Nat.sub_le _ _) t.isLt)) (decBuf V c t d2))
        ((win1 4).cut (grid1.coords t) (k1_pay2 (dpAt V c (t.val - 1) (Nat.lt_of_le_of_lt (Nat.sub_le _ _) t.isLt)) (decBuf V c t filler))) = k1_pay2 (dpAt V c (t.val - 1) (Nat.lt_of_le_of_lt (Nat.sub_le _ _) t.isLt)) (decBuf V c t d2) :=
      Window.fill_congr_cut _ _ (cut_out_congr V hcol c t _ d2 filler)
    rw [e4]; iexact H4

end Cert.KernelIdeal.Tail1

end
-- ==== Proof.IdealTail2Body.lean ====
/-
  Region 2 of @main, the body: one tail cluster's decode, tile by tile.

  The grid is (row block i, decode tile j), j innermost. At j = 0 the body computes the row block's masked
  down-projection (hidden block · down weight, each row times its 0/1 mask, rounded to the scratch's format)
  and keeps it in a scratch buffer; at every j it multiplies the scratch by the j-th tile of the decode weight
  into the output block.
-/
import proofs.«123100_j81028853006378_2_alg».proof.Proof.Gen.KernelIdeal.Launch
import proofs.«123100_j81028853006378_2_alg».proof.Proof.Gen.KernelIdeal.Skeleton
import proofs.«123100_j81028853006378_2_alg».proof.Proof.Gen.KernelIdeal.Points
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Tail2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The body's one branch: taken where the grid's second coordinate is 0, the first decode tile of a row block. -/
abbrev cond (i : grid2.Coords) : Prop := (Scalar.cmpi .ne (Scalar.extui (Scalar.cmpi .eq (BitVec.ofNat 32 (i 1).val) 0#32)) 0#32) = 1#1
theorem hcond : ∀ t : Fin cfg2.N, cond (grid2.coords t) ↔ t.val % 13 = 0 :=
  (by decide +kernel : ∀ t : Fin grid2.N, cond (grid2.coords t) ↔ t.val % 13 = 0)

theorem hz : (![0, 0] : Fin 2 → Nat) = fun _ => 0 := funext fun a => by fin_cases a <;> rfl

/-- The whole staging buffers, as rectangles. -/
abbrev rH : Rect S1024x1024 := Rect.unit (s := S1024x1024) ![0, 0] S1024x1024.size inb_S1024x1024_S1024x1024_0_0
abbrev rN : Rect S1024x256 := Rect.unit (s := S1024x256) ![0, 0] S1024x256.size inb_S1024x256_S1024x256_0_0
abbrev rD : Rect S256x3200 := Rect.unit (s := S256x3200) ![0, 0] S256x3200.size inb_S256x3200_S256x3200_0_0
abbrev rO : Rect S1024x3200 := Rect.unit (s := S1024x3200) ![0, 0] S1024x3200.size inb_S1024x3200_S1024x3200_0_0
abbrev rM : Rect S1024x1 := Rect.unit (s := S1024x1) ![0, 0] S1024x1.size inb_S1024x1_S1024x1_0_0

theorem coverN (p : Vec F S1024x256 .bf16) (y : S1024x256.Idx) :
    ∃ pc ∈ ([⟨rN, p⟩] : List (View.Piece (Elt F) S1024x256 .bf16)), y ∈ pc.1.set :=
  ⟨_, List.mem_singleton_self _, View.mem_set_unit_zero hz inb_S1024x256_S1024x256_0_0 y⟩
theorem coverO (p : Vec F S1024x3200 .f32) (y : S1024x3200.Idx) :
    ∃ pc ∈ ([⟨rO, p⟩] : List (View.Piece (Elt F) S1024x3200 .f32)), y ∈ pc.1.set :=
  ⟨_, List.mem_singleton_self _, View.mem_set_unit_zero hz inb_S1024x3200_S1024x3200_0_0 y⟩

set_option maxHeartbeats 4000000 in
/-- The body where the branch is taken: the masked down-projection of the row block goes to the scratch, and
    the output block is the scratch times the decode tile. The inputs stay. -/
theorem sound_first (c : Dev nD) (E : Set ℕ) (i : grid2.Coords) (hc : cond i)
    (arg2 : Memref sig .tc .vmem S1024x1024 .bf16) (harg2 : arg2.IsWhole) (arg3 : Memref sig .tc .vmem S1024x256 .bf16) (harg3 : arg3.IsWhole)
    (arg4 : Memref sig .tc .vmem S256x3200 .bf16) (harg4 : arg4.IsWhole) (arg5 : Memref sig .tc .vmem S1024x1 .f32) (harg5 : arg5.IsWhole)
    (arg6 : Memref sig .tc .vmem S1024x3200 .f32) (harg6 : arg6.IsWhole) (arg7 : Memref sig .tc .vmem S1024x256 .bf16) (harg7 : arg7.IsWhole)
    (x0 : Vec F S1024x1024 .bf16) (x1 : Vec F S1024x256 .bf16) (x2 : Vec F S256x3200 .bf16) (x3 : Vec F S1024x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ s, owns (c : Thread nD τ) arg7 fullShare s)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k2_pay2 (k2_pay1 x0 x1 x3) x2) ∗ owns (c : Thread nD τ) arg7 fullShare (k2_pay1 x0 x1 x3)) -∗ K ⟨⟩))
      ⊢ wp frame (wpE (defs₀ (F := F)) Variants.none c none) E (cc2__tail_kernel i arg2 harg2 arg3 harg3 arg4 harg4 arg5 harg5 arg6 harg6 arg7 harg7) K := by
  simp only [cc2__tail_kernel_eq_skeleton]; unfold cc2__tail_kernel_skel
  unfold owns
  iintro ⟨⟨%f0, %hf0, H0⟩, ⟨%f1, %hf1, H1⟩, ⟨%f2, %hf2, H2⟩, ⟨%f3, %hf3, H3⟩, ⟨%d6, %f6, -, H6⟩, ⟨%s7, %f7, -, H7⟩, Hk⟩
  subst hf0 hf1 hf2 hf3
  sl_exec (disch := first | exact hc)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H6]
  · iexists _; isplitr
    swap; · iexact H6
    ipureintro
    refine (View.read_writes_eq_canon _ _ _ (coverO _)).trans ?_
    rw [View.canon_unit_zero hz, View.readCov_cons_toLoadRect]
    simp only [View.readAt_eq_ld, View.ld_unit_zero (S := S1024x1024) hz, View.ld_unit_zero (S := S1024x256) hz, View.ld_unit_zero (S := S256x3200) hz, View.ld_unit_zero (S := S1024x1) hz]
  · iexists _; isplitr
    swap; · iexact H7
    ipureintro
    refine (View.read_writes_eq_canon _ _ _ (coverN _)).trans ?_
    rw [View.canon_unit_zero hz]
    simp only [View.readAt_eq_ld, View.ld_unit_zero (S := S1024x1024) hz, View.ld_unit_zero (S := S1024x256) hz, View.ld_unit_zero (S := S256x3200) hz, View.ld_unit_zero (S := S1024x1) hz]

set_option maxHeartbeats 4000000 in
/-- The body where the branch is not taken: the scratch stays, and the output block is the scratch times the
    decode tile. The inputs stay. -/
theorem sound_later (c : Dev nD) (E : Set ℕ) (i : grid2.Coords) (hc : ¬cond i)
    (arg2 : Memref sig .tc .vmem S1024x1024 .bf16) (harg2 : arg2.IsWhole) (arg3 : Memref sig .tc .vmem S1024x256 .bf16) (harg3 : arg3.IsWhole)
    (arg4 : Memref sig .tc .vmem S256x3200 .bf16) (harg4 : arg4.IsWhole) (arg5 : Memref sig .tc .vmem S1024x1 .f32) (harg5 : arg5.IsWhole)
    (arg6 : Memref sig .tc .vmem S1024x3200 .f32) (harg6 : arg6.IsWhole) (arg7 : Memref sig .tc .vmem S1024x256 .bf16) (harg7 : arg7.IsWhole)
    (x0 : Vec F S1024x1024 .bf16) (x1 : Vec F S1024x256 .bf16) (x2 : Vec F S256x3200 .bf16) (x3 : Vec F S1024x1 .f32) (s : Vec F S1024x256 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ owns (c : Thread nD τ) arg7 fullShare s
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k2_pay2 s x2) ∗ owns (c : Thread nD τ) arg7 fullShare s) -∗ K ⟨⟩))
      ⊢ wp frame (wpE (defs₀ (F := F)) Variants.none c none) E (cc2__tail_kernel i arg2 harg2 arg3 harg3 arg4 harg4 arg5 harg5 arg6 harg6 arg7 harg7) K := by
  simp only [cc2__tail_kernel_eq_skeleton]; unfold cc2__tail_kernel_skel
  unfold owns
  iintro ⟨⟨%f0, %hf0, H0⟩, ⟨%f1, %hf1, H1⟩, ⟨%f2, %hf2, H2⟩, ⟨%f3, %hf3, H3⟩, ⟨%d6, %f6, -, H6⟩, ⟨%f7, %hf7, H7⟩, Hk⟩
  subst hf0 hf1 hf2 hf3 hf7
  sl_exec (disch := first | exact hc)
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H6]
  · iexists _; isplitr
    swap; · iexact H6
    ipureintro
    refine (View.read_writes_eq_canon _ _ _ (coverO _)).trans ?_
    rw [View.canon_unit_zero hz]
    simp only [View.readAt_eq_ld, View.ld_unit_zero (S := S1024x1024) hz, View.ld_unit_zero (S := S1024x256) hz, View.ld_unit_zero (S := S256x3200) hz, View.ld_unit_zero (S := S1024x1) hz]
  · iexists f7; isplitr; · ipureintro; rfl
    iexact H7

end Cert.KernelIdeal.Tail2

end
-- ==== Proof.IdealTail2Data.lean ====
/-
  Region 2 of @main, the proof data: what each window's staging buffer holds after the body at each point.

  The three uncut inputs (hidden block, down weight, mask column) hold their blocks; the decode window's last
  tile overhangs the array, so its buffer holds the tile's columns inside the array and unnamed words past them;
  the output holds the scratch times that buffer, of which only the columns inside the array are written back.
  The scratch is carried between points: after point n it holds the masked down-projection computed at the last
  point with tile index 0.
-/
import proofs.«123100_j81028853006378_2_alg».proof.Proof.Gen.KernelIdeal.Launch
import proofs.«123100_j81028853006378_2_alg».proof.Proof.Gen.KernelIdeal.Skeleton
import proofs.«123100_j81028853006378_2_alg».proof.Proof.Gen.KernelIdeal.Points
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«123100_j81028853006378_2_alg».proof.Proof.IdealTail2Body

set_option maxRecDepth 16384

noncomputable section

namespace Cert.KernelIdeal.Tail2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it (for a window whose last
    block overhangs the array: the block's part inside the array). -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An uncut input window's current staging buffer holds its block at every point, fetched there or not. -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The scratch after point `n`: the masked down-projection of the row block of the last point at or before
    `n` whose tile index is 0. -/
def dpAt (c : Dev nD) : (n : ℕ) → n < cfg2.N → Vec F S1024x256 .bf16
  | 0, hn => k2_pay1 (iblk V c 0 ⟨0, hn⟩) (iblk V c 1 ⟨0, hn⟩) (iblk V c 3 ⟨0, hn⟩)
  | n + 1, hn =>
    if (n + 1) % 13 = 0 then k2_pay1 (iblk V c 0 ⟨n + 1, hn⟩) (iblk V c 1 ⟨n + 1, hn⟩) (iblk V c 3 ⟨n + 1, hn⟩)
    else dpAt c n (Nat.lt_of_succ_lt hn)

theorem dpAt_first (c : Dev nD) (t : Fin cfg2.N) (h : t.val % 13 = 0) :
    dpAt V c t.val t.isLt = k2_pay1 (iblk V c 0 t) (iblk V c 1 t) (iblk V c 3 t) := by
  obtain ⟨n, hn⟩ := t
  cases n with
  | zero => rfl
  | succ n => exact if_pos h
theorem dpAt_later (c : Dev nD) (t : Fin cfg2.N) (h : ¬t.val % 13 = 0) :
    dpAt V c t.val t.isLt = dpAt V c (t.val - 1) (Nat.lt_of_le_of_lt (Nat.sub_le _ _) t.isLt) := by
  obtain ⟨n, hn⟩ := t
  cases n with
  | zero => exact absurd (Nat.zero_mod _) h
  | succ n => exact if_neg h

/-- Words nothing names: what fills a staging buffer past the array's end in the proof data (nothing reads it). -/
def filler : Vec F S256x3200 .bf16 := constant S256x3200 .bf16 0x0000#16

/-- The decode tile as a staging buffer holds it: the tile's columns inside the array, `d` past its end. -/
def decBuf (c : Dev nD) (t : Fin cfg2.N) (d : S256x3200.Idx → Elt F .bf16) : Vec F S256x3200 .bf16 :=
  win2_2.fill (grid2.coords t) d (iblk V c 2 t)

/-- The scratch operand, and the rest of the region's invariant: the other scoped buffers and the generator register. -/
abbrev scM : Memref sig .tc .vmem S1024x256 .bf16 := Memref.whole cc2_scratch0
abbrev Rest (c : Dev nD) : sProp 𝕄 :=
  iprop(Pipeline.scopedRestBut (Ix := Unit) (Name := ℕ) (U := UR sig nD τ) (Lvl := ℕ) (Val := Elt F) spec2 c [cc2_scratch0] ∗ ∃ r, prngReg c r)

theorem scoped_split (c : Dev nD) :
    (Pipeline.scopedRest (Ix := Unit) (Name := ℕ) (U := UR sig nD τ) (Lvl := ℕ) (Val := Elt F) spec2 c : sProp 𝕄)
      = iprop(iprop(∃ f : Buf (Elt F) ((c : Thread nD τ).loc cc2_scratch0), ((c : Thread nD τ).loc cc2_scratch0) ↦{fullShare} f)
          ∗ Pipeline.scopedRestBut (Ix := Unit) (Name := ℕ) (U := UR sig nD τ) (Lvl := ℕ) (Val := Elt F) spec2 c [cc2_scratch0]) :=
  Pipeline.scopedRest_split_of_list spec2 c [cc2_scratch0] (by decide) (by decide)
theorem PhiA_in (c : Dev nD) :
    (Pipeline.ΦA spec2 c : sProp 𝕄) ⊢ iprop((∃ d, owns (c : Thread nD τ) scM fullShare d) ∗ Rest (F := F) c) := by
  unfold Pipeline.ΦA
  rw [scoped_split]
  simp only [scM, owns_whole]
  iintro ⟨⟨HS, HB⟩, Hg⟩
  isplitl [HS]; · iexact HS
  isplitl [HB]; · iexact HB
  iexact Hg
theorem PhiA_out (c : Dev nD) :
    iprop((∃ d, owns (c : Thread nD τ) scM fullShare d) ∗ Rest (F := F) c) ⊢ (Pipeline.ΦA spec2 c : sProp 𝕄) := by
  unfold Pipeline.ΦA
  rw [scoped_split]
  simp only [scM, owns_whole]
  iintro ⟨HS, HB, Hg⟩
  isplitl [HS HB]
  · isplitl [HS]; · iexact HS
    iexact HB
  iexact Hg

/-- The invariant before position `n`: before the first point the scratch holds anything; afterwards what the point
    before left in it. -/
def PhiS (c : Dev nD) : (n : ℕ) → n ≤ cfg2.N → sProp 𝕄
  | 0, _ => Pipeline.ΦA spec2 c
  | n + 1, hn => iprop(owns (c : Thread nD τ) scM fullShare (dpAt V c n hn) ∗ Rest (F := F) c)

theorem PhiS_zero (c : Dev nD) (n : ℕ) (h : n ≤ cfg2.N) (hz : n = 0) : PhiS V c n h = Pipeline.ΦA spec2 c := by
  subst hz; rfl
theorem PhiS_succ (c : Dev nD) (n : ℕ) (hn : n < cfg2.N) :
    PhiS V c (n + 1) hn = iprop(owns (c : Thread nD τ) scM fullShare (dpAt V c n hn) ∗ Rest (F := F) c) := rfl
theorem PhiS_pos (c : Dev nD) (n : ℕ) (h : n ≤ cfg2.N) (hz : n ≠ 0) :
    PhiS V c n h = iprop(owns (c : Thread nD τ) scM fullShare (dpAt V c (n - 1) (by omega)) ∗ Rest (F := F) c) := by
  cases n with
  | zero => exact absurd rfl hz
  | succ n => rfl

/-- The proof data of pipeline 2 on core `c`. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => decBuf V c t filler
    | ⟨3, _⟩ => iblk V c 3 t
    | ⟨4, _⟩ => k2_pay2 (dpAt V c t.val t.isLt) (decBuf V c t filler)
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]
theorem PhiS_castSucc (c : Dev nD) (t : Fin cfg2.N) :
    (dat V c).Φ t.castSucc = PhiS V c t.val (Nat.le_of_lt t.isLt) := by
  dsimp only [dat]; simp only [Fin.coe_castSucc]
theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = decBuf V c t filler := by dsimp only [dat]
theorem after_3 (c : Dev nD) (t : Fin cfg2.N) : (dat V c).after 3 t = iblk V c 3 t := by dsimp only [dat]
theorem after_4 (c : Dev nD) (t : Fin cfg2.N) :
    (dat V c).after 4 t = k2_pay2 (dpAt V c t.val t.isLt) (decBuf V c t filler) := by dsimp only [dat]
theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d
theorem before_3 (c : Dev nD) (t : Fin cfg2.N) (d) : (dat V c).before 3 t d = iblk V c 3 t :=
  before_3_of V (dat V c) (A_eq V c 3) (after_3 V c) t d
/-- The decode window is fetched at every point: its buffer holds the tile's part inside the array, and whatever
    the fetch's overwrite left past it. -/
theorem before_2 (c : Dev nD) (t : Fin cfg2.N) (d) : (dat V c).before 2 t d = decBuf V c t d := by
  rw [(dat V c).before_fetched 2 t (fetch2_2 t) d]; rfl
/-- The output window is written back at every point: its buffer is handed over holding anything. -/
theorem before_4 (c : Dev nD) (t : Fin cfg2.N) (d) : (dat V c).before 4 t d = d := by
  refine (dat V c).before_out_reset 4 rfl t ?_ d
  by_cases h : t.val = 0
  · exact .inl h
  · exact .inr ⟨h, flush2_4 _⟩

end Cert.KernelIdeal.Tail2

end
-- ==== Proof.IdealTail2Oblig.lean ====
/-
  Region 2 of @main, the body obligation: at every grid point the body, handed the staging buffers as the proof
  data says the pipeline left them, leaves them as the proof data says — the scratch carried in the invariant.

  The decode window's last tile overhangs its array. What the body is handed past the array's end is unnamed, and
  the output block it computes there is never written back; on the columns inside the array the output does not
  depend on it, because column q of a matrix product reads only column q of the right operand.
-/
import proofs.«123100_j81028853006378_2_alg».proof.Proof.Gen.KernelIdeal.Launch
import proofs.«123100_j81028853006378_2_alg».proof.Proof.Gen.KernelIdeal.Skeleton
import proofs.«123100_j81028853006378_2_alg».proof.Proof.Gen.KernelIdeal.Points
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import Idealize.ShloMosaic.Lib.ValueIdx
import proofs.«123100_j81028853006378_2_alg».proof.Proof.IdealTail2Data

set_option maxRecDepth 16384

noncomputable section

namespace Cert.KernelIdeal.Tail2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The decode window's blocks are whole along the rows, and cut along the columns exactly as the output's. -/
theorem xsize_rows : ∀ t : Fin cfg2.N, win2_2.xsize (grid2.coords t) 0 = 256 :=
  (by decide +kernel : ∀ t : Fin grid2.N, win2_2.xsize (grid2.coords t) 0 = 256)
theorem xsize_cols : ∀ t : Fin cfg2.N, win2_2.xsize (grid2.coords t) 1 = win2_4.xsize (grid2.coords t) 1 :=
  (by decide +kernel : ∀ t : Fin grid2.N, win2_2.xsize (grid2.coords t) 1 = win2_4.xsize (grid2.coords t) 1)

/-- Column q of the product reads only column q of the right operand: the property of the product the clipped
    tile needs (it holds of the exact product; stated as a hypothesis so that this module fixes no instance). -/
def ColumnWise (F : FTy → Type) [FloatOps F] : Prop :=
  ∀ (s : Vec F S1024x256 .bf16) (x2 x2' : Vec F S256x3200 .bf16) (p : Fin 1024) (q : Fin 3200),
    (∀ k : Fin 256, x2 (ValueIdx.ix2 k q) = x2' (ValueIdx.ix2 k q)) →
      k2_pay2 s x2 (ValueIdx.ix2 p q) = k2_pay2 s x2' (ValueIdx.ix2 p q)

/-- What the write-back moves of the output block does not depend on the words past the decode array's end. -/
theorem cut_out_congr (hcol : ColumnWise F) (c : Dev nD) (t : Fin cfg2.N) (s : Vec F S1024x256 .bf16) (d d' : S256x3200.Idx → Elt F .bf16) :
    win2_4.cut (grid2.coords t) (k2_pay2 s (decBuf V c t d)) = win2_4.cut (grid2.coords t) (k2_pay2 s (decBuf V c t d')) := by
  funext j
  show k2_pay2 s (decBuf V c t d) (win2_4.xinj (grid2.coords t) j) = k2_pay2 s (decBuf V c t d') (win2_4.xinj (grid2.coords t) j)
  rw [ValueIdx.eq_ix2 (win2_4.xinj (grid2.coords t) j)]
  refine hcol _ _ _ _ _ fun k => ?_
  have hm : win2_2.moved (grid2.coords t) (ValueIdx.ix2 k ((win2_4.xinj (grid2.coords t) j) 1)) = true :=
    (win2_2.moved_iff _ _).mpr fun a => by
      match a with
      | ⟨0, _⟩ => show k.val < win2_2.xsize (grid2.coords t) 0; rw [xsize_rows t]; exact k.isLt
      | ⟨1, _⟩ => show (j 1).val < win2_2.xsize (grid2.coords t) 1; rw [xsize_cols t]; exact (j 1).isLt
  unfold decBuf Window.fill
  rw [dif_pos hm, dif_pos hm]

set_option maxHeartbeats 4000000 in
/-- The body obligation of pipeline 2, at every point: the two cases of the branch, the first point apart (the
    scratch is handed over holding anything there). The two clipped windows are stated on the part inside the array. -/
theorem body_obligation (hcol : ColumnWise F) (c : Dev nD) :
    BodyObligationLoose (dat (F := F) V c) (defs₀ (F := F)) Variants.none () Set.univ := fun t => by
  rw [bigSep_W2, bigSep_W2]
  simp only
  rw [show (dat V c).owesAt () t.succ = (dat V c).owesAt () t.castSucc from rfl,
    show (dat V c).Φ t.succ = PhiS V c (t.val + 1) t.isLt from rfl, PhiS_succ, PhiS_castSucc]
  change _ ⊢ wp frame (wpE (defs₀ (F := F)) Variants.none c none) Set.univ (bodyAt2 t) _
  unfold bodyAt2
  rw [after_0, after_1, after_2, after_3, after_4]
  by_cases h0 : t.val % 13 = 0
  · have hc : cond (grid2.coords t) := (hcond t).mpr h0
    rw [dpAt_first V c t h0]
    by_cases hz0 : t.val = 0
    · rw [PhiS_zero V c _ _ hz0]
      iintro ⟨HΦ, Ho, ⟨%d0, H0⟩, ⟨%d1, H1⟩, ⟨%d2, H2⟩, ⟨%d3, H3⟩, ⟨%d4, H4⟩⟩
      rw [before_0 V c t d0, before_1 V c t d1, before_2 V c t d2, before_3 V c t d3, before_4 V c t d4]
      ihave HΦ' := PhiA_in (F := F) c $$ HΦ
      icases HΦ' with ⟨HS, HR⟩
      iapply (sound_first c Set.univ (grid2.coords t) hc _ _ _ _ _ _ _ _ _ _ _ _ (iblk V c 0 t) (iblk V c 1 t) (decBuf V c t d2) (iblk V c 3 t) _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, H7⟩
      isplitl [H7 HR]
      · isplitl [H7]; · iexact H7
        iexact HR
      isplitl [Ho]; · iexact Ho
      isplitl [H0]; · iexact H0
      isplitl [H1]; · iexact H1
      isplitl [H2]
      · iexists d2
        have e2 : (win2 2).cut (grid2.coords t) (decBuf V c t filler) = iblk V c 2 t := win2_2.cut_fill _ _ _
        rw [e2]; iexact H2
      isplitl [H3]; · iexact H3
      iexists (k2_pay2 (k2_pay1 (iblk V c 0 t) (iblk V c 1 t) (iblk V c 3 t)) (decBuf V c t d2))
      have e4 : (win2 4).fill (grid2.coords t) (k2_pay2 (k2_pay1 (iblk V c 0 t) (iblk V c 1 t) (iblk V c 3 t)) (decBuf V c t d2))
          ((win2 4).cut (grid2.coords t) (k2_pay2 (k2_pay1 (iblk V c 0 t) (iblk V c 1 t) (iblk V c 3 t)) (decBuf V c t filler))) = k2_pay2 (k2_pay1 (iblk V c 0 t) (iblk V c 1 t) (iblk V c 3 t)) (decBuf V c t d2) :=
        Window.fill_congr_cut _ _ (cut_out_congr V hcol c t _ d2 filler)
      rw [e4]; iexact H4
    · rw [PhiS_pos V c _ _ hz0]
      iintro ⟨⟨HS, HR⟩, Ho, ⟨%d0, H0⟩, ⟨%d1, H1⟩, ⟨%d2, H2⟩, ⟨%d3, H3⟩, ⟨%d4, H4⟩⟩
      rw [before_0 V c t d0, before_1 V c t d1, before_2 V c t d2, before_3 V c t d3, before_4 V c t d4]
      iapply (sound_first c Set.univ (grid2.coords t) hc _ _ _ _ _ _ _ _ _ _ _ _ (iblk V c 0 t) (iblk V c 1 t) (decBuf V c t d2) (iblk V c 3 t) _)
      isplitl [H0]; · iexact H0
      isplitl [H1]; · iexact H1
      isplitl [H2]; · iexact H2
      isplitl [H3]; · iexact H3
      isplitl [H4]; · iexists _; iexact H4
      isplitl [HS]; · iexists _; iexact HS
      iintro ⟨H0, H1, H2, H3, H4, H7⟩
      isplitl [H7 HR]
      · isplitl [H7]; · iexact H7
        iexact HR
      isplitl [Ho]; · iexact Ho
      isplitl [H0]; · iexact H0
      isplitl [H1]; · iexact H1
      isplitl [H2]
      · iexists d2
        have e2 : (win2 2).cut (grid2.coords t) (decBuf V c t filler) = iblk V c 2 t := win2_2.cut_fill _ _ _
        rw [e2]; iexact H2
      isplitl [H3]; · iexact H3
      iexists (k2_pay2 (k2_pay1 (iblk V c 0 t) (iblk V c 1 t) (iblk V c 3 t)) (decBuf V c t d2))
      have e4 : (win2 4).fill (grid2.coords t) (k2_pay2 (k2_pay1 (iblk V c 0 t) (iblk V c 1 t) (iblk V c 3 t)) (decBuf V c t d2))
          ((win2 4).cut (grid2.coords t) (k2_pay2 (k2_pay1 (iblk V c 0 t) (iblk V c 1 t) (iblk V c 3 t)) (decBuf V c t filler))) = k2_pay2 (k2_pay1 (iblk V c 0 t) (iblk V c 1 t) (iblk V c 3 t)) (decBuf V c t d2) :=
        Window.fill_congr_cut _ _ (cut_out_congr V hcol c t _ d2 filler)
      rw [e4]; iexact H4
  · have hc : ¬cond (grid2.coords t) := fun h => h0 ((hcond t).mp h)
    have hz0 : t.val ≠ 0 := fun h => h0 (by rw [h])
    rw [dpAt_later V c t h0, PhiS_pos V c _ _ hz0]
    iintro ⟨⟨HS, HR⟩, Ho, ⟨%d0, H0⟩, ⟨%d1, H1⟩, ⟨%d2, H2⟩, ⟨%d3, H3⟩, ⟨%d4, H4⟩⟩
    rw [before_0 V c t d0, before_1 V c t d1, before_2 V c t d2, before_3 V c t d3, before_4 V c t d4]
    iapply (sound_later c Set.univ (grid2.coords t) hc _ _ _ _ _ _ _ _ _ _ _ _ (iblk V c 0 t) (iblk V c 1 t) (decBuf V c t d2) (iblk V c 3 t)
      (dpAt V c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, H7⟩
    isplitl [H7 HR]
    · isplitl [H7]; · iexact H7
      iexact HR
    isplitl [Ho]; · iexact Ho
    isplitl [H0]; · iexact H0
    isplitl [H1]; · iexact H1
    isplitl [H2]
    · iexists d2
      have e2 : (win2 2).cut (grid2.coords t) (decBuf V c t filler) = iblk V c 2 t := win2_2.cut_fill _ _ _
      rw [e2]; iexact H2
    isplitl [H3]; · iexact H3
    iexists (k2_pay2 (dpAt V c (t.val - 1) (Nat.lt_of_le_of_lt (Nat.sub_le _ _) t.isLt)) (decBuf V c t d2))
    have e4 : (win2 4).fill (grid2.coords t) (k2_pay2 (dpAt V c (t.val - 1) (Nat.lt_of_le_of_lt (Nat.sub_le _ _) t.isLt)) (decBuf V c t d2))
        ((win2 4).cut (grid2.coords t) (k2_pay2 (dpAt V c (t.val - 1) (Nat.lt_of_le_of_lt (Nat.sub_le _ _) t.isLt)) (decBuf V c t filler))) = k2_pay2 (dpAt V c (t.val - 1) (Nat.lt_of_le_of_lt (Nat.sub_le _ _) t.isLt)) (decBuf V c t d2) :=
      Window.fill_congr_cut _ _ (cut_out_congr V hcol c t _ d2 filler)
    rw [e4]; iexact H4

end Cert.KernelIdeal.Tail2

end
-- ==== Proof.IdealRun.lean ====
/-
  The idealized kernel's @main, run: the three regions' records over the thread states "every unscoped buffer at
  the boundary's contents, the generator register at some state, nothing owed", and the run they give.

  The contents at the boundaries are a fold from the launch memory: each host stretch applies its operations;
  region 0 overwrites the head block's array, region 1 the first tail's, region 2 the second tail's, each with what
  the pipeline's write-backs leave of the proof data's blocks. The regions' entry contents do not depend on
  what later regions leave, so the fold is well founded: the contents each region leaves are defined one after the other.
-/
import proofs.«123100_j81028853006378_2_alg».proof.Proof.IdealRunCond
import proofs.«123100_j81028853006378_2_alg».proof.Proof.IdealHead
import proofs.«123100_j81028853006378_2_alg».proof.Proof.IdealTail1Oblig
import proofs.«123100_j81028853006378_2_alg».proof.Proof.IdealTail2Oblig
import Idealize.ShloMosaic.Lib.Pipeline.Kit

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents at the boundaries -/

/-- Region 0's entry contents, read at the TensorCore's references. -/
abbrev Vin0 (c : Dev nD) (b : Ref sig .tc) : Buf (Elt F) ((c : Thread nD τ).loc b) := V1 m c b
/-- At region 0's exit: its arrays at what the pipeline leaves, every other buffer as entered. -/
def W2 (c : Dev nD) : Valuation τ sig (Elt F) :=
  Pipeline.withArrays spec0 c (V1 m c) fun w => (Head.dat (Vin0 m) c).arrAt w cfg0.N
/-- What region 0 leaves, as the unknown the valuations are written over (read only at the head block's array). -/
def outsA : Outs (F := F) := fun _ r c => W2 m c r
abbrev Vin1 (c : Dev nD) (b : Ref sig .tc) : Buf (Elt F) ((c : Thread nD τ).loc b) := V3 m (outsA m) c b
def W4 (c : Dev nD) : Valuation τ sig (Elt F) :=
  Pipeline.withArrays spec1 c (V3 m (outsA m) c) fun w => (Tail1.dat (Vin1 m) c).arrAt w cfg1.N
/-- What regions 0 and 1 leave. -/
def outsB : Outs (F := F) := fun j r c => if j = 2 then W2 m c r else W4 m c r
abbrev Vin2 (c : Dev nD) (b : Ref sig .tc) : Buf (Elt F) ((c : Thread nD τ).loc b) := V5 m (outsB m) c b
def W6 (c : Dev nD) : Valuation τ sig (Elt F) :=
  Pipeline.withArrays spec2 c (V5 m (outsB m) c) fun w => (Tail2.dat (Vin2 m) c).arrAt w cfg2.N
/-- What the three regions leave. -/
def outs : Outs (F := F) := fun j r c => if j = 2 then W2 m c r else if j = 4 then W4 m c r else W6 m c r

theorem V3_outs (c : Dev nD) : V3 m (outs m) c = V3 m (outsA m) c := rfl
theorem V5_outs (c : Dev nD) : V5 m (outs m) c = V5 m (outsB m) c := rfl

theorem W2_arr (c : Dev nD) (w : Fin cfg0.W) :
    W2 m c (Proc.devRef .tc (Pipeline.arrRef spec0 w)) = (Head.dat (Vin0 m) c).arrAt w cfg0.N := by
  unfold W2; exact Pipeline.withArrays_arr spec0 launch0.win.arr_inj c _ _ w
theorem W4_arr (c : Dev nD) (w : Fin cfg1.W) :
    W4 m c (Proc.devRef .tc (Pipeline.arrRef spec1 w)) = (Tail1.dat (Vin1 m) c).arrAt w cfg1.N := by
  unfold W4; exact Pipeline.withArrays_arr spec1 launch1.win.arr_inj c _ _ w
theorem W6_arr (c : Dev nD) (w : Fin cfg2.W) :
    W6 m c (Proc.devRef .tc (Pipeline.arrRef spec2 w)) = (Tail2.dat (Vin2 m) c).arrAt w cfg2.N := by
  unfold W6; exact Pipeline.withArrays_arr spec2 launch2.win.arr_inj c _ _ w

/-- The regions' exit contents, read at the TensorCore's references. -/
abbrev Vout0 (c : Dev nD) (b : Ref sig .tc) : Buf (Elt F) ((c : Thread nD τ).loc b) := V2 m (outs m) c b
abbrev Vout1 (c : Dev nD) (b : Ref sig .tc) : Buf (Elt F) ((c : Thread nD τ).loc b) := V4 m (outs m) c b
abbrev Vout2 (c : Dev nD) (b : Ref sig .tc) : Buf (Elt F) ((c : Thread nD τ).loc b) := V6 m (outs m) c b

/-- What the regions leave in their output arrays is what the pipelines' write-backs leave. -/
theorem out_head (c : Dev nD) : outs m 2 main_v2 c = (Head.dat (Vin0 m) c).arrAt 2 cfg0.N := W2_arr m c 2
theorem out_tail1 (c : Dev nD) : outs m 4 main_v19 c = (Tail1.dat (Vin1 m) c).arrAt 4 cfg1.N := W4_arr m c 4
theorem out_tail2 (c : Dev nD) : outs m 6 main_v22 c = (Tail2.dat (Vin2 m) c).arrAt 4 cfg2.N := W6_arr m c 4

/-! ## Every pipeline's proof data, and the thread state -/

/-- The proof data family: a literal match on the pipeline, each at its region's entry contents. -/
def pdats : (p : Fin 3) → (c : Dev nD) → Dat τ (Elt F) Unit ℕ (UR sig nD τ) ℕ (cfgs p) c
  | ⟨0, _⟩ => fun c => Head.dat (Vin0 m) c
  | ⟨1, _⟩ => fun c => Tail1.dat (Vin1 m) c
  | ⟨2, _⟩ => fun c => Tail2.dat (Vin2 m) c

abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)

theorem hF0 (c : Dev nD) (w : Fin cfg0.W) : (pdats m 0 c).arrAt w cfg0.N = Vout0 m c (Pipeline.arrRef spec0 w) := by
  match w with
  | ⟨0, _⟩ => exact ((Head.dat (Vin0 m) c).arrAt_in 0 rfl _).trans ((Head.A_eq (Vin0 m) c 0).trans (V2_of m (outs m) c main_v0 (by decide)).symm)
  | ⟨1, _⟩ => exact ((Head.dat (Vin0 m) c).arrAt_in 1 rfl _).trans ((Head.A_eq (Vin0 m) c 1).trans (V2_of m (outs m) c main_v1 (by decide)).symm)
  | ⟨2, _⟩ =>
    show _ = Function.update (V1 m c) (Proc.devRef .tc main_v2) (outs m 2 main_v2 c) (Proc.devRef .tc main_v2)
    rw [Function.update_self]; exact (out_head m c).symm
theorem hrest0 (c : Dev nD) : ∀ b, b ∉ Finset.univ.image (Pipeline.arrRef spec0) → Vout0 m c b = Vin0 m c b :=
  fun b hb => V2_of m (outs m) c b fun hm => hb (by
    rw [List.mem_singleton.mp hm]; exact Finset.mem_image.mpr ⟨2, Finset.mem_univ _, rfl⟩)

theorem hF1 (c : Dev nD) (w : Fin cfg1.W) : (pdats m 1 c).arrAt w cfg1.N = Vout1 m c (Pipeline.arrRef spec1 w) := by
  match w with
  | ⟨0, _⟩ => exact ((Tail1.dat (Vin1 m) c).arrAt_in 0 rfl _).trans ((Tail1.A_eq (Vin1 m) c 0).trans (V4_of m (outs m) c main_v0 (by decide)).symm)
  | ⟨1, _⟩ => exact ((Tail1.dat (Vin1 m) c).arrAt_in 1 rfl _).trans ((Tail1.A_eq (Vin1 m) c 1).trans (V4_of m (outs m) c main_v17 (by decide)).symm)
  | ⟨2, _⟩ => exact ((Tail1.dat (Vin1 m) c).arrAt_in 2 rfl _).trans ((Tail1.A_eq (Vin1 m) c 2).trans (V4_of m (outs m) c main_v18 (by decide)).symm)
  | ⟨3, _⟩ => exact ((Tail1.dat (Vin1 m) c).arrAt_in 3 rfl _).trans ((Tail1.A_eq (Vin1 m) c 3).trans (V4_of m (outs m) c main_v9 (by decide)).symm)
  | ⟨4, _⟩ =>
    show _ = Function.update (V3 m (outs m) c) (Proc.devRef .tc main_v19) (outs m 4 main_v19 c) (Proc.devRef .tc main_v19)
    rw [Function.update_self]; exact (out_tail1 m c).symm
theorem hrest1 (c : Dev nD) : ∀ b, b ∉ Finset.univ.image (Pipeline.arrRef spec1) → Vout1 m c b = Vin1 m c b :=
  fun b hb => V4_of m (outs m) c b fun hm => hb (by
    rw [List.mem_singleton.mp hm]; exact Finset.mem_image.mpr ⟨4, Finset.mem_univ _, rfl⟩)

theorem hF2 (c : Dev nD) (w : Fin cfg2.W) : (pdats m 2 c).arrAt w cfg2.N = Vout2 m c (Pipeline.arrRef spec2 w) := by
  match w with
  | ⟨0, _⟩ => exact ((Tail2.dat (Vin2 m) c).arrAt_in 0 rfl _).trans ((Tail2.A_eq (Vin2 m) c 0).trans (V6_of m (outs m) c main_v0 (by decide)).symm)
  | ⟨1, _⟩ => exact ((Tail2.dat (Vin2 m) c).arrAt_in 1 rfl _).trans ((Tail2.A_eq (Vin2 m) c 1).trans (V6_of m (outs m) c main_v20 (by decide)).symm)
  | ⟨2, _⟩ => exact ((Tail2.dat (Vin2 m) c).arrAt_in 2 rfl _).trans ((Tail2.A_eq (Vin2 m) c 2).trans (V6_of m (outs m) c main_v21 (by decide)).symm)
  | ⟨3, _⟩ => exact ((Tail2.dat (Vin2 m) c).arrAt_in 3 rfl _).trans ((Tail2.A_eq (Vin2 m) c 3).trans (V6_of m (outs m) c main_v16 (by decide)).symm)
  | ⟨4, _⟩ =>
    show _ = Function.update (V5 m (outs m) c) (Proc.devRef .tc main_v22) (outs m 6 main_v22 c) (Proc.devRef .tc main_v22)
    rw [Function.update_self]; exact (out_tail2 m c).symm
theorem hrest2 (c : Dev nD) : ∀ b, b ∉ Finset.univ.image (Pipeline.arrRef spec2) → Vout2 m c b = Vin2 m c b :=
  fun b hb => V6_of m (outs m) c b fun hm => hb (by
    rw [List.mem_singleton.mp hm]; exact Finset.mem_image.mpr ⟨4, Finset.mem_univ _, rfl⟩)

/-! ## The regions as segments -/

set_option backward.isDefEq.respectTransparency.types false in
/-- Region 0 over the thread state: entered with every unscoped buffer at `V1`, left with them at `V2`: the
    region's arrays split out of the unscoped buffers and put back at what the pipeline's write-backs leave. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Head.body_obligation (Vin0 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin0 m c) (Vout0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `V3`, left with them at `V4`: the
    region's arrays split out of the unscoped buffers and put back at what the pipeline's write-backs leave. -/
def reg1 (hc1 : Tail1.ColumnWise F) : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := Tail1.body_obligation (Vin1 m) hc1 c
  hwaits := Pipeline.hwaits_of_owed_zero _ _ _ _ L lv 1 fun _ _ => rfl
  pre c := iprop(StableHlo.held (c : Thread nD τ) (Pipeline.ucRefs τ sig) (V3 m (outsA m) c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m 1 c).Φ (Fin.last _) = Tail1.PhiS (Vin1 m) c cfg1.N (Nat.le_refl _) from rfl,
      Tail1.PhiS_pos (Vin1 m) c _ _ (by show cfg1.N ≠ 0; rw [show cfg1.N = 8 from N_1]; decide)]
    refine (BI.sep_mono (show _ ⊢ iprop(∃ d, owns (c : Thread nD τ) Tail1.scM fullShare d) from by iintro H; iexists _; iexact H) (BI.Entails.refl _)).trans ?_
    refine (Tail1.PhiA_out (F := F) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vin1 m c) (Vout1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `V5`, left with them at `V6`: the
    region's arrays split out of the unscoped buffers and put back at what the pipeline's write-backs leave. -/
def reg2 (hc2 : Tail2.ColumnWise F) : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := Tail2.body_obligation (Vin2 m) hc2 c
  hwaits := Pipeline.hwaits_of_owed_zero _ _ _ _ L lv 2 fun _ _ => rfl
  pre c := iprop(StableHlo.held (c : Thread nD τ) (Pipeline.ucRefs τ sig) (V5 m (outsB m) c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec2 c (Vin2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Vin2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    rw [show (pdats m 2 c).Φ (Fin.last _) = Tail2.PhiS (Vin2 m) c cfg2.N (Nat.le_refl _) from rfl,
      Tail2.PhiS_pos (Vin2 m) c _ _ (by show cfg2.N ≠ 0; rw [show cfg2.N = 26 from N_2]; decide)]
    refine (BI.sep_mono (show _ ⊢ iprop(∃ d, owns (c : Thread nD τ) Tail2.scM fullShare d) from by iintro H; iexists _; iexact H) (BI.Entails.refl _)).trans ?_
    refine (Tail2.PhiA_out (F := F) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Vin2 m c) (Vout2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- Every weakly fair execution of @main terminates, nothing faulting, and the final memory holds every unscoped
    buffer of every core at the last boundary's contents — given that column q of each decode product reads only
    column q of its right operand (which the exact product does). -/
theorem run_all (hc1 : Tail1.ColumnWise F) (hc2 : Tail2.ColumnWise F) (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = V7 m (outs m) c b) :=
  run_cond (Ix := Unit) (U := UR sig nD τ) (Lvl := ℕ) m emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE3 := fun c => by iintro ⟨-, HO⟩; iexact HO)
    (reg0 m) (fun c => BI.Entails.refl _) (fun c => BI.Entails.refl _)
    (reg1 m hc1) (fun c => BI.Entails.refl _) (fun c => BI.Entails.refl _)
    (reg2 m hc2) (fun c => BI.Entails.refl _) (fun c => BI.Entails.refl _)

end Cert.KernelIdeal.Whole

end
-- ==== Proof.IdealPayloads.lean ====
/-
  The kernels' stored values at an index, over the extended reals.

  Each kernel body stores the result of one matrix-unit contraction into a zero accumulator, in the tail kernels
  after multiplying each row of the down-projection by the row's membership value (a one-column array broadcast
  along the columns). Over the extended reals a shape cast to the same shape and a rounding to a narrower format
  are the identity, and the contraction is the plain sum of products over the contracted axis.
-/
import proofs.«123100_j81028853006378_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payloads

open Cert.KernelIdeal Cert.KernelIdeal.Gen Idealize.ShloMosaic Idealize.ShloMosaic.ValueIdx

/-- A one-column array `[a, 1]` broadcast to `[a, b]` reads, at (p, c), the operand's row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A contraction of axis 1 of `[M, K]` against axis 0 of `[K, N]` into the zero accumulator, read at (p, q):
    ∑ₖ x(p,k) · y(k,q). The four hypotheses say which coordinate each operand index takes from the result index
    and from the contraction position. -/
theorem matmul_zero_ix2 {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (k : d.contr.Idx), (d.lhsIdx i k 0).val = (i 0).val)
    (hl1 : ∀ (i : (⟨2, ![M, N]⟩ : Shape).Idx) (k : d.contr.Idx), (d.lhsIdx i k 1).val = (k ⟨0, by omega⟩).val)
    (hr0 : ∀ (i : (⟨2, ![M, N]⟩ : Shape).Idx) (k : d.contr.Idx), (d.rhsIdx i k 0).val = (k ⟨0, by omega⟩).val)
    (hr1 : ∀ (i : (⟨2, ![M, N]⟩ : Shape).Idx) (k : d.contr.Idx), (d.rhsIdx i k 1).val = (i 1).val)
    (x : FVec Ideal ⟨2, ![M, K]⟩ φ₁) (y : FVec Ideal ⟨2, ![K, N]⟩ φ₂) (p : Fin M) (q : Fin N) :
    matmul d none x y (constant (F := Ideal) ⟨2, ![M, N]⟩ .f32 0x00000000#32) (ix2 p q)
      = ∑ k : Fin K, x (ix2 p k) * y (ix2 k q) := by
  refine (Ideal.matmul_constant_zero_apply d none x y (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

/-- The contraction `[1024, 1024] · [1024, 2002]` into the zero accumulator, read at (p, q). -/
theorem matmul_head (x : FVec Ideal S1024x1024 .bf16) (y : FVec Ideal S1024x2002 .bf16) (p : Fin 1024) (q : Fin 2002) :
    matmul dot_S1024x1024_S1024x2002_S1024x2002_1_0_0_1_n_n none x y (constant (F := Ideal) S1024x2002 .f32 0x00000000#32) (ix2 p q)
      = ∑ k : Fin 1024, x (ix2 p k) * y (ix2 k q) :=
  matmul_zero_ix2 dot_S1024x1024_S1024x2002_S1024x2002_1_0_0_1_n_n rfl rfl
    (fun i k => by
      unfold DotDims.lhsIdx
      rw [dif_neg (show ¬(0 : Fin S1024x1024.rank) ∈ dot_S1024x1024_S1024x2002_S1024x2002_1_0_0_1_n_n.lhsBatch by decide), dif_pos (show (0 : Fin S1024x1024.rank) ∈ dot_S1024x1024_S1024x2002_S1024x2002_1_0_0_1_n_n.lhsNonContracting by decide)]
      rfl)
    (fun i k => dot_S1024x1024_S1024x2002_S1024x2002_1_0_0_1_n_n.lhsIdx_val_of_single rfl i k)
    (fun i k => dot_S1024x1024_S1024x2002_S1024x2002_1_0_0_1_n_n.rhsIdx_val_of_single rfl i k)
    (fun i k => by
      unfold DotDims.rhsIdx
      rw [dif_neg (show ¬(1 : Fin S1024x2002.rank) ∈ dot_S1024x1024_S1024x2002_S1024x2002_1_0_0_1_n_n.rhsBatch by decide), dif_pos (show (1 : Fin S1024x2002.rank) ∈ dot_S1024x1024_S1024x2002_S1024x2002_1_0_0_1_n_n.rhsNonContracting by decide)]
      rfl)
    x y p q

/-- The contraction `[1024, 1024] · [1024, 1024]` into the zero accumulator, read at (p, q). -/
theorem matmul_down0 (x : FVec Ideal S1024x1024 .bf16) (y : FVec Ideal S1024x1024 .bf16) (p : Fin 1024) (q : Fin 1024) :
    matmul dot_S1024x1024_S1024x1024_S1024x1024_1_0_0_1_n_n none x y (constant (F := Ideal) S1024x1024 .f32 0x00000000#32) (ix2 p q)
      = ∑ k : Fin 1024, x (ix2 p k) * y (ix2 k q) :=
  matmul_zero_ix2 dot_S1024x1024_S1024x1024_S1024x1024_1_0_0_1_n_n rfl rfl
    (fun i k => by
      unfold DotDims.lhsIdx
      rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
      rfl)
    (fun i k => dot_S1024x1024_S1024x1024_S1024x1024_1_0_0_1_n_n.lhsIdx_val_of_single rfl i k)
    (fun i k => dot_S1024x1024_S1024x1024_S1024x1024_1_0_0_1_n_n.rhsIdx_val_of_single rfl i k)
    (fun i k => by
      unfold DotDims.rhsIdx
      rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
      rfl)
    x y p q

/-- The contraction `[1024, 1024] · [1024, 2048]` into the zero accumulator, read at (p, q). -/
theorem matmul_decode0 (x : FVec Ideal S1024x1024 .bf16) (y : FVec Ideal S1024x2048 .bf16) (p : Fin 1024) (q : Fin 2048) :
    matmul dot_S1024x1024_S1024x2048_S1024x2048_1_0_0_1_n_n none x y (constant (F := Ideal) S1024x2048 .f32 0x00000000#32) (ix2 p q)
      = ∑ k : Fin 1024, x (ix2 p k) * y (ix2 k q) :=
  matmul_zero_ix2 dot_S1024x1024_S1024x2048_S1024x2048_1_0_0_1_n_n rfl rfl
    (fun i k => by
      unfold DotDims.lhsIdx
      rw [dif_neg (show ¬(0 : Fin S1024x1024.rank) ∈ dot_S1024x1024_S1024x2048_S1024x2048_1_0_0_1_n_n.lhsBatch by decide), dif_pos (show (0 : Fin S1024x1024.rank) ∈ dot_S1024x1024_S1024x2048_S1024x2048_1_0_0_1_n_n.lhsNonContracting by decide)]
      rfl)
    (fun i k => dot_S1024x1024_S1024x2048_S1024x2048_1_0_0_1_n_n.lhsIdx_val_of_single rfl i k)
    (fun i k => dot_S1024x1024_S1024x2048_S1024x2048_1_0_0_1_n_n.rhsIdx_val_of_single rfl i k)
    (fun i k => by
      unfold DotDims.rhsIdx
      rw [dif_neg (show ¬(1 : Fin S1024x2048.rank) ∈ dot_S1024x1024_S1024x2048_S1024x2048_1_0_0_1_n_n.rhsBatch by decide), dif_pos (show (1 : Fin S1024x2048.rank) ∈ dot_S1024x1024_S1024x2048_S1024x2048_1_0_0_1_n_n.rhsNonContracting by decide)]
      rfl)
    x y p q

/-- The contraction `[1024, 1024] · [1024, 256]` into the zero accumulator, read at (p, q). -/
theorem matmul_down1 (x : FVec Ideal S1024x1024 .bf16) (y : FVec Ideal S1024x256 .bf16) (p : Fin 1024) (q : Fin 256) :
    matmul dot_S1024x1024_S1024x256_S1024x256_1_0_0_1_n_n none x y (constant (F := Ideal) S1024x256 .f32 0x00000000#32) (ix2 p q)
      = ∑ k : Fin 1024, x (ix2 p k) * y (ix2 k q) :=
  matmul_zero_ix2 dot_S1024x1024_S1024x256_S1024x256_1_0_0_1_n_n rfl rfl
    (fun i k => by
      unfold DotDims.lhsIdx
      rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
      rfl)
    (fun i k => dot_S1024x1024_S1024x256_S1024x256_1_0_0_1_n_n.lhsIdx_val_of_single rfl i k)
    (fun i k => dot_S1024x1024_S1024x256_S1024x256_1_0_0_1_n_n.rhsIdx_val_of_single rfl i k)
    (fun i k => by
      unfold DotDims.rhsIdx
      rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
      rfl)
    x y p q

/-- The contraction `[1024, 256] · [256, 3200]` into the zero accumulator, read at (p, q). -/
theorem matmul_decode1 (x : FVec Ideal S1024x256 .bf16) (y : FVec Ideal S256x3200 .bf16) (p : Fin 1024) (q : Fin 3200) :
    matmul dot_S1024x256_S256x3200_S1024x3200_1_0_0_1_n_n none x y (constant (F := Ideal) S1024x3200 .f32 0x00000000#32) (ix2 p q)
      = ∑ k : Fin 256, x (ix2 p k) * y (ix2 k q) :=
  matmul_zero_ix2 dot_S1024x256_S256x3200_S1024x3200_1_0_0_1_n_n rfl rfl
    (fun i k => by
      unfold DotDims.lhsIdx
      rw [dif_neg (show ¬(0 : Fin S1024x256.rank) ∈ dot_S1024x256_S256x3200_S1024x3200_1_0_0_1_n_n.lhsBatch by decide), dif_pos (show (0 : Fin S1024x256.rank) ∈ dot_S1024x256_S256x3200_S1024x3200_1_0_0_1_n_n.lhsNonContracting by decide)]
      rfl)
    (fun i k => dot_S1024x256_S256x3200_S1024x3200_1_0_0_1_n_n.lhsIdx_val_of_single rfl i k)
    (fun i k => dot_S1024x256_S256x3200_S1024x3200_1_0_0_1_n_n.rhsIdx_val_of_single rfl i k)
    (fun i k => by
      unfold DotDims.rhsIdx
      rw [dif_neg (show ¬(1 : Fin S256x3200.rank) ∈ dot_S1024x256_S256x3200_S1024x3200_1_0_0_1_n_n.rhsBatch by decide), dif_pos (show (1 : Fin S256x3200.rank) ∈ dot_S1024x256_S256x3200_S1024x3200_1_0_0_1_n_n.rhsNonContracting by decide)]
      rfl)
    x y p q

/-- The head kernel's stored block at (p, q): ∑ₖ x0(p,k) · x1(k,q). -/
theorem pay0 (x0 : Vec Ideal S1024x1024 .bf16) (x1 : Vec Ideal S1024x2002 .bf16) (p : Fin 1024) (q : Fin 2002) :
    k0_pay1 (F := Ideal) x0 x1 (ix2 p q) = ∑ k : Fin 1024, x0 (ix2 p k) * x1 (ix2 k q) := by
  unfold k0_pay1
  simp only [shapeCast_self]
  exact matmul_head x0 x1 p q

/-- The first tail kernel's masked down-projection at (p, q): (∑ₗ x0(p,l) · x1(l,q)) · x3(p,0). -/
theorem pay11 (x0 x1 : Vec Ideal S1024x1024 .bf16) (x3 : Vec Ideal S1024x1 .f32) (p q : Fin 1024) :
    k1_pay1 (F := Ideal) x0 x1 x3 (ix2 p q) = (∑ l : Fin 1024, x0 (ix2 p l) * x1 (ix2 l q)) * x3 (ix2 p (0 : Fin 1)) := by
  unfold k1_pay1
  simp only [shapeCast_self]
  show matmul dot_S1024x1024_S1024x1024_S1024x1024_1_0_0_1_n_n none x0 x1 (constant (F := Ideal) S1024x1024 .f32 0x00000000#32) (ix2 p q)
      * broadcastTo S1024x1024 x3 broadcasts_S1024x1_S1024x1024 (ix2 p q) = _
  rw [matmul_down0, broadcastTo_a1_ab_apply]

/-- The first tail kernel's decoded block at (p, q): ∑ₖ s(p,k) · x2(k,q). -/
theorem pay12 (s : Vec Ideal S1024x1024 .bf16) (x2 : Vec Ideal S1024x2048 .bf16) (p : Fin 1024) (q : Fin 2048) :
    k1_pay2 (F := Ideal) s x2 (ix2 p q) = ∑ k : Fin 1024, s (ix2 p k) * x2 (ix2 k q) := by
  unfold k1_pay2
  simp only [shapeCast_self]
  exact matmul_decode0 s x2 p q

/-- The second tail kernel's masked down-projection at (p, q). -/
theorem pay21 (x0 : Vec Ideal S1024x1024 .bf16) (x1 : Vec Ideal S1024x256 .bf16) (x3 : Vec Ideal S1024x1 .f32) (p : Fin 1024) (q : Fin 256) :
    k2_pay1 (F := Ideal) x0 x1 x3 (ix2 p q) = (∑ l : Fin 1024, x0 (ix2 p l) * x1 (ix2 l q)) * x3 (ix2 p (0 : Fin 1)) := by
  unfold k2_pay1
  simp only [shapeCast_self]
  show matmul dot_S1024x1024_S1024x256_S1024x256_1_0_0_1_n_n none x0 x1 (constant (F := Ideal) S1024x256 .f32 0x00000000#32) (ix2 p q)
      * broadcastTo S1024x256 x3 broadcasts_S1024x1_S1024x256 (ix2 p q) = _
  rw [matmul_down1, broadcastTo_a1_ab_apply]

/-- The second tail kernel's decoded block at (p, q): ∑ₖ s(p,k) · x2(k,q). -/
theorem pay22 (s : Vec Ideal S1024x256 .bf16) (x2 : Vec Ideal S256x3200 .bf16) (p : Fin 1024) (q : Fin 3200) :
    k2_pay2 (F := Ideal) s x2 (ix2 p q) = ∑ k : Fin 256, s (ix2 p k) * x2 (ix2 k q) := by
  unfold k2_pay2
  simp only [shapeCast_self]
  exact matmul_decode1 s x2 p q

/-- Column q of the first tail kernel's decoded block reads only column q of the decode weights. -/
theorem pay12_congr (s : Vec Ideal S1024x1024 .bf16) (x2 x2' : Vec Ideal S1024x2048 .bf16) (p : Fin 1024) (q : Fin 2048)
    (h : ∀ k : Fin 1024, x2 (ix2 k q) = x2' (ix2 k q)) :
    k1_pay2 (F := Ideal) s x2 (ix2 p q) = k1_pay2 (F := Ideal) s x2' (ix2 p q) := by
  rw [pay12, pay12]
  exact Finset.sum_congr rfl fun k _ => by rw [h k]

/-- Column q of the second tail kernel's decoded block reads only column q of the decode weights. -/
theorem pay22_congr (s : Vec Ideal S1024x256 .bf16) (x2 x2' : Vec Ideal S256x3200 .bf16) (p : Fin 1024) (q : Fin 3200)
    (h : ∀ k : Fin 256, x2 (ix2 k q) = x2' (ix2 k q)) :
    k2_pay2 (F := Ideal) s x2 (ix2 p q) = k2_pay2 (F := Ideal) s x2' (ix2 p q) := by
  rw [pay22, pay22]
  exact Finset.sum_congr rfl fun k _ => by rw [h k]

end Cert.KernelIdeal.Payloads

end
-- ==== Proof.LogitsSpec.lean ====
/-
  The three blocks of the result, index by index over the extended reals.

  The result of both programs is three matrices laid side by side along the columns: the head logits
  `hidden · head_w`, and for each of the two tail clusters the decoded down-projection of the rows whose target
  lies in the cluster. A row's membership in a cluster `[lo, hi)` is the 0/1 value `mask lo hi target r`.

  `prod A B` is the plain matrix product. `maskedTwoStage h dn dc μ` is the tail block in the arrangement that
  applies the row's mask to the down-projection before decoding:
  entry (r, j) is  ∑ₖ ((∑ₗ h(r,l) · dn(l,k)) · μ r) · dc(k,j).
-/
import Idealize.ShloMosaic.PureOps.Ideal
import Idealize.ShloMosaic.Lib.ValueIdx

noncomputable section

namespace Cert.Logits

open Idealize.ShloMosaic Idealize.ShloMosaic.ValueIdx

/-- Entry (r, j) of the matrix product A·B: ∑ₖ A(r,k) · B(k,j). -/
def prod {M K N : ℕ} (A : (⟨2, ![M, K]⟩ : Shape).Idx → EReal) (B : (⟨2, ![K, N]⟩ : Shape).Idx → EReal) :
    (⟨2, ![M, N]⟩ : Shape).Idx → EReal :=
  fun i => ∑ k : Fin K, A (ix2 (i 0) k) * B (ix2 k (i 1))

/-- The 0/1 value of "lo ≤ target r < hi" (signed 32-bit comparison) as an extended real. -/
def mask {M : ℕ} (lo hi : BitVec 32) (tgt : (⟨1, ![M]⟩ : Shape).Idx → BitVec 32) (r : Fin M) : EReal :=
  FloatOps.uitofp (F := Ideal) .f32 (IntOp.andi (IntOp.cmpi .sge (tgt (ix1 r)) lo) (IntOp.cmpi .slt (tgt (ix1 r)) hi))

/-- Entry (r, j) of a tail block with the row's mask applied to the down-projection:
    ∑ₖ ((∑ₗ h(r,l) · dn(l,k)) · μ r) · dc(k,j). -/
def maskedTwoStage {M H D N : ℕ} (h : (⟨2, ![M, H]⟩ : Shape).Idx → EReal) (dn : (⟨2, ![H, D]⟩ : Shape).Idx → EReal)
    (dc : (⟨2, ![D, N]⟩ : Shape).Idx → EReal) (μ : Fin M → EReal) : (⟨2, ![M, N]⟩ : Shape).Idx → EReal :=
  fun i => ∑ k : Fin D, ((∑ l : Fin H, h (ix2 (i 0) l) * dn (ix2 l k)) * μ (i 0)) * dc (ix2 k (i 1))

end Cert.Logits

end
-- ==== Proof.IdealBlocks0.lean ====
/-
  Region 0's output array after the region: the head logits.

  Point t of the two-point grid writes rows 1024·t … 1024·t + 1023 of the output, the matrix product of those rows
  of the hidden states with the whole head weight; the two blocks tile the array, so the array ends holding the
  matrix product of the hidden states with the head weight.
-/
import proofs.«123100_j81028853006378_2_alg».proof.Proof.IdealPayloads
import proofs.«123100_j81028853006378_2_alg».proof.Proof.LogitsSpec
import proofs.«123100_j81028853006378_2_alg».proof.Proof.IdealHead
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b)) (c : Dev nD)

theorem hz0 : (![0, 0] : Fin 2 → Nat) = fun _ => 0 := funext fun a => by fin_cases a <;> rfl

/-- The block indices over the grid: the hidden rows and the output move with the point, the weight stays. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One entry of a point's product block is the entry of the whole product at the block's row in the array. -/
theorem head_point (A0 : S2048x1024.Idx → EReal) (A1 : S1024x2002.Idx → EReal) (x0 : Vec Ideal S1024x1024 .bf16)
    (x1 : Vec Ideal S1024x2002 .bf16) (r : Fin 2048) (p : Fin 1024) (q : Fin 2002)
    (h0 : ∀ k : Fin 1024, x0 (ix2 p k) = A0 (ix2 r k)) (h1 : ∀ k : Fin 1024, x1 (ix2 k q) = A1 (ix2 k q)) :
    k0_pay1 (F := Ideal) x0 x1 (ix2 p q) = Cert.Logits.prod A0 A1 (ix2 r q) := by
  rw [Payloads.pay0]
  exact Finset.sum_congr rfl fun k _ => by rw [h0 k, h1 k]

/-- What point t writes back is block t of the product. -/
theorem head_flushed (t : Fin cfg0.N) :
    (Head.dat (F := Ideal) V c).flushed 2 t
      = ((cfg0.win 2).blk t).view.read (Elt Ideal) (Cert.Logits.prod (V c main_v0) (V c main_v1)) := by
  show (cfg0.win 2).cut (grid0.coords t) ((Head.dat V c).after 2 t) = _
  rw [Head.after_2]
  unfold Head.out
  rw [View.canon_unit_zero hz0]
  simp only [View.ld_unit_zero (S := S1024x1024) hz0, View.ld_unit_zero (S := S1024x2002) hz0]
  obtain ⟨e00, e01, e10, e11, e20, e21⟩ := idx0 t
  have ht : t.val < 2 := lt_of_lt_of_eq t.isLt N_0
  refine funext fun (j : S1024x2002.Idx) => ?_
  obtain ⟨p, q, rfl⟩ : ∃ (p : Fin 1024) (q : Fin 2002), j = ix2 p q := ⟨j 0, j 1, eq_ix2 j⟩
  show k0_pay1 (F := Ideal) (Head.iblk V c 0 t) (Head.iblk V c 1 t) (ix2 p q)
      = Cert.Logits.prod (V c main_v0) (V c main_v1) (((cfg0.win 2).blk t).view.emb (ix2 p q))
  have hr : t.val * 1024 + p.val < 2048 := by have := p.isLt; omega
  have eo : ((cfg0.win 2).blk t).view.emb (ix2 p q) = ix2 (⟨t.val * 1024 + p.val, hr⟩ : Fin 2048) q := by
    funext a; apply Fin.ext
    match a with
    | ⟨0, _⟩ => show win0_2.index t (0 : Fin 2) * 1024 + 1 * p.val = t.val * 1024 + p.val; rw [e20]; omega
    | ⟨1, _⟩ => show win0_2.index t (1 : Fin 2) * 2002 + 1 * q.val = q.val; rw [e21]; omega
  rw [eo]
  refine head_point (V c main_v0) (V c main_v1) _ _ ⟨t.val * 1024 + p.val, hr⟩ p q (fun k => ?_) (fun k => ?_)
  · show V c main_v0 (((cfg0.win 0).blk t).view.emb (ix2 p k)) = _
    refine congrArg _ (funext fun a => Fin.ext ?_)
    match a with
    | ⟨0, _⟩ => show win0_0.index t (0 : Fin 2) * 1024 + 1 * p.val = t.val * 1024 + p.val; rw [e00]; omega
    | ⟨1, _⟩ => show win0_0.index t (1 : Fin 2) * 1024 + 1 * k.val = k.val; rw [e01]; omega
  · show V c main_v1 (((cfg0.win 1).blk t).view.emb (ix2 k q)) = _
    refine congrArg _ (funext fun a => Fin.ext ?_)
    match a with
    | ⟨0, _⟩ => show win0_1.index t (0 : Fin 2) * 1024 + 1 * k.val = k.val; rw [e10]; omega
    | ⟨1, _⟩ => show win0_1.index t (1 : Fin 2) * 2002 + 1 * q.val = q.val; rw [e11]; omega

/-- An index of the output array is in point t's block iff each coordinate is in the block's range on its axis. -/
theorem head_mem_blk (t : Fin cfg0.N) (i : S2048x2002.Idx) :
    i ∈ ((cfg0.win 2).blk t).view.set ↔ ∀ a : Fin 2, win0_2.index t a * S1024x2002.size a ≤ (i a).val
      ∧ (i a).val < win0_2.index t a * S1024x2002.size a + S1024x2002.size a := by
  show i ∈ ((View.whole main_v2).slice (win0_2.rect t)).set ↔ _
  rw [View.set_slice_whole, Rect.mem_set_unit]
  exact Iff.rfl

/-- Every index of the output array is in the block of the point of its row block. -/
theorem head_cover (i : S2048x2002.Idx) :
    ∃ t : Fin cfg0.N, (cfg0.win 2).flush t = true ∧ i ∈ ((cfg0.win 2).blk t).view.set := by
  have hi0 : (i 0).val < 2048 := (i 0).isLt
  have hi1 : (i 1).val < 2002 := (i 1).isLt
  have hN : (i 0).val / 1024 < cfg0.N := by show _ < grid0.N; rw [N_0]; omega
  refine ⟨⟨(i 0).val / 1024, hN⟩, flush0_2 _, ?_⟩
  obtain ⟨-, -, -, -, e20, e21⟩ := idx0 ⟨(i 0).val / 1024, hN⟩
  rw [head_mem_blk]
  intro a
  match a with
  | ⟨0, _⟩ =>
    show win0_2.index ⟨(i 0).val / 1024, hN⟩ (0 : Fin 2) * 1024 ≤ (i 0).val ∧ (i 0).val < win0_2.index ⟨(i 0).val / 1024, hN⟩ (0 : Fin 2) * 1024 + 1024
    rw [e20]; show (i 0).val / 1024 * 1024 ≤ (i 0).val ∧ (i 0).val < (i 0).val / 1024 * 1024 + 1024; omega
  | ⟨1, _⟩ =>
    show win0_2.index ⟨(i 0).val / 1024, hN⟩ (1 : Fin 2) * 2002 ≤ (i 1).val ∧ (i 1).val < win0_2.index ⟨(i 0).val / 1024, hN⟩ (1 : Fin 2) * 2002 + 2002
    rw [e21]; omega

/-- Region 0's output array after the region is the matrix product of the hidden states with the head weight. -/
theorem head_final : (Cert.KernelIdeal.Head.dat (F := Ideal) V c).arrAt 2 cfg0.N = Cert.Logits.prod (V c main_v0) (V c main_v1) :=
  (Head.dat (F := Ideal) V c).arrAt_eq_of_cover 2 (Cert.Logits.prod (V c main_v0) (V c main_v1))
    (fun t _ => head_flushed V c t) (head_cover)

end Cert.KernelIdeal.Blocks

end
-- ==== Proof.IdealBlocks1.lean ====
/-
  Region 1's output array after the region: the first tail cluster's logits.

  Point t = 4·i + j of the grid writes, of the output's block at (row block i, column tile j), the columns that lie
  inside the array: the scratch (the masked down-projection of row block i, computed at the point 4·i and carried)
  times column tile j of the decode weight. The blocks' parts inside the array tile it, so the array ends holding,
  at (r, s), ∑ₖ ((∑ₗ hidden(r,l) · down(l,k)) · mask r) · decode(k,s).
-/
import proofs.«123100_j81028853006378_2_alg».proof.Proof.IdealPayloads
import proofs.«123100_j81028853006378_2_alg».proof.Proof.LogitsSpec
import proofs.«123100_j81028853006378_2_alg».proof.Proof.IdealTail1Data
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b)) (c : Dev nD)

/-- The region's input arrays as it finds them, as plain functions of an index. -/
abbrev t1h : S2048x1024.Idx → EReal := V c main_v0
abbrev t1dn : S1024x1024.Idx → EReal := V c main_v17
abbrev t1dc : S1024x8000.Idx → EReal := V c main_v18
abbrev t1mu : S2048x1.Idx → EReal := V c main_v9

/-- The block indices and the transferred sizes over the grid (point t = 4·i + j): the hidden rows, the mask
    column and the output's rows move with i; the decode tile and the output's columns with j; the last tile's
    transfers stop at the array's end. -/
theorem tail1_idx : ∀ t : Fin cfg1.N,
    win1_0.index t (0 : Fin 2) = t.val / 4 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = t.val % 4
    ∧ win1_3.index t (0 : Fin 2) = t.val / 4 ∧ win1_3.index t (1 : Fin 2) = 0
    ∧ win1_4.index t (0 : Fin 2) = t.val / 4 ∧ win1_4.index t (1 : Fin 2) = t.val % 4
    ∧ win1_2.xsize (grid1.coords t) (0 : Fin 2) = 1024
    ∧ win1_2.xsize (grid1.coords t) (1 : Fin 2) = (if t.val % 4 = 3 then 1856 else 2048)
    ∧ win1_4.xsize (grid1.coords t) (0 : Fin 2) = 1024
    ∧ win1_4.xsize (grid1.coords t) (1 : Fin 2) = (if t.val % 4 = 3 then 1856 else 2048) :=
  (by decide +kernel : ∀ t : Fin grid1.N, _)

/-- One entry of a row block's masked down-projection, from blocks that are the matching rows of the arrays. -/
theorem tail1_dp_point (A0 : S2048x1024.Idx → EReal) (A1 : S1024x1024.Idx → EReal) (A3 : S2048x1.Idx → EReal)
    (x0 x1 : Vec Ideal S1024x1024 .bf16) (x3 : Vec Ideal S1024x1 .f32) (r : Fin 2048) (p k : Fin 1024)
    (h0 : ∀ l : Fin 1024, x0 (ix2 p l) = A0 (ix2 r l)) (h1 : ∀ l : Fin 1024, x1 (ix2 l k) = A1 (ix2 l k))
    (h3 : x3 (ix2 p (0 : Fin 1)) = A3 (ix2 r (0 : Fin 1))) :
    k1_pay1 (F := Ideal) x0 x1 x3 (ix2 p k)
      = (∑ l : Fin 1024, A0 (ix2 r l) * A1 (ix2 l k)) * A3 (ix2 r (0 : Fin 1)) := by
  rw [Payloads.pay11, h3]
  exact congrArg (· * A3 (ix2 r (0 : Fin 1))) (Finset.sum_congr rfl fun l _ => by rw [h0 l, h1 l])

/-- The masked down-projection computed at point t from t's input blocks, at (p, k): row ⌊t/4⌋·1024 + p. -/
theorem tail1_first (t : Fin cfg1.N) (p k : Fin 1024) (hr : t.val / 4 * 1024 + p.val < 2048) :
    k1_pay1 (F := Ideal) (Tail1.iblk V c 0 t) (Tail1.iblk V c 1 t) (Tail1.iblk V c 3 t) (ix2 p k)
      = (∑ l : Fin 1024, t1h V c (ix2 (⟨t.val / 4 * 1024 + p.val, hr⟩ : Fin 2048) l) * t1dn V c (ix2 l k))
          * t1mu V c (ix2 (⟨t.val / 4 * 1024 + p.val, hr⟩ : Fin 2048) (0 : Fin 1)) := by
  obtain ⟨e00, e01, e10, e11, -, -, e30, e31, -⟩ := tail1_idx t
  refine tail1_dp_point (t1h V c) (t1dn V c) (t1mu V c) _ _ _ ⟨_, hr⟩ p k (fun l => ?_) (fun l => ?_) ?_
  · show V c main_v0 (((cfg1.win 0).blk t).view.emb (ix2 p l)) = _
    refine congrArg _ (funext fun a => Fin.ext ?_)
    match a with
    | ⟨0, _⟩ => show win1_0.index t (0 : Fin 2) * 1024 + 1 * p.val = t.val / 4 * 1024 + p.val; rw [e00]; omega
    | ⟨1, _⟩ => show win1_0.index t (1 : Fin 2) * 1024 + 1 * l.val = l.val; rw [e01]; omega
  · show V c main_v17 (((cfg1.win 1).blk t).view.emb (ix2 l k)) = _
    refine congrArg _ (funext fun a => Fin.ext ?_)
    match a with
    | ⟨0, _⟩ => show win1_1.index t (0 : Fin 2) * 1024 + 1 * l.val = l.val; rw [e10]; omega
    | ⟨1, _⟩ => show win1_1.index t (1 : Fin 2) * 1024 + 1 * k.val = k.val; rw [e11]; omega
  · show V c main_v9 (((cfg1.win 3).blk t).view.emb (ix2 p (0 : Fin 1))) = _
    refine congrArg _ (funext fun a => Fin.ext ?_)
    match a with
    | ⟨0, _⟩ => show win1_3.index t (0 : Fin 2) * 1024 + 1 * p.val = t.val / 4 * 1024 + p.val; rw [e30]; omega
    | ⟨1, _⟩ => show win1_3.index t (1 : Fin 2) * 1 + 1 * 0 = 0; rw [e31]

/-- The carried scratch after point n is the masked down-projection of n's row block ⌊n/4⌋. -/
theorem tail1_dpAt : ∀ (n : ℕ) (hn : n < cfg1.N) (p k : Fin 1024) (hr : n / 4 * 1024 + p.val < 2048),
    Tail1.dpAt V c n hn (ix2 p k)
      = (∑ l : Fin 1024, t1h V c (ix2 (⟨n / 4 * 1024 + p.val, hr⟩ : Fin 2048) l) * t1dn V c (ix2 l k))
          * t1mu V c (ix2 (⟨n / 4 * 1024 + p.val, hr⟩ : Fin 2048) (0 : Fin 1))
  | n, hn, p, k, hr => by
    by_cases h : n % 4 = 0
    · exact (congrFun (Tail1.dpAt_first V c ⟨n, hn⟩ h) (ix2 p k)).trans (tail1_first V c ⟨n, hn⟩ p k hr)
    · have hpos : 0 < n := Nat.pos_of_ne_zero fun e => h (by rw [e])
      have hq : (n - 1) / 4 = n / 4 := by omega
      have hr' : (n - 1) / 4 * 1024 + p.val < 2048 := by rw [hq]; exact hr
      have hrow : (⟨(n - 1) / 4 * 1024 + p.val, hr'⟩ : Fin 2048) = ⟨n / 4 * 1024 + p.val, hr⟩ :=
        Fin.ext (show (n - 1) / 4 * 1024 + p.val = n / 4 * 1024 + p.val by omega)
      have ih := tail1_dpAt (n - 1) (Nat.lt_of_le_of_lt (Nat.sub_le _ _) hn) p k hr'
      rw [hrow] at ih
      exact (congrFun (Tail1.dpAt_later V c ⟨n, hn⟩ h) (ix2 p k)).trans ih
  termination_by n => n
  decreasing_by omega

/-- The decode tile's staging buffer at (k, q), for a column q the transfer moved: the decode weight at column
    (t mod 4)·2048 + q. -/
theorem tail1_dec (t : Fin cfg1.N) (k : Fin 1024) (q : Fin 2048)
    (hq : q.val < win1_2.xsize (grid1.coords t) (1 : Fin 2)) (hs : t.val % 4 * 2048 + q.val < 8000) :
    Tail1.decBuf V c t Tail1.filler (ix2 k q) = t1dc V c (ix2 k (⟨t.val % 4 * 2048 + q.val, hs⟩ : Fin 8000)) := by
  obtain ⟨-, -, -, -, e20, e21, -, -, -, -, x20, -⟩ := tail1_idx t
  have hk : k.val < win1_2.xsize (grid1.coords t) (0 : Fin 2) := by rw [x20]; exact k.isLt
  let j : (win1_2.xblock (grid1.coords t)).Idx := fun a => match a with
    | ⟨0, _⟩ => ⟨k.val, hk⟩
    | ⟨1, _⟩ => ⟨q.val, hq⟩
  have ej : (ix2 k q : S1024x2048.Idx) = win1_2.xinj (grid1.coords t) j :=
    funext fun a => Fin.ext (by match a with | ⟨0, _⟩ => rfl | ⟨1, _⟩ => rfl)
  unfold Tail1.decBuf
  refine (congrArg (win1_2.fill (grid1.coords t) Tail1.filler (Tail1.iblk V c 2 t)) ej).trans ?_
  refine (win1_2.fill_xinj (grid1.coords t) Tail1.filler (Tail1.iblk V c 2 t) j).trans ?_
  show V c main_v18 (((cfg1.win 2).blk t).view.emb j) = _
  refine congrArg _ (funext fun a => Fin.ext ?_)
  match a with
  | ⟨0, _⟩ => show win1_2.index t (0 : Fin 2) * 1024 + 1 * k.val = k.val; rw [e20]; omega
  | ⟨1, _⟩ => show win1_2.index t (1 : Fin 2) * 2048 + 1 * q.val = t.val % 4 * 2048 + q.val; rw [e21]; omega

/-- What point t writes back is its block's part inside the array of the masked two-stage product. -/
theorem tail1_flushed (t : Fin cfg1.N) :
    (Tail1.dat (F := Ideal) V c).flushed 4 t
      = ((cfg1.win 4).blk t).view.read (Elt Ideal) (Cert.Logits.maskedTwoStage (V c main_v0) (V c main_v17) (V c main_v18)
          (fun r : Fin 2048 => V c main_v9 (ix2 r (0 : Fin 1)))) := by
  show (cfg1.win 4).cut (grid1.coords t) ((Tail1.dat V c).after 4 t) = _
  rw [Tail1.after_4]
  obtain ⟨-, -, -, -, -, -, -, -, e40, e41, -, x21, x40, x41⟩ := tail1_idx t
  have ht : t.val < 8 := lt_of_lt_of_eq t.isLt N_1
  funext y
  have hy0 : (y 0).val < 1024 := by
    have h : (y 0).val < win1_4.xsize (grid1.coords t) (0 : Fin 2) := (y 0).isLt
    rwa [x40] at h
  have hy1 : (y 1).val < (if t.val % 4 = 3 then 1856 else 2048) := by
    have h : (y 1).val < win1_4.xsize (grid1.coords t) (1 : Fin 2) := (y 1).isLt
    rwa [x41] at h
  have hy1' : (y 1).val < 2048 := by split at hy1 <;> omega
  have hr : t.val / 4 * 1024 + (y 0).val < 2048 := by omega
  have hs : t.val % 4 * 2048 + (y 1).val < 8000 := by split at hy1 <;> omega
  have hq2 : (y 1).val < win1_2.xsize (grid1.coords t) (1 : Fin 2) := by rw [x21]; exact hy1
  have ex : (cfg1.win 4).xinj (grid1.coords t) y = ix2 (⟨(y 0).val, hy0⟩ : Fin 1024) (⟨(y 1).val, hy1'⟩ : Fin 2048) :=
    funext fun a => Fin.ext (by match a with | ⟨0, _⟩ => rfl | ⟨1, _⟩ => rfl)
  have ee : ((cfg1.win 4).blk t).view.emb y
      = ix2 (⟨t.val / 4 * 1024 + (y 0).val, hr⟩ : Fin 2048) (⟨t.val % 4 * 2048 + (y 1).val, hs⟩ : Fin 8000) := by
    funext a; apply Fin.ext
    match a with
    | ⟨0, _⟩ => show win1_4.index t (0 : Fin 2) * 1024 + 1 * (y 0).val = t.val / 4 * 1024 + (y 0).val; rw [e40]; omega
    | ⟨1, _⟩ => show win1_4.index t (1 : Fin 2) * 2048 + 1 * (y 1).val = t.val % 4 * 2048 + (y 1).val; rw [e41]; omega
  show k1_pay2 (F := Ideal) (Tail1.dpAt V c t.val t.isLt) (Tail1.decBuf V c t Tail1.filler) ((cfg1.win 4).xinj (grid1.coords t) y)
      = Cert.Logits.maskedTwoStage (V c main_v0) (V c main_v17) (V c main_v18) (fun r : Fin 2048 => V c main_v9 (ix2 r (0 : Fin 1)))
          (((cfg1.win 4).blk t).view.emb y)
  rw [ex, ee, Payloads.pay12]
  show ∑ k : Fin 1024, Tail1.dpAt V c t.val t.isLt (ix2 (⟨(y 0).val, hy0⟩ : Fin 1024) k)
        * Tail1.decBuf V c t Tail1.filler (ix2 k (⟨(y 1).val, hy1'⟩ : Fin 2048))
      = ∑ k : Fin 1024, ((∑ l : Fin 1024, t1h V c (ix2 (⟨t.val / 4 * 1024 + (y 0).val, hr⟩ : Fin 2048) l) * t1dn V c (ix2 l k))
          * t1mu V c (ix2 (⟨t.val / 4 * 1024 + (y 0).val, hr⟩ : Fin 2048) (0 : Fin 1)))
        * t1dc V c (ix2 k (⟨t.val % 4 * 2048 + (y 1).val, hs⟩ : Fin 8000))
  refine Finset.sum_congr rfl fun k _ => ?_
  rw [tail1_dpAt V c t.val t.isLt ⟨(y 0).val, hy0⟩ k hr, tail1_dec V c t k ⟨(y 1).val, hy1'⟩ hq2 hs]

/-- An index of the output array is in point t's block iff each coordinate is in the range the transfer moves. -/
theorem tail1_mem_blk (t : Fin cfg1.N) (i : S2048x8000.Idx) :
    i ∈ ((cfg1.win 4).blk t).view.set ↔ ∀ a : Fin 2, win1_4.index t a * S1024x2048.size a ≤ (i a).val
      ∧ (i a).val < win1_4.index t a * S1024x2048.size a + win1_4.xsize (grid1.coords t) a := by
  show i ∈ ((View.whole main_v19).slice (win1_4.rect t)).set ↔ _
  rw [View.set_slice_whole, Rect.mem_set_unit]
  exact Iff.rfl

/-- Every index of the output array is in the block of the point of its row block and column tile. -/
theorem tail1_cover (i : S2048x8000.Idx) :
    ∃ t : Fin cfg1.N, (cfg1.win 4).flush t = true ∧ i ∈ ((cfg1.win 4).blk t).view.set := by
  have hi0 : (i 0).val < 2048 := (i 0).isLt
  have hi1 : (i 1).val < 8000 := (i 1).isLt
  have hN : 4 * ((i 0).val / 1024) + (i 1).val / 2048 < cfg1.N := by show _ < grid1.N; rw [N_1]; omega
  refine ⟨⟨4 * ((i 0).val / 1024) + (i 1).val / 2048, hN⟩, flush1_4 _, ?_⟩
  obtain ⟨-, -, -, -, -, -, -, -, e40, e41, -, -, x40, x41⟩ := tail1_idx ⟨4 * ((i 0).val / 1024) + (i 1).val / 2048, hN⟩
  rw [tail1_mem_blk]
  intro a
  match a with
  | ⟨0, _⟩ =>
    show win1_4.index ⟨_, hN⟩ (0 : Fin 2) * 1024 ≤ (i 0).val
      ∧ (i 0).val < win1_4.index ⟨_, hN⟩ (0 : Fin 2) * 1024 + win1_4.xsize (grid1.coords ⟨_, hN⟩) (0 : Fin 2)
    rw [e40, x40]
    show (4 * ((i 0).val / 1024) + (i 1).val / 2048) / 4 * 1024 ≤ (i 0).val
      ∧ (i 0).val < (4 * ((i 0).val / 1024) + (i 1).val / 2048) / 4 * 1024 + 1024
    omega
  | ⟨1, _⟩ =>
    show win1_4.index ⟨_, hN⟩ (1 : Fin 2) * 2048 ≤ (i 1).val
      ∧ (i 1).val < win1_4.index ⟨_, hN⟩ (1 : Fin 2) * 2048 + win1_4.xsize (grid1.coords ⟨_, hN⟩) (1 : Fin 2)
    rw [e41, x41]
    show (4 * ((i 0).val / 1024) + (i 1).val / 2048) % 4 * 2048 ≤ (i 1).val
      ∧ (i 1).val < (4 * ((i 0).val / 1024) + (i 1).val / 2048) % 4 * 2048
          + (if (4 * ((i 0).val / 1024) + (i 1).val / 2048) % 4 = 3 then 1856 else 2048)
    split <;> omega

/-- Region 1's output array after the region is the masked two-stage product of the hidden states, the down and
    decode weights and the mask column. -/
theorem tail1_final : (Cert.KernelIdeal.Tail1.dat (F := Ideal) V c).arrAt 4 cfg1.N
    = Cert.Logits.maskedTwoStage (V c main_v0) (V c main_v17) (V c main_v18) (fun r : Fin 2048 => V c main_v9 (ValueIdx.ix2 r (0 : Fin 1))) :=
  (Tail1.dat (F := Ideal) V c).arrAt_eq_of_cover 4
    (Cert.Logits.maskedTwoStage (V c main_v0) (V c main_v17) (V c main_v18) (fun r : Fin 2048 => V c main_v9 (ix2 r (0 : Fin 1))))
    (fun t _ => tail1_flushed V c t) (tail1_cover)

end Cert.KernelIdeal.Blocks

end
-- ==== Proof.IdealBlocks2.lean ====
/-
  Region 2's output array after the region: the second tail cluster's logits.

  Point t = 13·i + j of the grid writes, of the output's block at (row block i, column tile j), the columns that lie
  inside the array: the scratch (the masked down-projection of row block i, computed at the point 13·i and carried)
  times column tile j of the decode weight. The blocks' parts inside the array tile it, so the array ends holding,
  at (r, s), ∑ₖ ((∑ₗ hidden(r,l) · down(l,k)) · mask r) · decode(k,s).
-/
import proofs.«123100_j81028853006378_2_alg».proof.Proof.IdealPayloads
import proofs.«123100_j81028853006378_2_alg».proof.Proof.LogitsSpec
import proofs.«123100_j81028853006378_2_alg».proof.Proof.IdealTail2Data
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b)) (c : Dev nD)

/-- The region's input arrays as it finds them, as plain functions of an index. -/
abbrev t2h : S2048x1024.Idx → EReal := V c main_v0
abbrev t2dn : S1024x256.Idx → EReal := V c main_v20
abbrev t2dc : S256x40000.Idx → EReal := V c main_v21
abbrev t2mu : S2048x1.Idx → EReal := V c main_v16

/-- The block indices and the transferred sizes over the grid (point t = 13·i + j): the hidden rows, the mask
    column and the output's rows move with i; the decode tile and the output's columns with j; the last tile's
    transfers stop at the array's end. -/
theorem tail2_idx : ∀ t : Fin cfg2.N,
    win2_0.index t (0 : Fin 2) = t.val / 13 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = t.val % 13
    ∧ win2_3.index t (0 : Fin 2) = t.val / 13 ∧ win2_3.index t (1 : Fin 2) = 0
    ∧ win2_4.index t (0 : Fin 2) = t.val / 13 ∧ win2_4.index t (1 : Fin 2) = t.val % 13
    ∧ win2_2.xsize (grid2.coords t) (0 : Fin 2) = 256
    ∧ win2_2.xsize (grid2.coords t) (1 : Fin 2) = (if t.val % 13 = 12 then 1600 else 3200)
    ∧ win2_4.xsize (grid2.coords t) (0 : Fin 2) = 1024
    ∧ win2_4.xsize (grid2.coords t) (1 : Fin 2) = (if t.val % 13 = 12 then 1600 else 3200) :=
  (by decide +kernel : ∀ t : Fin grid2.N, _)

/-- One entry of a row block's masked down-projection, from blocks that are the matching rows of the arrays. -/
theorem tail2_dp_point (A0 : S2048x1024.Idx → EReal) (A1 : S1024x256.Idx → EReal) (A3 : S2048x1.Idx → EReal)
    (x0 : Vec Ideal S1024x1024 .bf16) (x1 : Vec Ideal S1024x256 .bf16) (x3 : Vec Ideal S1024x1 .f32) (r : Fin 2048) (p : Fin 1024) (k : Fin 256)
    (h0 : ∀ l : Fin 1024, x0 (ix2 p l) = A0 (ix2 r l)) (h1 : ∀ l : Fin 1024, x1 (ix2 l k) = A1 (ix2 l k))
    (h3 : x3 (ix2 p (0 : Fin 1)) = A3 (ix2 r (0 : Fin 1))) :
    k2_pay1 (F := Ideal) x0 x1 x3 (ix2 p k)
      = (∑ l : Fin 1024, A0 (ix2 r l) * A1 (ix2 l k)) * A3 (ix2 r (0 : Fin 1)) := by
  rw [Payloads.pay21, h3]
  exact congrArg (· * A3 (ix2 r (0 : Fin 1))) (Finset.sum_congr rfl fun l _ => by rw [h0 l, h1 l])

/-- The masked down-projection computed at point t from t's input blocks, at (p, k): row ⌊t/13⌋·1024 + p. -/
theorem tail2_first (t : Fin cfg2.N) (p : Fin 1024) (k : Fin 256) (hr : t.val / 13 * 1024 + p.val < 2048) :
    k2_pay1 (F := Ideal) (Tail2.iblk V c 0 t) (Tail2.iblk V c 1 t) (Tail2.iblk V c 3 t) (ix2 p k)
      = (∑ l : Fin 1024, t2h V c (ix2 (⟨t.val / 13 * 1024 + p.val, hr⟩ : Fin 2048) l) * t2dn V c (ix2 l k))
          * t2mu V c (ix2 (⟨t.val / 13 * 1024 + p.val, hr⟩ : Fin 2048) (0 : Fin 1)) := by
  obtain ⟨e00, e01, e10, e11, -, -, e30, e31, -⟩ := tail2_idx t
  refine tail2_dp_point (t2h V c) (t2dn V c) (t2mu V c) _ _ _ ⟨_, hr⟩ p k (fun l => ?_) (fun l => ?_) ?_
  · show V c main_v0 (((cfg2.win 0).blk t).view.emb (ix2 p l)) = _
    refine congrArg _ (funext fun a => Fin.ext ?_)
    match a with
    | ⟨0, _⟩ => show win2_0.index t (0 : Fin 2) * 1024 + 1 * p.val = t.val / 13 * 1024 + p.val; rw [e00]; omega
    | ⟨1, _⟩ => show win2_0.index t (1 : Fin 2) * 1024 + 1 * l.val = l.val; rw [e01]; omega
  · show V c main_v20 (((cfg2.win 1).blk t).view.emb (ix2 l k)) = _
    refine congrArg _ (funext fun a => Fin.ext ?_)
    match a with
    | ⟨0, _⟩ => show win2_1.index t (0 : Fin 2) * 1024 + 1 * l.val = l.val; rw [e10]; omega
    | ⟨1, _⟩ => show win2_1.index t (1 : Fin 2) * 256 + 1 * k.val = k.val; rw [e11]; omega
  · show V c main_v16 (((cfg2.win 3).blk t).view.emb (ix2 p (0 : Fin 1))) = _
    refine congrArg _ (funext fun a => Fin.ext ?_)
    match a with
    | ⟨0, _⟩ => show win2_3.index t (0 : Fin 2) * 1024 + 1 * p.val = t.val / 13 * 1024 + p.val; rw [e30]; omega
    | ⟨1, _⟩ => show win2_3.index t (1 : Fin 2) * 1 + 1 * 0 = 0; rw [e31]

/-- The carried scratch after point n is the masked down-projection of n's row block ⌊n/13⌋. -/
theorem tail2_dpAt : ∀ (n : ℕ) (hn : n < cfg2.N) (p : Fin 1024) (k : Fin 256) (hr : n / 13 * 1024 + p.val < 2048),
    Tail2.dpAt V c n hn (ix2 p k)
      = (∑ l : Fin 1024, t2h V c (ix2 (⟨n / 13 * 1024 + p.val, hr⟩ : Fin 2048) l) * t2dn V c (ix2 l k))
          * t2mu V c (ix2 (⟨n / 13 * 1024 + p.val, hr⟩ : Fin 2048) (0 : Fin 1))
  | n, hn, p, k, hr => by
    by_cases h : n % 13 = 0
    · exact (congrFun (Tail2.dpAt_first V c ⟨n, hn⟩ h) (ix2 p k)).trans (tail2_first V c ⟨n, hn⟩ p k hr)
    · have hpos : 0 < n := Nat.pos_of_ne_zero fun e => h (by rw [e])
      have hq : (n - 1) / 13 = n / 13 := by omega
      have hr' : (n - 1) / 13 * 1024 + p.val < 2048 := by rw [hq]; exact hr
      have hrow : (⟨(n - 1) / 13 * 1024 + p.val, hr'⟩ : Fin 2048) = ⟨n / 13 * 1024 + p.val, hr⟩ :=
        Fin.ext (show (n - 1) / 13 * 1024 + p.val = n / 13 * 1024 + p.val by omega)
      have ih := tail2_dpAt (n - 1) (Nat.lt_of_le_of_lt (Nat.sub_le _ _) hn) p k hr'
      rw [hrow] at ih
      exact (congrFun (Tail2.dpAt_later V c ⟨n, hn⟩ h) (ix2 p k)).trans ih
  termination_by n => n
  decreasing_by omega

/-- The decode tile's staging buffer at (k, q), for a column q the transfer moved: the decode weight at column
    (t mod 13)·3200 + q. -/
theorem tail2_dec (t : Fin cfg2.N) (k : Fin 256) (q : Fin 3200)
    (hq : q.val < win2_2.xsize (grid2.coords t) (1 : Fin 2)) (hs : t.val % 13 * 3200 + q.val < 40000) :
    Tail2.decBuf V c t Tail2.filler (ix2 k q) = t2dc V c (ix2 k (⟨t.val % 13 * 3200 + q.val, hs⟩ : Fin 40000)) := by
  obtain ⟨-, -, -, -, e20, e21, -, -, -, -, x20, -⟩ := tail2_idx t
  have hk : k.val < win2_2.xsize (grid2.coords t) (0 : Fin 2) := by rw [x20]; exact k.isLt
  let j : (win2_2.xblock (grid2.coords t)).Idx := fun a => match a with
    | ⟨0, _⟩ => ⟨k.val, hk⟩
    | ⟨1, _⟩ => ⟨q.val, hq⟩
  have ej : (ix2 k q : S256x3200.Idx) = win2_2.xinj (grid2.coords t) j :=
    funext fun a => Fin.ext (by match a with | ⟨0, _⟩ => rfl | ⟨1, _⟩ => rfl)
  unfold Tail2.decBuf
  refine (congrArg (win2_2.fill (grid2.coords t) Tail2.filler (Tail2.iblk V c 2 t)) ej).trans ?_
  refine (win2_2.fill_xinj (grid2.coords t) Tail2.filler (Tail2.iblk V c 2 t) j).trans ?_
  show V c main_v21 (((cfg2.win 2).blk t).view.emb j) = _
  refine congrArg _ (funext fun a => Fin.ext ?_)
  match a with
  | ⟨0, _⟩ => show win2_2.index t (0 : Fin 2) * 256 + 1 * k.val = k.val; rw [e20]; omega
  | ⟨1, _⟩ => show win2_2.index t (1 : Fin 2) * 3200 + 1 * q.val = t.val % 13 * 3200 + q.val; rw [e21]; omega

/-- What point t writes back is its block's part inside the array of the masked two-stage product. -/
theorem tail2_flushed (t : Fin cfg2.N) :
    (Tail2.dat (F := Ideal) V c).flushed 4 t
      = ((cfg2.win 4).blk t).view.read (Elt Ideal) (Cert.Logits.maskedTwoStage (V c main_v0) (V c main_v20) (V c main_v21)
          (fun r : Fin 2048 => V c main_v16 (ix2 r (0 : Fin 1)))) := by
  show (cfg2.win 4).cut (grid2.coords t) ((Tail2.dat V c).after 4 t) = _
  rw [Tail2.after_4]
  obtain ⟨-, -, -, -, -, -, -, -, e40, e41, -, x21, x40, x41⟩ := tail2_idx t
  have ht : t.val < 26 := lt_of_lt_of_eq t.isLt N_2
  funext y
  have hy0 : (y 0).val < 1024 := by
    have h : (y 0).val < win2_4.xsize (grid2.coords t) (0 : Fin 2) := (y 0).isLt
    rwa [x40] at h
  have hy1 : (y 1).val < (if t.val % 13 = 12 then 1600 else 3200) := by
    have h : (y 1).val < win2_4.xsize (grid2.coords t) (1 : Fin 2) := (y 1).isLt
    rwa [x41] at h
  have hy1' : (y 1).val < 3200 := by split at hy1 <;> omega
  have hr : t.val / 13 * 1024 + (y 0).val < 2048 := by omega
  have hs : t.val % 13 * 3200 + (y 1).val < 40000 := by split at hy1 <;> omega
  have hq2 : (y 1).val < win2_2.xsize (grid2.coords t) (1 : Fin 2) := by rw [x21]; exact hy1
  have ex : (cfg2.win 4).xinj (grid2.coords t) y = ix2 (⟨(y 0).val, hy0⟩ : Fin 1024) (⟨(y 1).val, hy1'⟩ : Fin 3200) :=
    funext fun a => Fin.ext (by match a with | ⟨0, _⟩ => rfl | ⟨1, _⟩ => rfl)
  have ee : ((cfg2.win 4).blk t).view.emb y
      = ix2 (⟨t.val / 13 * 1024 + (y 0).val, hr⟩ : Fin 2048) (⟨t.val % 13 * 3200 + (y 1).val, hs⟩ : Fin 40000) := by
    funext a; apply Fin.ext
    match a with
    | ⟨0, _⟩ => show win2_4.index t (0 : Fin 2) * 1024 + 1 * (y 0).val = t.val / 13 * 1024 + (y 0).val; rw [e40]; omega
    | ⟨1, _⟩ => show win2_4.index t (1 : Fin 2) * 3200 + 1 * (y 1).val = t.val % 13 * 3200 + (y 1).val; rw [e41]; omega
  show k2_pay2 (F := Ideal) (Tail2.dpAt V c t.val t.isLt) (Tail2.decBuf V c t Tail2.filler) ((cfg2.win 4).xinj (grid2.coords t) y)
      = Cert.Logits.maskedTwoStage (V c main_v0) (V c main_v20) (V c main_v21) (fun r : Fin 2048 => V c main_v16 (ix2 r (0 : Fin 1)))
          (((cfg2.win 4).blk t).view.emb y)
  rw [ex, ee, Payloads.pay22]
  show ∑ k : Fin 256, Tail2.dpAt V c t.val t.isLt (ix2 (⟨(y 0).val, hy0⟩ : Fin 1024) k)
        * Tail2.decBuf V c t Tail2.filler (ix2 k (⟨(y 1).val, hy1'⟩ : Fin 3200))
      = ∑ k : Fin 256, ((∑ l : Fin 1024, t2h V c (ix2 (⟨t.val / 13 * 1024 + (y 0).val, hr⟩ : Fin 2048) l) * t2dn V c (ix2 l k))
          * t2mu V c (ix2 (⟨t.val / 13 * 1024 + (y 0).val, hr⟩ : Fin 2048) (0 : Fin 1)))
        * t2dc V c (ix2 k (⟨t.val % 13 * 3200 + (y 1).val, hs⟩ : Fin 40000))
  refine Finset.sum_congr rfl fun k _ => ?_
  rw [tail2_dpAt V c t.val t.isLt ⟨(y 0).val, hy0⟩ k hr, tail2_dec V c t k ⟨(y 1).val, hy1'⟩ hq2 hs]

/-- An index of the output array is in point t's block iff each coordinate is in the range the transfer moves. -/
theorem tail2_mem_blk (t : Fin cfg2.N) (i : S2048x40000.Idx) :
    i ∈ ((cfg2.win 4).blk t).view.set ↔ ∀ a : Fin 2, win2_4.index t a * S1024x3200.size a ≤ (i a).val
      ∧ (i a).val < win2_4.index t a * S1024x3200.size a + win2_4.xsize (grid2.coords t) a := by
  show i ∈ ((View.whole main_v22).slice (win2_4.rect t)).set ↔ _
  rw [View.set_slice_whole, Rect.mem_set_unit]
  exact Iff.rfl

/-- Every index of the output array is in the block of the point of its row block and column tile. -/
theorem tail2_cover (i : S2048x40000.Idx) :
    ∃ t : Fin cfg2.N, (cfg2.win 4).flush t = true ∧ i ∈ ((cfg2.win 4).blk t).view.set := by
  have hi0 : (i 0).val < 2048 := (i 0).isLt
  have hi1 : (i 1).val < 40000 := (i 1).isLt
  have hN : 13 * ((i 0).val / 1024) + (i 1).val / 3200 < cfg2.N := by show _ < grid2.N; rw [N_2]; omega
  refine ⟨⟨13 * ((i 0).val / 1024) + (i 1).val / 3200, hN⟩, flush2_4 _, ?_⟩
  obtain ⟨-, -, -, -, -, -, -, -, e40, e41, -, -, x40, x41⟩ := tail2_idx ⟨13 * ((i 0).val / 1024) + (i 1).val / 3200, hN⟩
  rw [tail2_mem_blk]
  intro a
  match a with
  | ⟨0, _⟩ =>
    show win2_4.index ⟨_, hN⟩ (0 : Fin 2) * 1024 ≤ (i 0).val
      ∧ (i 0).val < win2_4.index ⟨_, hN⟩ (0 : Fin 2) * 1024 + win2_4.xsize (grid2.coords ⟨_, hN⟩) (0 : Fin 2)
    rw [e40, x40]
    show (13 * ((i 0).val / 1024) + (i 1).val / 3200) / 13 * 1024 ≤ (i 0).val
      ∧ (i 0).val < (13 * ((i 0).val / 1024) + (i 1).val / 3200) / 13 * 1024 + 1024
    omega
  | ⟨1, _⟩ =>
    show win2_4.index ⟨_, hN⟩ (1 : Fin 2) * 3200 ≤ (i 1).val
      ∧ (i 1).val < win2_4.index ⟨_, hN⟩ (1 : Fin 2) * 3200 + win2_4.xsize (grid2.coords ⟨_, hN⟩) (1 : Fin 2)
    rw [e41, x41]
    show (13 * ((i 0).val / 1024) + (i 1).val / 3200) % 13 * 3200 ≤ (i 1).val
      ∧ (i 1).val < (13 * ((i 0).val / 1024) + (i 1).val / 3200) % 13 * 3200
          + (if (13 * ((i 0).val / 1024) + (i 1).val / 3200) % 13 = 12 then 1600 else 3200)
    split <;> omega

/-- Region 2's output array after the region is the masked two-stage product of the hidden states, the down and
    decode weights and the mask column. -/
theorem tail2_final : (Cert.KernelIdeal.Tail2.dat (F := Ideal) V c).arrAt 4 cfg2.N
    = Cert.Logits.maskedTwoStage (V c main_v0) (V c main_v20) (V c main_v21) (fun r : Fin 2048 => V c main_v16 (ValueIdx.ix2 r (0 : Fin 1))) :=
  (Tail2.dat (F := Ideal) V c).arrAt_eq_of_cover 4
    (Cert.Logits.maskedTwoStage (V c main_v0) (V c main_v20) (V c main_v21) (fun r : Fin 2048 => V c main_v16 (ix2 r (0 : Fin 1))))
    (fun t _ => tail2_flushed V c t) (tail2_cover)

end Cert.KernelIdeal.Blocks

end
-- ==== Proof.IdealHostSide.lean ====
/-
  What the host operations of the kernel's program leave in the buffers the three kernel regions read, over the
  extended reals.

  Before each region the host rounds the float inputs to a narrower format (the identity over the extended reals),
  computes each row's 0/1 cluster-membership value as a one-column array, and after the last region lays the three
  regions' outputs side by side. The regions' own outputs are unknowns here.
-/
import proofs.«123100_j81028853006378_2_alg».proof.Proof.Gen.KernelIdeal.Regions
import proofs.«123100_j81028853006378_2_alg».proof.Proof.LogitsSpec
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.HostSide

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ) (outs : Outs (F := Ideal)) (c : Dev nD)

/-! ## Arguments and untouched buffers reach every item as launched -/

theorem arg_at2 (r : Ref sig .tc) (h1 : r ∉ hostOps0_W) (h2 : r ∉ ([main_v2] : List (Ref sig .tc))) :
    V2 m outs c r = m ((c : Thread nD τ).loc r) :=
  (V2_of m outs c r h2).trans ((V1_of m c r h1).trans rfl)

theorem arg_at4 (r : Ref sig .tc) (h1 : r ∉ hostOps0_W) (h2 : r ∉ ([main_v2] : List (Ref sig .tc)))
    (h3 : r ∉ hostOps1_W) (h4 : r ∉ ([main_v19] : List (Ref sig .tc))) :
    V4 m outs c r = m ((c : Thread nD τ).loc r) :=
  (V4_of m outs c r h4).trans ((V3_of m outs c r h3).trans (arg_at2 m outs c r h1 h2))

/-! ## Before region 0 -/

/-- The hidden states rounded to the narrower format are the hidden states. -/
theorem v0_at1 : V1 m c main_v0 = m ((c : Thread nD τ).loc main_arg0) := by
  show StableHlo.after hostOps0 (V0 m c) (Proc.devRef .tc main_v0) = _
  after_results
  rfl

/-- The head weights rounded to the narrower format are the head weights. -/
theorem v1_at1 : V1 m c main_v1 = m ((c : Thread nD τ).loc main_arg2) := by
  show StableHlo.after hostOps0 (V0 m c) (Proc.devRef .tc main_v1) = _
  after_results
  rfl

/-- Region 0's output buffer is untouched before the region. -/
theorem v2_at1 : V1 m c main_v2 = m ((c : Thread nD τ).loc main_v2) :=
  (V1_of m c main_v2 (by decide)).trans rfl

/-! ## Before region 1 -/

theorem v0_at3 : V3 m outs c main_v0 = m ((c : Thread nD τ).loc main_arg0) :=
  (V3_of m outs c main_v0 (by decide)).trans ((V2_of m outs c main_v0 (by decide)).trans (v0_at1 m c))

theorem v17_at3 : V3 m outs c main_v17 = m ((c : Thread nD τ).loc main_arg3) := by
  have e : V3 m outs c main_v17
      = (truncf .bf16 (V2 m outs c main_arg3 : FVec Ideal S1024x1024 .f32) bitsLt_bf16_f32 : FVec Ideal S1024x1024 .bf16) := by
    show StableHlo.after hostOps1 (V2 m outs c) (Proc.devRef .tc main_v17) = _
    after_results
  rw [e, arg_at2 m outs c main_arg3 (by decide) (by decide)]
  rfl

theorem v18_at3 : V3 m outs c main_v18 = m ((c : Thread nD τ).loc main_arg4) := by
  have e : V3 m outs c main_v18
      = (truncf .bf16 (V2 m outs c main_arg4 : FVec Ideal S1024x8000 .f32) bitsLt_bf16_f32 : FVec Ideal S1024x8000 .bf16) := by
    show StableHlo.after hostOps1 (V2 m outs c) (Proc.devRef .tc main_v18) = _
    after_results
  rw [e, arg_at2 m outs c main_arg4 (by decide) (by decide)]
  rfl

/-- A one-column array made from a vector reads the vector at the row. -/
theorem column_apply {α : Type} (v : S2048.Idx → α) (r : Fin 2048) :
    broadcastInDim S2048x1 ![0] bcast_S2048_S2048x1_0 v (ix2 r (0 : Fin 1)) = v (ix1 r) :=
  broadcastInDim_apply _ bcast_S2048_S2048x1_0 v (ix2 r (0 : Fin 1)) (ix1 r) (fun a => match a with
    | ⟨0, _⟩ => by show r.val = if (2048 : Nat) = 1 then 0 else r.val; rw [if_neg (by decide)])

/-- A scalar word broadcast to a vector reads the word everywhere. -/
theorem splat_apply (b : BitVec 32) (j : S2048.Idx) :
    broadcastInDim S2048 ![] bcast_S_S2048 (constantI S_ 32 b) j = b := rfl

/-- The first cluster's membership column at row r. -/
theorem v9_at3 (r : Fin 2048) :
    V3 m outs c main_v9 (ix2 r (0 : Fin 1)) = Cert.Logits.mask 2000#32 10000#32 (m ((c : Thread nD τ).loc main_arg1)) r := by
  have e : V3 m outs c main_v9 = broadcastInDim S2048x1 ![0] bcast_S2048_S2048x1_0 (uitofp (F := Ideal) .f32
      (andi (cmpi .sge (V2 m outs c main_arg1) (broadcastInDim S2048 ![] bcast_S_S2048 (constantI S_ 32 2000#32)))
        (cmpi .slt (V2 m outs c main_arg1) (broadcastInDim S2048 ![] bcast_S_S2048 (constantI S_ 32 10000#32))))) := by
    show StableHlo.after hostOps1 (V2 m outs c) (Proc.devRef .tc main_v9) = _
    after_results
  rw [e, arg_at2 m outs c main_arg1 (by decide) (by decide)]
  exact column_apply _ r

/-- Region 1's output buffer is untouched before the region. -/
theorem v19_at3 : V3 m outs c main_v19 = m ((c : Thread nD τ).loc main_v19) :=
  (V3_of m outs c main_v19 (by decide)).trans (arg_at2 m outs c main_v19 (by decide) (by decide))

/-! ## Before region 2 -/

theorem v0_at5 : V5 m outs c main_v0 = m ((c : Thread nD τ).loc main_arg0) :=
  (V5_of m outs c main_v0 (by decide)).trans ((V4_of m outs c main_v0 (by decide)).trans (v0_at3 m outs c))

theorem v20_at5 : V5 m outs c main_v20 = m ((c : Thread nD τ).loc main_arg5) := by
  have e : V5 m outs c main_v20
      = (truncf .bf16 (V4 m outs c main_arg5 : FVec Ideal S1024x256 .f32) bitsLt_bf16_f32 : FVec Ideal S1024x256 .bf16) := by
    show StableHlo.after hostOps2 (V4 m outs c) (Proc.devRef .tc main_v20) = _
    after_results
  rw [e, arg_at4 m outs c main_arg5 (by decide) (by decide) (by decide) (by decide)]
  rfl

theorem v21_at5 : V5 m outs c main_v21 = m ((c : Thread nD τ).loc main_arg6) := by
  have e : V5 m outs c main_v21
      = (truncf .bf16 (V4 m outs c main_arg6 : FVec Ideal S256x40000 .f32) bitsLt_bf16_f32 : FVec Ideal S256x40000 .bf16) := by
    show StableHlo.after hostOps2 (V4 m outs c) (Proc.devRef .tc main_v21) = _
    after_results
  rw [e, arg_at4 m outs c main_arg6 (by decide) (by decide) (by decide) (by decide)]
  rfl

/-- The second cluster's membership column at row r. -/
theorem v16_at5 (r : Fin 2048) :
    V5 m outs c main_v16 (ix2 r (0 : Fin 1)) = Cert.Logits.mask 10000#32 50000#32 (m ((c : Thread nD τ).loc main_arg1)) r := by
  have e : V3 m outs c main_v16 = broadcastInDim S2048x1 ![0] bcast_S2048_S2048x1_0 (uitofp (F := Ideal) .f32
      (andi (cmpi .sge (V2 m outs c main_arg1) (broadcastInDim S2048 ![] bcast_S_S2048 (constantI S_ 32 10000#32)))
        (cmpi .slt (V2 m outs c main_arg1) (broadcastInDim S2048 ![] bcast_S_S2048 (constantI S_ 32 50000#32))))) := by
    show StableHlo.after hostOps1 (V2 m outs c) (Proc.devRef .tc main_v16) = _
    after_results
  rw [V5_of m outs c main_v16 (by decide), V4_of m outs c main_v16 (by decide), e,
    arg_at2 m outs c main_arg1 (by decide) (by decide)]
  exact column_apply _ r

/-- Region 2's output buffer is untouched before the region. -/
theorem v22_at5 : V5 m outs c main_v22 = m ((c : Thread nD τ).loc main_v22) :=
  (V5_of m outs c main_v22 (by decide)).trans
    (arg_at4 m outs c main_v22 (by decide) (by decide) (by decide) (by decide))

/-! ## After region 2 -/

/-- What region 0 left is still in its output buffer after region 2. -/
theorem v2_at6 : V6 m outs c main_v2 = outs 2 main_v2 c :=
  (V6_of m outs c main_v2 (by decide)).trans <| (V5_of m outs c main_v2 (by decide)).trans <|
    (V4_of m outs c main_v2 (by decide)).trans <| (V3_of m outs c main_v2 (by decide)).trans (Function.update_self ..)

/-- What region 1 left is still in its output buffer after region 2. -/
theorem v19_at6 : V6 m outs c main_v19 = outs 4 main_v19 c :=
  (V6_of m outs c main_v19 (by decide)).trans <| (V5_of m outs c main_v19 (by decide)).trans (Function.update_self ..)

/-- What region 2 left is in its output buffer. -/
theorem v22_at6 : V6 m outs c main_v22 = outs 6 main_v22 c := Function.update_self ..

/-- The result: the three regions' outputs laid side by side along the columns. -/
theorem v23_at7 : V7 m outs c main_v23
    = concatenate S2048x50002 1 [⟨S2048x2002, outs 2 main_v2 c⟩, ⟨S2048x8000, outs 4 main_v19 c⟩, ⟨S2048x40000, outs 6 main_v22 c⟩]
        concatenates_S2048x2002_S2048x8000_S2048x40000_S2048x50002_d1 := by
  have e : V7 m outs c main_v23
      = concatenate S2048x50002 1 [⟨S2048x2002, V6 m outs c main_v2⟩, ⟨S2048x8000, V6 m outs c main_v19⟩, ⟨S2048x40000, V6 m outs c main_v22⟩]
          concatenates_S2048x2002_S2048x8000_S2048x40000_S2048x50002_d1 := by
    show StableHlo.after hostOps3 (V6 m outs c) (Proc.devRef .tc main_v23) = _
    after_results
    rfl
  rw [e, v2_at6, v19_at6, v22_at6]

end Cert.KernelIdeal.HostSide

end
-- ==== Proof.IdealResult.lean ====
/-
  The idealized kernel's result, named: after @main the result buffer holds the three blocks side by side — the
  head product, and the two tail blocks in the arrangement that masks the down-projection before decoding —, each
  a function of the argument arrays alone; and the argument arrays are unchanged.

  The result buffer is the concatenation of what the three regions leave; each region leaves what its pipeline's
  write-backs assemble from the per-point blocks; the regions' inputs are host conversions of the arguments, which
  at exact arithmetic are the arguments themselves, and the two mask columns.
-/
import proofs.«123100_j81028853006378_2_alg».proof.Proof.IdealRun
import proofs.«123100_j81028853006378_2_alg».proof.Proof.IdealBlocks0
import proofs.«123100_j81028853006378_2_alg».proof.Proof.IdealBlocks1
import proofs.«123100_j81028853006378_2_alg».proof.Proof.IdealBlocks2
import proofs.«123100_j81028853006378_2_alg».proof.Proof.IdealHostSide
import proofs.«123100_j81028853006378_2_alg».proof.Proof.IdealPayloads
import proofs.«123100_j81028853006378_2_alg».proof.Proof.LogitsSpec

noncomputable section

namespace Cert.KernelIdeal.Result

open Cert.KernelIdeal Cert.KernelIdeal.Gen Cert.KernelIdeal.Whole
open Idealize.ShloMosaic Idealize.ShloMosaic.TcCoe Idealize.SL.Sem

/-- At exact arithmetic column q of each decode product reads only column q of its right operand. -/
theorem col1 : Tail1.ColumnWise Ideal := fun s x2 x2' p q h => Payloads.pay12_congr s x2 x2' p q h
theorem col2 : Tail2.ColumnWise Ideal := fun s x2 x2' p q h => Payloads.pay22_congr s x2 x2' p q h

variable (m : (ℓ : Loc nD τ sig) → Buf (Elt Ideal) ℓ)

/-- The result as a function of the argument arrays. -/
def res (c : Dev nD) : Buf (Elt Ideal) ((c.tc : Thread nD τ).loc main_v23) :=
  concatenate S2048x50002 1
    [⟨S2048x2002, Cert.Logits.prod (m ((c.tc : Thread nD τ).loc main_arg0)) (m ((c.tc : Thread nD τ).loc main_arg2))⟩,
     ⟨S2048x8000, Cert.Logits.maskedTwoStage (m ((c.tc : Thread nD τ).loc main_arg0)) (m ((c.tc : Thread nD τ).loc main_arg3))
        (m ((c.tc : Thread nD τ).loc main_arg4)) (Cert.Logits.mask 2000#32 10000#32 (m ((c.tc : Thread nD τ).loc main_arg1)))⟩,
     ⟨S2048x40000, Cert.Logits.maskedTwoStage (m ((c.tc : Thread nD τ).loc main_arg0)) (m ((c.tc : Thread nD τ).loc main_arg5))
        (m ((c.tc : Thread nD τ).loc main_arg6)) (Cert.Logits.mask 10000#32 50000#32 (m ((c.tc : Thread nD τ).loc main_arg1)))⟩]
    concatenates_S2048x2002_S2048x8000_S2048x40000_S2048x50002_d1

/-- What region 0 leaves: the head product of the arguments. -/
theorem head_out (c : Dev nD) :
    outs m 2 main_v2 c = Cert.Logits.prod (m ((c.tc : Thread nD τ).loc main_arg0)) (m ((c.tc : Thread nD τ).loc main_arg2)) := by
  rw [out_head, Blocks.head_final]
  show Cert.Logits.prod (V1 m c main_v0) (V1 m c main_v1) = _
  rw [HostSide.v0_at1, HostSide.v1_at1]

set_option maxHeartbeats 1000000 in
/-- What region 1 leaves: the first tail block of the arguments. -/
theorem tail1_out (c : Dev nD) :
    outs m 4 main_v19 c = Cert.Logits.maskedTwoStage (M := 2048) (H := 1024) (D := 1024) (N := 8000) (m ((c.tc : Thread nD τ).loc main_arg0)) (m ((c.tc : Thread nD τ).loc main_arg3))
        (m ((c.tc : Thread nD τ).loc main_arg4)) (Cert.Logits.mask 2000#32 10000#32 (m ((c.tc : Thread nD τ).loc main_arg1))) := by
  rw [out_tail1, Blocks.tail1_final]
  show Cert.Logits.maskedTwoStage (M := 2048) (H := 1024) (D := 1024) (N := 8000) (V3 m (outsA m) c main_v0) (V3 m (outsA m) c main_v17) (V3 m (outsA m) c main_v18)
      (fun r : Fin 2048 => V3 m (outsA m) c main_v9 (ValueIdx.ix2 r (0 : Fin 1))) = _
  rw [HostSide.v0_at3, HostSide.v17_at3, HostSide.v18_at3]
  exact congrArg (Cert.Logits.maskedTwoStage (M := 2048) (H := 1024) (D := 1024) (N := 8000) (m ((c.tc : Thread nD τ).loc main_arg0))
    (m ((c.tc : Thread nD τ).loc main_arg3)) (m ((c.tc : Thread nD τ).loc main_arg4))) (funext fun r => HostSide.v9_at3 m (outsA m) c r)

set_option maxHeartbeats 1000000 in
/-- What region 2 leaves: the second tail block of the arguments. -/
theorem tail2_out (c : Dev nD) :
    outs m 6 main_v22 c = Cert.Logits.maskedTwoStage (M := 2048) (H := 1024) (D := 256) (N := 40000) (m ((c.tc : Thread nD τ).loc main_arg0)) (m ((c.tc : Thread nD τ).loc main_arg5))
        (m ((c.tc : Thread nD τ).loc main_arg6)) (Cert.Logits.mask 10000#32 50000#32 (m ((c.tc : Thread nD τ).loc main_arg1))) := by
  rw [out_tail2, Blocks.tail2_final]
  show Cert.Logits.maskedTwoStage (M := 2048) (H := 1024) (D := 256) (N := 40000) (V5 m (outsB m) c main_v0) (V5 m (outsB m) c main_v20) (V5 m (outsB m) c main_v21)
      (fun r : Fin 2048 => V5 m (outsB m) c main_v16 (ValueIdx.ix2 r (0 : Fin 1))) = _
  rw [HostSide.v0_at5, HostSide.v20_at5, HostSide.v21_at5]
  exact congrArg (Cert.Logits.maskedTwoStage (M := 2048) (H := 1024) (D := 256) (N := 40000) (m ((c.tc : Thread nD τ).loc main_arg0))
    (m ((c.tc : Thread nD τ).loc main_arg5)) (m ((c.tc : Thread nD τ).loc main_arg6))) (funext fun r => HostSide.v16_at5 m (outsB m) c r)

/-- The last boundary's contents at the result buffer. -/
theorem res_eq (c : Dev nD) : V7 m (outs m) c main_v23 = res m c := by
  rw [HostSide.v23_at7, head_out, tail1_out, tail2_out]; rfl

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Every weakly fair execution of the idealized kernel terminates, nothing faulting, with the result buffer at `res` of
    the arguments and the arguments unchanged. -/
theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v23) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c (Proc.devRef .tc main_v23) (mem_uc main_v23 (by decide))).trans (res_eq m c),
     (h c (Proc.devRef .tc main_arg0) (mem_uc main_arg0 (by decide))).trans (V7_main_arg0 m (outs m) c),
     (h c (Proc.devRef .tc main_arg1) (mem_uc main_arg1 (by decide))).trans (V7_main_arg1 m (outs m) c),
     (h c (Proc.devRef .tc main_arg2) (mem_uc main_arg2 (by decide))).trans (V7_main_arg2 m (outs m) c),
     (h c (Proc.devRef .tc main_arg3) (mem_uc main_arg3 (by decide))).trans (V7_main_arg3 m (outs m) c),
     (h c (Proc.devRef .tc main_arg4) (mem_uc main_arg4 (by decide))).trans (V7_main_arg4 m (outs m) c),
     (h c (Proc.devRef .tc main_arg5) (mem_uc main_arg5 (by decide))).trans (V7_main_arg5 m (outs m) c),
     (h c (Proc.devRef .tc main_arg6) (mem_uc main_arg6 (by decide))).trans (V7_main_arg6 m (outs m) c)⟩)
    (run_all (F := Ideal) m col1 col2 ρ)

end Cert.KernelIdeal.Result

end
-- ==== Proof.LibTwoStageSum.lean ====
/-
  Moving a real factor across a two-stage sum over the extended reals.

  For real-valued entries, (∑ₖ (∑ₗ aₗ · bₗₖ) · cₖ) · μ = ∑ₖ ((∑ₗ aₗ · bₗₖ) · μ) · cₖ.
  Over the extended reals multiplication does not distribute over sums in general (∞ − ∞ is at stake), so the
  entries are first read as real numbers, the identity is proved in ℝ, and carried back by the coercion.
-/
import Mathlib.Data.EReal.Basic
import Mathlib.Data.EReal.Operations
import Mathlib.Algebra.BigOperators.Ring.Finset
import Mathlib.Tactic.Ring

namespace Cert.TwoStageSum

open Finset

/-- The coercion ℝ → EReal carries finite sums to finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of real entries is a real number: the coerced real sum. -/
theorem sum_mul_coe {ι : Type*} [Fintype ι] (f g : ι → ℝ) :
    ∑ i, (f i : EReal) * (g i : EReal) = ((∑ i, f i * g i : ℝ) : EReal) := by
  rw [coe_sum]
  exact Finset.sum_congr rfl fun i _ => (EReal.coe_mul _ _).symm

/-- With real entries and a real factor μ:
    (∑ₖ (∑ₗ aₗ · bₗₖ) · cₖ) · μ = ∑ₖ ((∑ₗ aₗ · bₗₖ) · μ) · cₖ. -/
theorem two_stage {ι κ : Type*} [Fintype ι] [Fintype κ] (a : ι → EReal) (b : ι → κ → EReal) (c : κ → EReal) (μ : EReal)
    (ha : ∀ l, ∃ v : ℝ, a l = (v : EReal)) (hb : ∀ l k, ∃ v : ℝ, b l k = (v : EReal))
    (hc : ∀ k, ∃ v : ℝ, c k = (v : EReal)) (hμ : ∃ v : ℝ, μ = (v : EReal)) :
    (∑ k, (∑ l, a l * b l k) * c k) * μ = ∑ k, ((∑ l, a l * b l k) * μ) * c k := by
  choose fa hfa using ha
  choose fb hfb using hb
  choose fc hfc using hc
  obtain ⟨m, rfl⟩ := hμ
  have e1 : ∀ k, (∑ l, a l * b l k) = ((∑ l, fa l * fb l k : ℝ) : EReal) := fun k => by
    rw [← sum_mul_coe]
    exact Finset.sum_congr rfl fun l _ => by rw [hfa, hfb]
  have e2 : (∑ k, (∑ l, a l * b l k) * c k) = ((∑ k, (∑ l, fa l * fb l k) * fc k : ℝ) : EReal) := by
    rw [← sum_mul_coe]
    exact Finset.sum_congr rfl fun k _ => by rw [e1, hfc]
  have e3 : (∑ k, ((∑ l, a l * b l k) * (m : EReal)) * c k)
      = ((∑ k, ((∑ l, fa l * fb l k) * m) * fc k : ℝ) : EReal) := by
    rw [← sum_mul_coe]
    exact Finset.sum_congr rfl fun k _ => by rw [e1, hfc, EReal.coe_mul]
  rw [e2, e3, ← EReal.coe_mul, Finset.sum_mul]
  exact congrArg _ (Finset.sum_congr rfl fun k _ => by ring)

end Cert.TwoStageSum
-- ==== Proof.RefReal.lean ====
/-
  "Every entry of an array is a real number": the finiteness notion under which sums and products over the
  extended reals obey the ring laws.
-/
import Idealize.ShloMosaic.PureOps.Ideal

namespace Cert.RefSide

open Idealize.ShloMosaic

/-- every entry is a real number -/
def IsReal {S : Shape} (x : S.Idx → EReal) : Prop := ∀ i, ∃ v : ℝ, x i = (v : EReal)

end Cert.RefSide
-- ==== Proof.RefSide.lean ====
/-
  The reference program's three blocks, index by index.

  The head block is the matrix product of the hidden states with the head weights. Each tail block is computed by the
  reference as (hidden · down) · decode, every row then multiplied by its 0/1 cluster-membership value; for real
  entries that equals the arrangement with the membership value applied to the down-projection first.
-/
import proofs.«123100_j81028853006378_2_alg».proof.Proof.Gen.ReferenceIdeal.Read
import proofs.«123100_j81028853006378_2_alg».proof.Proof.LogitsSpec
import proofs.«123100_j81028853006378_2_alg».proof.Proof.LibTwoStageSum
import proofs.«123100_j81028853006378_2_alg».proof.Proof.RefReal
import Idealize.ShloMosaic.Lib.ValueIdx
import Idealize.ShloMosaic.Lib.Pipeline.Value
import Idealize.ShloMosaic.PureOps.Ideal.Laws

noncomputable section
namespace Cert.RefSide
open Cert.ReferenceIdeal Cert.ReferenceIdeal.Gen Idealize.ShloMosaic Idealize.ShloMosaic.ValueIdx

/-- The cluster-membership value of a row is a real number (0 or 1). -/
theorem mask_real {M : ℕ} (lo hi : BitVec 32) (tgt : (⟨1, ![M]⟩ : Shape).Idx → BitVec 32) (r : Fin M) :
    ∃ v : ℝ, Cert.Logits.mask lo hi tgt r = (v : EReal) := ⟨_, rfl⟩

/-- The head block: the contraction of the hidden states with the head weights is the matrix product. -/
theorem head_eq (h : FVec Ideal S2048x1024 .f32) (w : FVec Ideal S1024x2002 .f32) :
    Host.dotGeneral (F := Ideal) dot_S2048x1024_S1024x2002_S2048x2002_1_0_0_1_n_n none h w = Cert.Logits.prod h w := by
  funext i
  refine (Read.val_main_v0_apply h w i).trans ?_
  refine Finset.sum_congr rfl fun k _ => ?_
  have el : Read.lidx_main_v0 i k = ix2 (i 0) k := funext fun a => Fin.ext (by match a with | ⟨0, _⟩ => rfl | ⟨1, _⟩ => rfl)
  have er : Read.ridx_main_v0 i k = ix2 k (i 1) := funext fun a => Fin.ext (by match a with | ⟨0, _⟩ => rfl | ⟨1, _⟩ => rfl)
  rw [el, er]
  rfl

/-- The first tail block as the reference computes it (decode the down-projection, then multiply each row by its
    membership value) is the arrangement with the membership value applied to the down-projection, for real entries. -/
theorem tail0_eq (h : FVec Ideal S2048x1024 .f32) (tgt : IVec S2048 32) (dn : FVec Ideal S1024x1024 .f32)
    (dc : FVec Ideal S1024x8000 .f32) (hh : IsReal h) (hdn : IsReal dn) (hdc : IsReal dc) :
    mulf (F := Ideal) (Host.dotGeneral (F := Ideal) dot_S2048x1024_S1024x8000_S2048x8000_1_0_0_1_n_n none (Host.dotGeneral (F := Ideal) dot_S2048x1024_S1024x1024_S2048x1024_1_0_0_1_n_n none h dn) dc) (broadcastInDim S2048x8000 ![0, 1] bcast_S2048x1_S2048x8000_0_1 (broadcastInDim S2048x1 ![0] bcast_S2048_S2048x1_0 (uitofp (F := Ideal) .f32 (andi (cmpi .sge tgt (broadcastInDim S2048 ![] bcast_S_S2048 (constantI S_ 32 2000#32))) (cmpi .slt tgt (broadcastInDim S2048 ![] bcast_S_S2048 (constantI S_ 32 10000#32)))))))
      = Cert.Logits.maskedTwoStage h dn dc (Cert.Logits.mask 2000#32 10000#32 tgt) := by
  funext i
  have e0 : (mulf (F := Ideal) (Host.dotGeneral (F := Ideal) dot_S2048x1024_S1024x8000_S2048x8000_1_0_0_1_n_n none (Host.dotGeneral (F := Ideal) dot_S2048x1024_S1024x1024_S2048x1024_1_0_0_1_n_n none h dn) dc) (broadcastInDim S2048x8000 ![0, 1] bcast_S2048x1_S2048x8000_0_1 (broadcastInDim S2048x1 ![0] bcast_S2048_S2048x1_0 (uitofp (F := Ideal) .f32 (andi (cmpi .sge tgt (broadcastInDim S2048 ![] bcast_S_S2048 (constantI S_ 32 2000#32))) (cmpi .slt tgt (broadcastInDim S2048 ![] bcast_S_S2048 (constantI S_ 32 10000#32)))))))) i
      = Read.val_main_v17 (F := Ideal) h tgt dn dc i := rfl
  refine e0.trans ?_
  rw [Read.val_main_v17_apply, Read.val_main_v14_apply, Read.val_main_v16_apply, Read.val_main_v15_apply,
    Read.val_main_v6_apply, Read.val_main_v5_apply, Read.val_main_v2_apply, Read.val_main_v4_apply,
    Read.val_main_v1_apply, Read.val_main_v3_apply, Read.val_main_c_apply, Read.val_main_c_0_apply]
  have ei : Read.idx_main_v15 (Read.idx_main_v16 i) = ix1 (i 0) :=
    funext fun a => Fin.ext (by match a with | ⟨0, _⟩ => rfl)
  rw [ei]
  have e13 : ∀ k : Fin 1024, Read.val_main_v13 (F := Ideal) h dn (Read.lidx_main_v14 i k)
      = ∑ l : Fin 1024, h (ix2 (i 0) l) * dn (ix2 l k) := fun k => by
    refine (Read.val_main_v13_apply h dn _).trans ?_
    refine Finset.sum_congr rfl fun l _ => ?_
    have el : Read.lidx_main_v13 (Read.lidx_main_v14 i k) l = ix2 (i 0) l :=
      funext fun a => Fin.ext (by match a with | ⟨0, _⟩ => rfl | ⟨1, _⟩ => rfl)
    have er : Read.ridx_main_v13 (Read.lidx_main_v14 i k) l = ix2 l k :=
      funext fun a => Fin.ext (by match a with | ⟨0, _⟩ => rfl | ⟨1, _⟩ => rfl)
    rw [el, er]
    rfl
  have e14 : ∀ k : Fin 1024, Read.ridx_main_v14 i k = ix2 k (i 1) := fun k =>
    funext fun a => Fin.ext (by match a with | ⟨0, _⟩ => rfl | ⟨1, _⟩ => rfl)
  simp only [e13, e14]
  exact Cert.TwoStageSum.two_stage (fun l : Fin 1024 => h (ix2 (i 0) l)) (fun (l : Fin 1024) (k : Fin 1024) => dn (ix2 l k))
    (fun k : Fin 1024 => dc (ix2 k (i 1))) (Cert.Logits.mask 2000#32 10000#32 tgt (i 0))
    (fun l => hh _) (fun l k => hdn _) (fun k => hdc _) (mask_real _ _ _ _)

/-- The second tail block, likewise. -/
theorem tail1_eq (h : FVec Ideal S2048x1024 .f32) (tgt : IVec S2048 32) (dn : FVec Ideal S1024x256 .f32)
    (dc : FVec Ideal S256x40000 .f32) (hh : IsReal h) (hdn : IsReal dn) (hdc : IsReal dc) :
    mulf (F := Ideal) (Host.dotGeneral (F := Ideal) dot_S2048x256_S256x40000_S2048x40000_1_0_0_1_n_n none (Host.dotGeneral (F := Ideal) dot_S2048x1024_S1024x256_S2048x256_1_0_0_1_n_n none h dn) dc) (broadcastInDim S2048x40000 ![0, 1] bcast_S2048x1_S2048x40000_0_1 (broadcastInDim S2048x1 ![0] bcast_S2048_S2048x1_0 (uitofp (F := Ideal) .f32 (andi (cmpi .sge tgt (broadcastInDim S2048 ![] bcast_S_S2048 (constantI S_ 32 10000#32))) (cmpi .slt tgt (broadcastInDim S2048 ![] bcast_S_S2048 (constantI S_ 32 50000#32)))))))
      = Cert.Logits.maskedTwoStage h dn dc (Cert.Logits.mask 10000#32 50000#32 tgt) := by
  funext i
  have e0 : (mulf (F := Ideal) (Host.dotGeneral (F := Ideal) dot_S2048x256_S256x40000_S2048x40000_1_0_0_1_n_n none (Host.dotGeneral (F := Ideal) dot_S2048x1024_S1024x256_S2048x256_1_0_0_1_n_n none h dn) dc) (broadcastInDim S2048x40000 ![0, 1] bcast_S2048x1_S2048x40000_0_1 (broadcastInDim S2048x1 ![0] bcast_S2048_S2048x1_0 (uitofp (F := Ideal) .f32 (andi (cmpi .sge tgt (broadcastInDim S2048 ![] bcast_S_S2048 (constantI S_ 32 10000#32))) (cmpi .slt tgt (broadcastInDim S2048 ![] bcast_S_S2048 (constantI S_ 32 50000#32)))))))) i
      = Read.val_main_v22 (F := Ideal) h tgt dn dc i := rfl
  refine e0.trans ?_
  rw [Read.val_main_v22_apply, Read.val_main_v19_apply, Read.val_main_v21_apply, Read.val_main_v20_apply,
    Read.val_main_v12_apply, Read.val_main_v11_apply, Read.val_main_v8_apply, Read.val_main_v10_apply,
    Read.val_main_v7_apply, Read.val_main_v9_apply, Read.val_main_c_1_apply, Read.val_main_c_2_apply]
  have ei : Read.idx_main_v20 (Read.idx_main_v21 i) = ix1 (i 0) :=
    funext fun a => Fin.ext (by match a with | ⟨0, _⟩ => rfl)
  rw [ei]
  have e18 : ∀ k : Fin 256, Read.val_main_v18 (F := Ideal) h dn (Read.lidx_main_v19 i k)
      = ∑ l : Fin 1024, h (ix2 (i 0) l) * dn (ix2 l k) := fun k => by
    refine (Read.val_main_v18_apply h dn _).trans ?_
    refine Finset.sum_congr rfl fun l _ => ?_
    have el : Read.lidx_main_v18 (Read.lidx_main_v19 i k) l = ix2 (i 0) l :=
      funext fun a => Fin.ext (by match a with | ⟨0, _⟩ => rfl | ⟨1, _⟩ => rfl)
    have er : Read.ridx_main_v18 (Read.lidx_main_v19 i k) l = ix2 l k :=
      funext fun a => Fin.ext (by match a with | ⟨0, _⟩ => rfl | ⟨1, _⟩ => rfl)
    rw [el, er]
    rfl
  have e19 : ∀ k : Fin 256, Read.ridx_main_v19 i k = ix2 k (i 1) := fun k =>
    funext fun a => Fin.ext (by match a with | ⟨0, _⟩ => rfl | ⟨1, _⟩ => rfl)
  simp only [e18, e19]
  exact Cert.TwoStageSum.two_stage (fun l : Fin 1024 => h (ix2 (i 0) l)) (fun (l : Fin 1024) (k : Fin 256) => dn (ix2 l k))
    (fun k : Fin 256 => dc (ix2 k (i 1))) (Cert.Logits.mask 10000#32 50000#32 tgt (i 0))
    (fun l => hh _) (fun l k => hdn _) (fun k => hdc _) (mask_real _ _ _ _)

end Cert.RefSide
end
-- ==== Proof.RefFinite.lean ====
/-
  From the precondition "every float input has |x| < +∞ at every entry" to "every entry is a real number".

  The precondition is the conjunction, over the six float inputs, of the all-reduction of the entrywise test
  |x| < +∞. A conjunction that is 1 has both conjuncts 1; an all-reduction that is 1 has a 1 at every entry; and
  an extended real whose absolute value max x (−x) is below +∞ is neither +∞ nor −∞, so it is a real number.
-/
import proofs.«123100_j81028853006378_2_alg».proof.Proof.Gen.Pre_finite_inputs
import proofs.«123100_j81028853006378_2_alg».proof.Proof.RefReal
import Idealize.ShloMosaic.Lib.ReduceAll
import Idealize.ShloMosaic.Lib.ValueIdx
import Idealize.ShloMosaic.PureOps.Ideal.Laws

noncomputable section
namespace Cert.RefSide
open Idealize.ShloMosaic Cert.Pre_finite_inputs

/-- The scalar shape has exactly one index. -/
instance subsingleton_scalar_idx : Subsingleton Cert.Pre_finite_inputs.S_.Idx := ⟨fun _ _ => funext fun d => d.elim0⟩

/-- An extended real with |x| < +∞ (the comparison's one-bit result being 1) is a real number. -/
theorem real_of_abs_lt_inf (x : EReal)
    (hx : FloatOps.cmpf (F := Ideal) (φ := .f32) .olt (FloatOps.hostAbsf (F := Ideal) (φ := .f32) x)
      (FloatOps.ofBits (F := Ideal) .f32 0x7F800000#32) = 1#1) : ∃ v : ℝ, x = (v : EReal) := by
  have htop : Ideal.ofBits .f32 0x7F800000#32 = ⊤ := by simp [Ideal.ofBits, Ideal.ieee]
  have hx' : Ideal.cmp .olt (max x (-x)) (Ideal.ofBits .f32 0x7F800000#32) = 1#1 := hx
  rw [htop] at hx'
  unfold Ideal.cmp at hx'
  induction x using EReal.rec with
  | bot => simp at hx'
  | coe v => exact ⟨v, rfl⟩
  | top => simp at hx'

/-- One input: if the all-reduction of its entrywise test |x| < +∞ is 1, every entry is a real number. -/
theorem isReal_of_all {S : Shape} (a : FVec Ideal S .f32) (hb : S_.BroadcastsInDim S (![] : Fin 0 → Fin S.rank))
    {axes : List (Fin S.rank)} (hr : S.ReducesTo axes S_) (hu : 0 < S_.numel)
    (e : Host.reduce IntOp.andi (cmpf .olt (Host.absf a) (broadcastInDim S ![] hb (constant (F := Ideal) S_ .f32 0x7F800000#32)))
      (constantI S_ 1 1#1) hr hu ValueIdx.ix0 = 1#1) : IsReal a := fun i =>
  real_of_abs_lt_inf (a i) (Host.reduce_andi_all _ _ hr hu ValueIdx.ix0 e i)

/-- The precondition's six all-reductions give: every float input has only real entries. -/
theorem isReal_of_pre (a0 : FVec Ideal Cert.Pre_finite_inputs.S2048x1024 .f32) (a1 : IVec Cert.Pre_finite_inputs.S2048 32)
    (a2 : FVec Ideal Cert.Pre_finite_inputs.S1024x2002 .f32) (a3 : FVec Ideal Cert.Pre_finite_inputs.S1024x1024 .f32)
    (a4 : FVec Ideal Cert.Pre_finite_inputs.S1024x8000 .f32) (a5 : FVec Ideal Cert.Pre_finite_inputs.S1024x256 .f32)
    (a6 : FVec Ideal Cert.Pre_finite_inputs.S256x40000 .f32)
    (hpre : Cert.Pre_finite_inputs.fn (F := Ideal) a0 a1 a2 a3 a4 a5 a6 = fun _ => 1#1) :
    IsReal a0 ∧ IsReal a2 ∧ IsReal a3 ∧ IsReal a4 ∧ IsReal a5 ∧ IsReal a6 := by
  have h := congrFun hpre ValueIdx.ix0
  dsimp only [Cert.Pre_finite_inputs.fn, Cert.Pre_finite_inputs.fn_part1] at h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h0, h2⟩ := IntOp.andi_eq_one.1 h
  exact ⟨isReal_of_all a0 _ _ _ h0, isReal_of_all a2 _ _ _ h2, isReal_of_all a3 _ _ _ h3, isReal_of_all a4 _ _ _ h4,
    isReal_of_all a5 _ _ _ h5, isReal_of_all a6 _ _ _ h6⟩

end Cert.RefSide
end
-- ==== Proof.lean ====
/-
  The certificate of the adaptive-softmax logits kernel against its reference.

  Both programs return three matrices laid side by side along the columns: the head logits hidden · head_w, and
  for each of the two tail clusters the decoded down-projection of the rows whose target lies in the cluster. The
  kernel computes each block in its own pipelined region — the head as one matrix product per block of 1024 rows;
  a tail as, per row block, the down-projection with each row multiplied by its 0/1 cluster mask, kept in a scratch
  buffer, then one product with each tile of the decode weight, the last tile overhanging the array —, the
  reference as whole-array products with the mask applied last. Over the extended reals the two agree when every
  float input is finite: moving the row's mask across the sum over the contracted axis is the distributive law,
  which holds for real numbers and not at the infinities.

  The three frames: the word-level kernel's by relational proof data (at the word level a matrix product reads its
  whole right-operand tile, part of which is unnamed past the decode array's end, so what the tails write is not a
  function of the inputs, and is not claimed); the idealized kernel's from its run with the result named; the
  reference's from its run. The idealization rewrote nothing, so nothing is to be preserved.
-/
import proofs.«123100_j81028853006378_2_alg».proof.Defs
import proofs.«123100_j81028853006378_2_alg».proof.Proof.Gen.Kernel
import proofs.«123100_j81028853006378_2_alg».proof.Proof.Gen.KernelIdeal
import proofs.«123100_j81028853006378_2_alg».proof.Proof.Gen.ReferenceIdeal
import proofs.«123100_j81028853006378_2_alg».proof.Proof.Gen.Pre_finite_inputs
import proofs.«123100_j81028853006378_2_alg».proof.Proof.Gen.ReferenceIdeal.Run
import proofs.«123100_j81028853006378_2_alg».proof.Proof.BitsFrame
import proofs.«123100_j81028853006378_2_alg».proof.Proof.IdealResult
import proofs.«123100_j81028853006378_2_alg».proof.Proof.RefSide
import proofs.«123100_j81028853006378_2_alg».proof.Proof.RefFinite
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : @Cert.frame_Kernel Cert.Kernel.Gen.facts Cert.Pre_finite_inputs.Gen.facts :=
  fun m ρ _ => Cert.Kernel.BitsFrame.frame (F := Bits) m ρ

/-- The idealized kernel runs and leaves its arguments unchanged: its run with the result named, the result dropped. -/
theorem frame_ki : @Cert.frame_KernelIdeal Cert.KernelIdeal.Gen.facts Cert.Pre_finite_inputs.Gen.facts :=
  fun m ρ _ => (θ_run Cert.KernelIdeal.defs _ _).mono (fun _ h c => (h c).2) (Cert.KernelIdeal.Result.run m ρ)

/-- The reference runs and leaves its arguments unchanged: its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- From memories agreeing on the arguments, all float entries finite, both idealized programs end with the same
    result: the kernel's blocks are the reference's — the head block is the same product, each tail block the same
    two-stage product with the row's mask moved across the sum. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.KernelIdeal.Result.res m c, Cert.KernelIdeal.Result.run m ρ, ?_⟩
  refine (θ_run Cert.ReferenceIdeal.defs _ _).mono (fun r h c => ⟨(h c).1.trans ?_, (h c).2⟩)
    (Cert.ReferenceIdeal.Value.run (F := Ideal) m' ρ')
  obtain ⟨h0, h2, h3, h4, h5, h6⟩ := Cert.RefSide.isReal_of_pre _ _ _ _ _ _ _ (hpre c)
  rw [(hagree c).1, (hagree c).2.1, (hagree c).2.2.1, (hagree c).2.2.2.1, (hagree c).2.2.2.2.1, (hagree c).2.2.2.2.2.1, (hagree c).2.2.2.2.2.2]
  rw [Cert.RefSide.head_eq, Cert.RefSide.tail0_eq _ _ _ _ h0 h3 h4, Cert.RefSide.tail1_eq _ _ _ _ h0 h5 h6]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
